-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S100000x64 .f32) (main_arg1 : IVec S2x1280000 32) (main_arg2 : FVec F S3x64x64 .f32) (main_arg3 : FVec F S3x64 .f32) (main_arg4 : FVec F S3x64x64 .f32) (main_arg5 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_v13 main_v16
-- ==== Kernel.lean ====
abbrev S100000x64 : Shape := ⟨2, ![100000, 64]⟩
abbrev S2x1280000 : Shape := ⟨2, ![2, 1280000]⟩
abbrev S3x64x64 : Shape := ⟨3, ![3, 64, 64]⟩
abbrev S3x64 : Shape := ⟨2, ![3, 64]⟩
abbrev S1x1280000 : Shape := ⟨2, ![1, 1280000]⟩
abbrev S1280000 : Shape := ⟨1, ![1280000]⟩
abbrev S_ : Shape := ⟨0, ![]⟩
abbrev S100000 : Shape := ⟨1, ![100000]⟩
abbrev S1280000x1 : Shape := ⟨2, ![1280000, 1]⟩
abbrev S1280000x64 : Shape := ⟨2, ![1280000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S5000 : Shape := ⟨1, ![5000]⟩
abbrev S5000x1 : Shape := ⟨2, ![5000, 1]⟩
abbrev S100000x256 : Shape := ⟨2, ![100000, 256]⟩

abbrev nBuf : Space → Nat
  | .hbm => 131
  | .vmem => 36
  | .smem => 0
  | _ => 0

abbrev hbmTy0_0 (i : Nat) : BufTy := match i % 128 with
  | 0 => ⟨S100000x64, .f32⟩
  | 1 => ⟨S2x1280000, .i32⟩
  | 2 => ⟨S3x64x64, .f32⟩
  | 3 => ⟨S3x64, .f32⟩
  | 4 => ⟨S3x64x64, .f32⟩
  | 5 => ⟨S3x64, .f32⟩
  | 6 => ⟨S1x1280000, .i32⟩
  | 7 => ⟨S1280000, .i32⟩
  | 8 => ⟨S1x1280000, .i32⟩
  | 9 => ⟨S1280000, .i32⟩
  | 10 => ⟨S_, .f32⟩
  | 11 => ⟨S1280000, .f32⟩
  | 12 => ⟨S_, .f32⟩
  | 13 => ⟨S100000, .f32⟩
  | 14 => ⟨S1280000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1280000, .i32⟩
  | 29 => ⟨S1280000, .i1⟩
  | 30 => ⟨S_, .i32⟩
  | 31 => ⟨S1280000, .i32⟩
  | 32 => ⟨S1280000, .i32⟩
  | 33 => ⟨S1280000, .i32⟩
  | 34 => ⟨S1280000x1, .i32⟩
  | 35 => ⟨S1280000, .f32⟩
  | 36 => ⟨S_, .i32⟩
  | 37 => ⟨S1280000, .i32⟩
  | 38 => ⟨S1280000, .i1⟩
  | 39 => ⟨S_, .i32⟩
  | 40 => ⟨S1280000, .i32⟩
  | 41 => ⟨S1280000, .i32⟩
  | 42 => ⟨S1280000, .i32⟩
  | 43 => ⟨S1280000x1, .i32⟩
  | 44 => ⟨S1280000, .f32⟩
  | 45 => ⟨S1280000, .f32⟩
  | 46 => ⟨S_, .i32⟩
  | 47 => ⟨S1280000, .i32⟩
  | 48 => ⟨S1280000, .i1⟩
  | 49 => ⟨S_, .i32⟩
  | 50 => ⟨S1280000, .i32⟩
  | 51 => ⟨S1280000, .i32⟩
  | 52 => ⟨S1280000, .i32⟩
  | 53 => ⟨S1280000x1, .i32⟩
  | 54 => ⟨S1280000x64, .f32⟩
  | 55 => ⟨S1280000x1, .f32⟩
  | 56 => ⟨S1280000x64, .f32⟩
  | 57 => ⟨S1280000x64, .f32⟩
  | 58 => ⟨S_, .f32⟩
  | 59 => ⟨S100000x64, .f32⟩
  | 60 => ⟨S1280000x1, .i32⟩
  | 61 => ⟨S100000x64, .f32⟩
  | 62 => ⟨S1x64x64, .f32⟩
  | 63 => ⟨S64x64, .f32⟩
  | 64 => ⟨S1x64, .f32⟩
  | 65 => ⟨S64, .f32⟩
  | 66 => ⟨S1x64x64, .f32⟩
  | 67 => ⟨S64x64, .f32⟩
  | 68 => ⟨S1x64, .f32⟩
  | 69 => ⟨S64, .f32⟩
  | 70 => ⟨S1x64, .f32⟩
  | 71 => ⟨S1x64, .f32⟩
  | 72 => ⟨S100000x64, .f32⟩
  | 73 => ⟨S100000x64, .f32⟩
  | 74 => ⟨S_, .i32⟩
  | 75 => ⟨S1280000, .i32⟩
  | 76 => ⟨S1280000, .i1⟩
  | 77 => ⟨S_, .i32⟩
  | 78 => ⟨S1280000, .i32⟩
  | 79 => ⟨S1280000, .i32⟩
  | 80 => ⟨S1280000, .i32⟩
  | 81 => ⟨S1280000x1, .i32⟩
  | 82 => ⟨S1280000x64, .f32⟩
  | 83 => ⟨S1280000x1, .f32⟩
  | 84 => ⟨S1280000x64, .f32⟩
  | 85 => ⟨S1280000x64, .f32⟩
  | 86 => ⟨S_, .f32⟩
  | 87 => ⟨S100000x64, .f32⟩
  | 88 => ⟨S1280000x1, .i32⟩
  | 89 => ⟨S100000x64, .f32⟩
  | 90 => ⟨S1x64x64, .f32⟩
  | 91 => ⟨S64x64, .f32⟩
  | 92 => ⟨S1x64, .f32⟩
  | 93 => ⟨S64, .f32⟩
  | 94 => ⟨S1x64x64, .f32⟩
  | 95 => ⟨S64x64, .f32⟩
  | 96 => ⟨S1x64, .f32⟩
  | 97 => ⟨S64, .f32⟩
  | 98 => ⟨S1x64, .f32⟩
  | 99 => ⟨S1x64, .f32⟩
  | 100 => ⟨S100000x64, .f32⟩
  | 101 => ⟨S100000x64, .f32⟩
  | 102 => ⟨S_, .i32⟩
  | 103 => ⟨S1280000, .i32⟩
  | 104 => ⟨S1280000, .i1⟩
  | 105 => ⟨S_, .i32⟩
  | 106 => ⟨S1280000, .i32⟩
  | 107 => ⟨S1280000, .i32⟩
  | 108 => ⟨S1280000, .i32⟩
  | 109 => ⟨S1280000x1, .i32⟩
  | 110 => ⟨S1280000x64, .f32⟩
  | 111 => ⟨S1280000x1, .f32⟩
  | 112 => ⟨S1280000x64, .f32⟩
  | 113 => ⟨S1280000x64, .f32⟩
  | 114 => ⟨S_, .f32⟩
  | 115 => ⟨S100000x64, .f32⟩
  | 116 => ⟨S1280000x1, .i32⟩
  | 117 => ⟨S100000x64, .f32⟩
  | 118 => ⟨S1x64x64, .f32⟩
  | 119 => ⟨S64x64, .f32⟩
  | 120 => ⟨S1x64, .f32⟩
  | 121 => ⟨S64, .f32⟩
  | 122 => ⟨S1x64x64, .f32⟩
  | 123 => ⟨S64x64, .f32⟩
  | 124 => ⟨S1x64, .f32⟩
  | 125 => ⟨S64, .f32⟩
  | 126 => ⟨S1x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S100000x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76_0 : Ref sig .tc := ⟨.hbm, 100, rfl⟩
abbrev main_v76_1 : Ref sig .tc := ⟨.hbm, 101, rfl⟩
abbrev main_c_13 : Ref sig .tc := ⟨.hbm, 102, rfl⟩
abbrev main_v77 : Ref sig .tc := ⟨.hbm, 103, rfl⟩
abbrev main_v78 : Ref sig .tc := ⟨.hbm, 104, rfl⟩
abbrev main_c_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_15 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100_0 : Ref sig .tc := ⟨.hbm, 128, rfl⟩
abbrev main_v100_1 : Ref sig .tc := ⟨.hbm, 129, rfl⟩
abbrev main_v101 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  scatter_S100000_S1280000x1_S1280000_n_0_0_1_wf : ScatterDims.WF S100000 S1280000x1 S1280000 [] [0] [0] 1
  gather_S100000_S1280000x1_S1280000_n_0_n_n_0_1_1_wf : GatherDims.WF S100000 S1280000x1 S1280000 [] [0] [] [0] [] 1 ![1]
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)

variable [Facts₀]

def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000_S1280000x1_S1280000_n_0_n_n_0_1_1 : GatherDims S100000 S1280000x1 S1280000 where
  offsetDims := []
  collapsedSliceDims := [0]
  operandBatchingDims := []
  startIndicesBatchingDims := []
  startIndexMap := [0]
  indexVectorDim := 1
  sliceSizes := ![1]
  wf := gather_S100000_S1280000x1_S1280000_n_0_n_n_0_1_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v52_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v52_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v74) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v76_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v76_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v76_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v91) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v98) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v95) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v99) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v100_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v100_1) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S3x64x64 : Shape := ⟨3, ![3, 64, 64]⟩
abbrev S3x64 : Shape := ⟨2, ![3, 64]⟩
abbrev S1x1280000 : Shape := ⟨2, ![1, 1280000]⟩
abbrev S1280000 : Shape := ⟨1, ![1280000]⟩
abbrev S_ : Shape := ⟨0, ![]⟩
abbrev S100000 : Shape := ⟨1, ![100000]⟩
abbrev S1280000x1 : Shape := ⟨2, ![1280000, 1]⟩
abbrev S1280000x64 : Shape := ⟨2, ![1280000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x1 : Shape := ⟨2, ![100000, 1]⟩
abbrev S100000x256 : Shape := ⟨2, ![100000, 256]⟩

abbrev nBuf : Space → Nat
  | .hbm => 221
  | .vmem => 0
  | .smem => 0
  | _ => 0

abbrev hbmTy0_0 (i : Nat) : BufTy := match i % 128 with
  | 0 => ⟨S100000x64, .f32⟩
  | 1 => ⟨S2x1280000, .i32⟩
  | 2 => ⟨S3x64x64, .f32⟩
  | 3 => ⟨S3x64, .f32⟩
  | 4 => ⟨S3x64x64, .f32⟩
  | 5 => ⟨S3x64, .f32⟩
  | 6 => ⟨S1x1280000, .i32⟩
  | 7 => ⟨S1280000, .i32⟩
  | 8 => ⟨S1x1280000, .i32⟩
  | 9 => ⟨S1280000, .i32⟩
  | 10 => ⟨S_, .f32⟩
  | 11 => ⟨S1280000, .f32⟩
  | 12 => ⟨S_, .f32⟩
  | 13 => ⟨S100000, .f32⟩
  | 14 => ⟨S1280000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1280000, .i32⟩
  | 29 => ⟨S1280000, .i1⟩
  | 30 => ⟨S_, .i32⟩
  | 31 => ⟨S1280000, .i32⟩
  | 32 => ⟨S1280000, .i32⟩
  | 33 => ⟨S1280000, .i32⟩
  | 34 => ⟨S1280000x1, .i32⟩
  | 35 => ⟨S1280000, .f32⟩
  | 36 => ⟨S_, .i32⟩
  | 37 => ⟨S1280000, .i32⟩
  | 38 => ⟨S1280000, .i1⟩
  | 39 => ⟨S_, .i32⟩
  | 40 => ⟨S1280000, .i32⟩
  | 41 => ⟨S1280000, .i32⟩
  | 42 => ⟨S1280000, .i32⟩
  | 43 => ⟨S1280000x1, .i32⟩
  | 44 => ⟨S1280000, .f32⟩
  | 45 => ⟨S1280000, .f32⟩
  | 46 => ⟨S_, .i32⟩
  | 47 => ⟨S1280000, .i32⟩
  | 48 => ⟨S1280000, .i1⟩
  | 49 => ⟨S_, .i32⟩
  | 50 => ⟨S1280000, .i32⟩
  | 51 => ⟨S1280000, .i32⟩
  | 52 => ⟨S1280000, .i32⟩
  | 53 => ⟨S1280000x1, .i32⟩
  | 54 => ⟨S1280000x64, .f32⟩
  | 55 => ⟨S1280000x1, .f32⟩
  | 56 => ⟨S1280000x64, .f32⟩
  | 57 => ⟨S1280000x64, .f32⟩
  | 58 => ⟨S_, .f32⟩
  | 59 => ⟨S100000x64, .f32⟩
  | 60 => ⟨S1280000x1, .i32⟩
  | 61 => ⟨S100000x64, .f32⟩
  | 62 => ⟨S1x64x64, .f32⟩
  | 63 => ⟨S64x64, .f32⟩
  | 64 => ⟨S100000x64, .f32⟩
  | 65 => ⟨S1x64, .f32⟩
  | 66 => ⟨S64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .i1⟩
  | 73 => ⟨S_, .f32⟩
  | 74 => ⟨S100000x64, .f32⟩
  | 75 => ⟨S100000x64, .f32⟩
  | 76 => ⟨S100000x64, .f32⟩
  | 77 => ⟨S100000x64, .f32⟩
  | 78 => ⟨S1x64x64, .f32⟩
  | 79 => ⟨S64x64, .f32⟩
  | 80 => ⟨S100000x64, .f32⟩
  | 81 => ⟨S1x64, .f32⟩
  | 82 => ⟨S64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .i1⟩
  | 89 => ⟨S_, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S_, .f32⟩
  | 96 => ⟨S100000, .f32⟩
  | 97 => ⟨S100000x1, .f32⟩
  | 98 => ⟨S_, .f32⟩
  | 99 => ⟨S100000x1, .f32⟩
  | 100 => ⟨S100000x1, .f32⟩
  | 101 => ⟨S100000x1, .f32⟩
  | 102 => ⟨S100000x64, .f32⟩
  | 103 => ⟨S100000x64, .f32⟩
  | 104 => ⟨S_, .i32⟩
  | 105 => ⟨S1280000, .i32⟩
  | 106 => ⟨S1280000, .i1⟩
  | 107 => ⟨S_, .i32⟩
  | 108 => ⟨S1280000, .i32⟩
  | 109 => ⟨S1280000, .i32⟩
  | 110 => ⟨S1280000, .i32⟩
  | 111 => ⟨S1280000x1, .i32⟩
  | 112 => ⟨S1280000x64, .f32⟩
  | 113 => ⟨S1280000x1, .f32⟩
  | 114 => ⟨S1280000x64, .f32⟩
  | 115 => ⟨S1280000x64, .f32⟩
  | 116 => ⟨S_, .f32⟩
  | 117 => ⟨S100000x64, .f32⟩
  | 118 => ⟨S1280000x1, .i32⟩
  | 119 => ⟨S100000x64, .f32⟩
  | 120 => ⟨S1x64x64, .f32⟩
  | 121 => ⟨S64x64, .f32⟩
  | 122 => ⟨S100000x64, .f32⟩
  | 123 => ⟨S1x64, .f32⟩
  | 124 => ⟨S64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S100000x64, .f32⟩
  | 2 => ⟨S100000x64, .i1⟩
  | 3 => ⟨S_, .f32⟩
  | 4 => ⟨S100000x64, .f32⟩
  | 5 => ⟨S100000x64, .f32⟩
  | 6 => ⟨S100000x64, .f32⟩
  | 7 => ⟨S100000x64, .f32⟩
  | 8 => ⟨S1x64x64, .f32⟩
  | 9 => ⟨S64x64, .f32⟩
  | 10 => ⟨S100000x64, .f32⟩
  | 11 => ⟨S1x64, .f32⟩
  | 12 => ⟨S64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .i1⟩
  | 19 => ⟨S_, .f32⟩
  | 20 => ⟨S100000x64, .f32⟩
  | 21 => ⟨S100000x64, .f32⟩
  | 22 => ⟨S100000x64, .f32⟩
  | 23 => ⟨S100000x64, .f32⟩
  | 24 => ⟨S100000x64, .f32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S100000x1, .f32⟩
  | 32 => ⟨S100000x64, .f32⟩
  | 33 => ⟨S100000x64, .f32⟩
  | 34 => ⟨S_, .i32⟩
  | 35 => ⟨S1280000, .i32⟩
  | 36 => ⟨S1280000, .i1⟩
  | 37 => ⟨S_, .i32⟩
  | 38 => ⟨S1280000, .i32⟩
  | 39 => ⟨S1280000, .i32⟩
  | 40 => ⟨S1280000, .i32⟩
  | 41 => ⟨S1280000x1, .i32⟩
  | 42 => ⟨S1280000x64, .f32⟩
  | 43 => ⟨S1280000x1, .f32⟩
  | 44 => ⟨S1280000x64, .f32⟩
  | 45 => ⟨S1280000x64, .f32⟩
  | 46 => ⟨S_, .f32⟩
  | 47 => ⟨S100000x64, .f32⟩
  | 48 => ⟨S1280000x1, .i32⟩
  | 49 => ⟨S100000x64, .f32⟩
  | 50 => ⟨S1x64x64, .f32⟩
  | 51 => ⟨S64x64, .f32⟩
  | 52 => ⟨S100000x64, .f32⟩
  | 53 => ⟨S1x64, .f32⟩
  | 54 => ⟨S64, .f32⟩
  | 55 => ⟨S1x64, .f32⟩
  | 56 => ⟨S100000x64, .f32⟩
  | 57 => ⟨S100000x64, .f32⟩
  | 58 => ⟨S_, .f32⟩
  | 59 => ⟨S100000x64, .f32⟩
  | 60 => ⟨S100000x64, .i1⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S1x64x64, .f32⟩
  | 67 => ⟨S64x64, .f32⟩
  | 68 => ⟨S100000x64, .f32⟩
  | 69 => ⟨S1x64, .f32⟩
  | 70 => ⟨S64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .i1⟩
  | 77 => ⟨S_, .f32⟩
  | 78 => ⟨S100000x64, .f32⟩
  | 79 => ⟨S100000x64, .f32⟩
  | 80 => ⟨S100000x64, .f32⟩
  | 81 => ⟨S100000x64, .f32⟩
  | 82 => ⟨S100000x64, .f32⟩
  | 83 => ⟨S_, .f32⟩
  | 84 => ⟨S100000, .f32⟩
  | 85 => ⟨S100000x1, .f32⟩
  | 86 => ⟨S_, .f32⟩
  | 87 => ⟨S100000x1, .f32⟩
  | 88 => ⟨S100000x1, .f32⟩
  | 89 => ⟨S100000x1, .f32⟩
  | 90 => ⟨S100000x64, .f32⟩
  | 91 => ⟨S100000x64, .f32⟩
  | 92 => ⟨S100000x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_c_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩
abbrev main_cst_20 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_21 : Ref sig .tc := ⟨.hbm, 144, rfl⟩
abbrev main_v113 : Ref sig .tc := ⟨.hbm, 145, rfl⟩
abbrev main_v114 : Ref sig .tc := ⟨.hbm, 146, rfl⟩
abbrev main_cst_22 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_23 : Ref sig .tc := ⟨.hbm, 153, rfl⟩
abbrev main_v120 : Ref sig .tc := ⟨.hbm, 154, rfl⟩
abbrev main_v121 : Ref sig .tc := ⟨.hbm, 155, rfl⟩
abbrev main_cst_24 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_c_25 : Ref sig .tc := ⟨.hbm, 162, rfl⟩
abbrev main_v127 : Ref sig .tc := ⟨.hbm, 163, rfl⟩
abbrev main_v128 : Ref sig .tc := ⟨.hbm, 164, rfl⟩
abbrev main_c_26 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_27 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_28 : Ref sig .tc := ⟨.hbm, 186, rfl⟩
abbrev main_v148 : Ref sig .tc := ⟨.hbm, 187, rfl⟩
abbrev main_v149 : Ref sig .tc := ⟨.hbm, 188, rfl⟩
abbrev main_cst_29 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_30 : Ref sig .tc := ⟨.hbm, 202, rfl⟩
abbrev main_v162 : Ref sig .tc := ⟨.hbm, 203, rfl⟩
abbrev main_v163 : Ref sig .tc := ⟨.hbm, 204, rfl⟩
abbrev main_cst_31 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_32 : Ref sig .tc := ⟨.hbm, 211, rfl⟩
abbrev main_v169 : Ref sig .tc := ⟨.hbm, 212, rfl⟩
abbrev main_v170 : Ref sig .tc := ⟨.hbm, 213, rfl⟩
abbrev main_cst_33 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  scatter_S100000_S1280000x1_S1280000_n_0_0_1_wf : ScatterDims.WF S100000 S1280000x1 S1280000 [] [0] [0] 1
  gather_S100000_S1280000x1_S1280000_n_0_n_n_0_1_1_wf : GatherDims.WF S100000 S1280000x1 S1280000 [] [0] [] [0] [] 1 ![1]
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x64_S100000x64_1_0_0_1_n_n_wf : DotDims.WF S100000x64 S64x64 S100000x64 [1] [0] [0] [1] [] []

variable [Facts₀]

def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000_S1280000x1_S1280000_n_0_n_n_0_1_1 : GatherDims S100000 S1280000x1 S1280000 where
  offsetDims := []
  collapsedSliceDims := [0]
  operandBatchingDims := []
  startIndicesBatchingDims := []
  startIndexMap := [0]
  indexVectorDim := 1
  sliceSizes := ![1]
  wf := gather_S100000_S1280000x1_S1280000_n_0_n_n_0_1_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer0.lean ====
/-
  Layer 1's kernel call, seen from the pipeline that runs it: the call walks 20 grid points, point `t` working on rows
  5000·t … 5000·t + 4999. At a point the pipeline has staged, in on-chip buffers, the block of those rows of the node features
  (window 0) and of the aggregated features (window 1), and the whole of the two weight matrices and the two bias rows (windows
  2 to 5, whose block never changes: they are fetched once and found in place afterwards); the body reads all six, and
  stores the block of the layer's new features (window 6) and the same block scaled row by row to unit length (window 7), each
  with one store of the whole block. This file says what the body leaves in the two output buffers as a function of the six
  input blocks, proves that the body does leave that (running it symbolically), and packages it as the proof data the
  pipeline library asks for, with its per-point obligation. Everything is stated at an arbitrary contents `V` of the arrays
  when the call is entered, and for any float instance.
-/
import proofs.«170062_j90890097918586_1_alg».proof.Proof.Gen.KernelIdeal.Launch
import proofs.«170062_j90890097918586_1_alg».proof.Proof.Gen.KernelIdeal.Skeleton
import proofs.«170062_j90890097918586_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the call is entered
variable (V : (c : Dev nD) → (b : Ref sig .tc) → Buf (Elt F) ((c : Thread nD τ).loc b))

/-! ## The blocks -/

/-- Window `w`'s block at point `t`: its array, as the call finds it, read through the block's rectangle. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or the block index
    did not move since the last fetch. -/
theorem held0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point, whether the pipeline fetched it there or the block index
    did not move since the last fetch. -/
theorem held1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point, whether the pipeline fetched it there or the block index
    did not move since the last fetch. -/
theorem held2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point, whether the pipeline fetched it there or the block index
    did not move since the last fetch. -/
theorem held3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point, whether the pipeline fetched it there or the block index
    did not move since the last fetch. -/
theorem held4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point, whether the pipeline fetched it there or the block index
    did not move since the last fetch. -/
theorem held5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the two output buffers -/

/-- The body's accesses are whole buffers: a block of rows, a weight matrix, a bias row. -/
abbrev rA : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The block of new features: the one store into window 6's buffer, its value the gated dense layer of the six loads. -/
def newBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay2 (View.ld x0 rA) (View.ld x1 rA) (View.ld x2 rW) (View.ld x3 rB) (View.ld x4 rW) (View.ld x5 rB)⟩]

/-- The block of unit-length rows: the one store into window 7's buffer, the new features times the reciprocal root of each
    row's floored sum of squares. -/
def unitBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay1 (k0_pay2 (View.ld x0 rA) (View.ld x1 rA) (View.ld x2 rW) (View.ld x3 rB) (View.ld x4 rW) (View.ld x5 rB)) (k0_pay3 (View.ld x0 rA) (View.ld x1 rA) (View.ld x2 rW) (View.ld x3 rB) (View.ld x4 rW) (View.ld x5 rB))⟩]

/-- One store of the whole block covers the buffer. -/
theorem covers (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- From the six input buffers held at contents reading `x0 … x5` and the two output buffers at anything, the body runs to its
    return with the inputs as they were and the outputs at `newBlock` and `unitBlock` of the inputs. -/
theorem bodyTriple (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (newBlock x0 x1 x2 x3 x4 x5) ∗ owns (c : Thread nD τ) arg8 fullShare (unitBlock x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers _)
  iexists _; isplitr
  swap; · iexact H7
  ipureintro
  try dsimp only
  exact View.read_writes_eq_canon _ _ _ (covers _)

/-! ## The pipeline's proof data -/

/-- The call's proof data on core `c`: the arrays as the call finds them; after the body at point `t` each input buffer
    still at its block and the two output buffers at `newBlock` / `unitBlock` of the input blocks; nothing owed, full shares. -/
def data (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => newBlock (blockAt V c 0 t) (blockAt V c 1 t) (blockAt V c 2 t) (blockAt V c 3 t) (blockAt V c 4 t) (blockAt V c 5 t)
    | ⟨7, _⟩ => unitBlock (blockAt V c 0 t) (blockAt V c 1 t) (blockAt V c 2 t) (blockAt V c 3 t) (blockAt V c 4 t) (blockAt V c 5 t)
  Φ _ := Pipeline.ΦA spec0 c
  q _ := fullShare
  owed _ := 0

theorem arrays_eq (c : Dev nD) (w : Fin cfg0.W) : (data V c).A w = V c (Pipeline.arrRef spec0 w) := by
  dsimp only [data]

theorem after0 (c : Dev nD) (t : Fin cfg0.N) : (data V c).after 0 t = blockAt V c 0 t := by dsimp only [data]
theorem after1 (c : Dev nD) (t : Fin cfg0.N) : (data V c).after 1 t = blockAt V c 1 t := by dsimp only [data]
theorem after2 (c : Dev nD) (t : Fin cfg0.N) : (data V c).after 2 t = blockAt V c 2 t := by dsimp only [data]
theorem after3 (c : Dev nD) (t : Fin cfg0.N) : (data V c).after 3 t = blockAt V c 3 t := by dsimp only [data]
theorem after4 (c : Dev nD) (t : Fin cfg0.N) : (data V c).after 4 t = blockAt V c 4 t := by dsimp only [data]
theorem after5 (c : Dev nD) (t : Fin cfg0.N) : (data V c).after 5 t = blockAt V c 5 t := by dsimp only [data]
theorem after6 (c : Dev nD) (t : Fin cfg0.N) : (data V c).after 6 t = newBlock (blockAt V c 0 t) (blockAt V c 1 t) (blockAt V c 2 t) (blockAt V c 3 t) (blockAt V c 4 t) (blockAt V c 5 t) := by dsimp only [data]
theorem after7 (c : Dev nD) (t : Fin cfg0.N) : (data V c).after 7 t = unitBlock (blockAt V c 0 t) (blockAt V c 1 t) (blockAt V c 2 t) (blockAt V c 3 t) (blockAt V c 4 t) (blockAt V c 5 t) := by dsimp only [data]

theorem held0 (c : Dev nD) (t : Fin cfg0.N) (d) : (data V c).before 0 t d = blockAt V c 0 t :=
  held0_of V (data V c) (arrays_eq V c 0) (after0 V c) t d
theorem held1 (c : Dev nD) (t : Fin cfg0.N) (d) : (data V c).before 1 t d = blockAt V c 1 t :=
  held1_of V (data V c) (arrays_eq V c 1) (after1 V c) t d
theorem held2 (c : Dev nD) (t : Fin cfg0.N) (d) : (data V c).before 2 t d = blockAt V c 2 t :=
  held2_of V (data V c) (arrays_eq V c 2) (after2 V c) t d
theorem held3 (c : Dev nD) (t : Fin cfg0.N) (d) : (data V c).before 3 t d = blockAt V c 3 t :=
  held3_of V (data V c) (arrays_eq V c 3) (after3 V c) t d
theorem held4 (c : Dev nD) (t : Fin cfg0.N) (d) : (data V c).before 4 t d = blockAt V c 4 t :=
  held4_of V (data V c) (arrays_eq V c 4) (after4 V c) t d
theorem held5 (c : Dev nD) (t : Fin cfg0.N) (d) : (data V c).before 5 t d = blockAt V c 5 t :=
  held5_of V (data V c) (arrays_eq V c 5) (after5 V c) t d

/-! ## The obligation at a point -/

/-- What the body is called with at point `t`: the eight current staging buffers, -/
def bodyPre (c : Dev nD) (t : Fin cfg0.N) : sProp 𝕄 :=
  iprop((data V c).Φ t.castSucc ∗ (data V c).owesAt () t.castSucc
    ∗ (∃ d, owns (c : Thread nD τ) (st0_0 t) fullShare ((data V c).before 0 t d))
    ∗ (∃ d, owns (c : Thread nD τ) (st0_1 t) fullShare ((data V c).before 1 t d))
    ∗ (∃ d, owns (c : Thread nD τ) (st0_2 t) fullShare ((data V c).before 2 t d))
    ∗ (∃ d, owns (c : Thread nD τ) (st0_3 t) fullShare ((data V c).before 3 t d))
    ∗ (∃ d, owns (c : Thread nD τ) (st0_4 t) fullShare ((data V c).before 4 t d))
    ∗ (∃ d, owns (c : Thread nD τ) (st0_5 t) fullShare ((data V c).before 5 t d))
    ∗ (∃ d, owns (c : Thread nD τ) (st0_6 t) fullShare ((data V c).before 6 t d))
    ∗ (∃ d, owns (c : Thread nD τ) (st0_7 t) fullShare ((data V c).before 7 t d)))

/-- and what it returns. -/
def bodyPost (c : Dev nD) (t : Fin cfg0.N) : sProp 𝕄 :=
  iprop((data V c).Φ t.succ ∗ (data V c).owesAt () t.succ
    ∗ owns (c : Thread nD τ) (st0_0 t) fullShare ((data V c).after 0 t)
    ∗ owns (c : Thread nD τ) (st0_1 t) fullShare ((data V c).after 1 t)
    ∗ owns (c : Thread nD τ) (st0_2 t) fullShare ((data V c).after 2 t)
    ∗ owns (c : Thread nD τ) (st0_3 t) fullShare ((data V c).after 3 t)
    ∗ owns (c : Thread nD τ) (st0_4 t) fullShare ((data V c).after 4 t)
    ∗ owns (c : Thread nD τ) (st0_5 t) fullShare ((data V c).after 5 t)
    ∗ owns (c : Thread nD τ) (st0_6 t) fullShare ((data V c).after 6 t)
    ∗ owns (c : Thread nD τ) (st0_7 t) fullShare ((data V c).after 7 t))

set_option maxHeartbeats 1000000 in
/-- The body at any point: the input buffers hold their blocks, so the triple applies; the invariant and what the core owes
    pass through untouched. -/
theorem bodyAtPoint (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4, held5]
  rw [show (data V c).Φ t.succ = (data V c).Φ t.castSucc from rfl,
    show (data V c).owesAt () t.succ = (data V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyTriple c Set.univ _ _ _ _ _ _ _ _ _ _ _ _ _ _ _ _ _ (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (data (F := F) V c) (defs₀ (F := F)) Variants.none () Set.univ := fun t => by
  rw [bigSep_W0, bigSep_W0]
  exact bodyAtPoint V c t

end Cert.KernelIdeal.Layer0

end
-- ==== Proof.Layer1.lean ====
/-
  Layer 2's kernel call, seen from the pipeline that runs it: the call walks 20 grid points, point `t` working on rows
  5000·t … 5000·t + 4999. At a point the pipeline has staged, in on-chip buffers, the block of those rows of the node features
  (window 0) and of the aggregated features (window 1), and the whole of the two weight matrices and the two bias rows (windows
  2 to 5, whose block never changes: they are fetched once and found in place afterwards); the body reads all six, and
  stores the block of the layer's new features (window 6) and the same block scaled row by row to unit length (window 7), each
  with one store of the whole block. This file says what the body leaves in the two output buffers as a function of the six
  input blocks, proves that the body does leave that (running it symbolically), and packages it as the proof data the
  pipeline library asks for, with its per-point obligation. Everything is stated at an arbitrary contents `V` of the arrays
  when the call is entered, and for any float instance.
-/
import proofs.«170062_j90890097918586_1_alg».proof.Proof.Gen.KernelIdeal.Launch
import proofs.«170062_j90890097918586_1_alg».proof.Proof.Gen.KernelIdeal.Skeleton
import proofs.«170062_j90890097918586_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the call is entered
variable (V : (c : Dev nD) → (b : Ref sig .tc) → Buf (Elt F) ((c : Thread nD τ).loc b))

/-! ## The blocks -/

/-- Window `w`'s block at point `t`: its array, as the call finds it, read through the block's rectangle. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or the block index
    did not move since the last fetch. -/
theorem held0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point, whether the pipeline fetched it there or the block index
    did not move since the last fetch. -/
theorem held1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point, whether the pipeline fetched it there or the block index
    did not move since the last fetch. -/
theorem held2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point, whether the pipeline fetched it there or the block index
    did not move since the last fetch. -/
theorem held3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point, whether the pipeline fetched it there or the block index
    did not move since the last fetch. -/
theorem held4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point, whether the pipeline fetched it there or the block index
    did not move since the last fetch. -/
theorem held5_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the two output buffers -/

/-- The body's accesses are whole buffers: a block of rows, a weight matrix, a bias row. -/
abbrev rA : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The block of new features: the one store into window 6's buffer, its value the gated dense layer of the six loads. -/
def newBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k1_pay2 (View.ld x0 rA) (View.ld x1 rA) (View.ld x2 rW) (View.ld x3 rB) (View.ld x4 rW) (View.ld x5 rB)⟩]

/-- The block of unit-length rows: the one store into window 7's buffer, the new features times the reciprocal root of each
    row's floored sum of squares. -/
def unitBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k1_pay1 (k1_pay2 (View.ld x0 rA) (View.ld x1 rA) (View.ld x2 rW) (View.ld x3 rB) (View.ld x4 rW) (View.ld x5 rB)) (k1_pay3 (View.ld x0 rA) (View.ld x1 rA) (View.ld x2 rW) (View.ld x3 rB) (View.ld x4 rW) (View.ld x5 rB))⟩]

/-- One store of the whole block covers the buffer. -/
theorem covers (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- From the six input buffers held at contents reading `x0 … x5` and the two output buffers at anything, the body runs to its
    return with the inputs as they were and the outputs at `newBlock` and `unitBlock` of the inputs. -/
theorem bodyTriple (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (newBlock x0 x1 x2 x3 x4 x5) ∗ owns (c : Thread nD τ) arg8 fullShare (unitBlock x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers _)
  iexists _; isplitr
  swap; · iexact H7
  ipureintro
  try dsimp only
  exact View.read_writes_eq_canon _ _ _ (covers _)

/-! ## The pipeline's proof data -/

/-- The call's proof data on core `c`: the arrays as the call finds them; after the body at point `t` each input buffer
    still at its block and the two output buffers at `newBlock` / `unitBlock` of the input blocks; nothing owed, full shares. -/
def data (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => newBlock (blockAt V c 0 t) (blockAt V c 1 t) (blockAt V c 2 t) (blockAt V c 3 t) (blockAt V c 4 t) (blockAt V c 5 t)
    | ⟨7, _⟩ => unitBlock (blockAt V c 0 t) (blockAt V c 1 t) (blockAt V c 2 t) (blockAt V c 3 t) (blockAt V c 4 t) (blockAt V c 5 t)
  Φ _ := Pipeline.ΦA spec1 c
  q _ := fullShare
  owed _ := 0

theorem arrays_eq (c : Dev nD) (w : Fin cfg1.W) : (data V c).A w = V c (Pipeline.arrRef spec1 w) := by
  dsimp only [data]

theorem after0 (c : Dev nD) (t : Fin cfg1.N) : (data V c).after 0 t = blockAt V c 0 t := by dsimp only [data]
theorem after1 (c : Dev nD) (t : Fin cfg1.N) : (data V c).after 1 t = blockAt V c 1 t := by dsimp only [data]
theorem after2 (c : Dev nD) (t : Fin cfg1.N) : (data V c).after 2 t = blockAt V c 2 t := by dsimp only [data]
theorem after3 (c : Dev nD) (t : Fin cfg1.N) : (data V c).after 3 t = blockAt V c 3 t := by dsimp only [data]
theorem after4 (c : Dev nD) (t : Fin cfg1.N) : (data V c).after 4 t = blockAt V c 4 t := by dsimp only [data]
theorem after5 (c : Dev nD) (t : Fin cfg1.N) : (data V c).after 5 t = blockAt V c 5 t := by dsimp only [data]
theorem after6 (c : Dev nD) (t : Fin cfg1.N) : (data V c).after 6 t = newBlock (blockAt V c 0 t) (blockAt V c 1 t) (blockAt V c 2 t) (blockAt V c 3 t) (blockAt V c 4 t) (blockAt V c 5 t) := by dsimp only [data]
theorem after7 (c : Dev nD) (t : Fin cfg1.N) : (data V c).after 7 t = unitBlock (blockAt V c 0 t) (blockAt V c 1 t) (blockAt V c 2 t) (blockAt V c 3 t) (blockAt V c 4 t) (blockAt V c 5 t) := by dsimp only [data]

theorem held0 (c : Dev nD) (t : Fin cfg1.N) (d) : (data V c).before 0 t d = blockAt V c 0 t :=
  held0_of V (data V c) (arrays_eq V c 0) (after0 V c) t d
theorem held1 (c : Dev nD) (t : Fin cfg1.N) (d) : (data V c).before 1 t d = blockAt V c 1 t :=
  held1_of V (data V c) (arrays_eq V c 1) (after1 V c) t d
theorem held2 (c : Dev nD) (t : Fin cfg1.N) (d) : (data V c).before 2 t d = blockAt V c 2 t :=
  held2_of V (data V c) (arrays_eq V c 2) (after2 V c) t d
theorem held3 (c : Dev nD) (t : Fin cfg1.N) (d) : (data V c).before 3 t d = blockAt V c 3 t :=
  held3_of V (data V c) (arrays_eq V c 3) (after3 V c) t d
theorem held4 (c : Dev nD) (t : Fin cfg1.N) (d) : (data V c).before 4 t d = blockAt V c 4 t :=
  held4_of V (data V c) (arrays_eq V c 4) (after4 V c) t d
theorem held5 (c : Dev nD) (t : Fin cfg1.N) (d) : (data V c).before 5 t d = blockAt V c 5 t :=
  held5_of V (data V c) (arrays_eq V c 5) (after5 V c) t d

/-! ## The obligation at a point -/

/-- What the body is called with at point `t`: the eight current staging buffers, -/
def bodyPre (c : Dev nD) (t : Fin cfg1.N) : sProp 𝕄 :=
  iprop((data V c).Φ t.castSucc ∗ (data V c).owesAt () t.castSucc
    ∗ (∃ d, owns (c : Thread nD τ) (st1_0 t) fullShare ((data V c).before 0 t d))
    ∗ (∃ d, owns (c : Thread nD τ) (st1_1 t) fullShare ((data V c).before 1 t d))
    ∗ (∃ d, owns (c : Thread nD τ) (st1_2 t) fullShare ((data V c).before 2 t d))
    ∗ (∃ d, owns (c : Thread nD τ) (st1_3 t) fullShare ((data V c).before 3 t d))
    ∗ (∃ d, owns (c : Thread nD τ) (st1_4 t) fullShare ((data V c).before 4 t d))
    ∗ (∃ d, owns (c : Thread nD τ) (st1_5 t) fullShare ((data V c).before 5 t d))
    ∗ (∃ d, owns (c : Thread nD τ) (st1_6 t) fullShare ((data V c).before 6 t d))
    ∗ (∃ d, owns (c : Thread nD τ) (st1_7 t) fullShare ((data V c).before 7 t d)))

/-- and what it returns. -/
def bodyPost (c : Dev nD) (t : Fin cfg1.N) : sProp 𝕄 :=
  iprop((data V c).Φ t.succ ∗ (data V c).owesAt () t.succ
    ∗ owns (c : Thread nD τ) (st1_0 t) fullShare ((data V c).after 0 t)
    ∗ owns (c : Thread nD τ) (st1_1 t) fullShare ((data V c).after 1 t)
    ∗ owns (c : Thread nD τ) (st1_2 t) fullShare ((data V c).after 2 t)
    ∗ owns (c : Thread nD τ) (st1_3 t) fullShare ((data V c).after 3 t)
    ∗ owns (c : Thread nD τ) (st1_4 t) fullShare ((data V c).after 4 t)
    ∗ owns (c : Thread nD τ) (st1_5 t) fullShare ((data V c).after 5 t)
    ∗ owns (c : Thread nD τ) (st1_6 t) fullShare ((data V c).after 6 t)
    ∗ owns (c : Thread nD τ) (st1_7 t) fullShare ((data V c).after 7 t))

set_option maxHeartbeats 1000000 in
/-- The body at any point: the input buffers hold their blocks, so the triple applies; the invariant and what the core owes
    pass through untouched. -/
theorem bodyAtPoint (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3, held4, held5]
  rw [show (data V c).Φ t.succ = (data V c).Φ t.castSucc from rfl,
    show (data V c).owesAt () t.succ = (data V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyTriple c Set.univ _ _ _ _ _ _ _ _ _ _ _ _ _ _ _ _ _ (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (data (F := F) V c) (defs₀ (F := F)) Variants.none () Set.univ := fun t => by
  rw [bigSep_W1, bigSep_W1]
  exact bodyAtPoint V c t

end Cert.KernelIdeal.Layer1

end
-- ==== Proof.Layer2.lean ====
/-
  Layer 3's kernel call, seen from the pipeline that runs it: the call walks 20 grid points, point `t` working on rows
  5000·t … 5000·t + 4999. At a point the pipeline has staged, in on-chip buffers, the block of those rows of the node features
  (window 0) and of the aggregated features (window 1), and the whole of the two weight matrices and the two bias rows (windows
  2 to 5, whose block never changes: they are fetched once and found in place afterwards); the body reads all six, and
  stores the block of the layer's new features (window 6) and the same block scaled row by row to unit length (window 7), each
  with one store of the whole block. This file says what the body leaves in the two output buffers as a function of the six
  input blocks, proves that the body does leave that (running it symbolically), and packages it as the proof data the
  pipeline library asks for, with its per-point obligation. Everything is stated at an arbitrary contents `V` of the arrays
  when the call is entered, and for any float instance.
-/
import proofs.«170062_j90890097918586_1_alg».proof.Proof.Gen.KernelIdeal.Launch
import proofs.«170062_j90890097918586_1_alg».proof.Proof.Gen.KernelIdeal.Skeleton
import proofs.«170062_j90890097918586_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the call is entered
variable (V : (c : Dev nD) → (b : Ref sig .tc) → Buf (Elt F) ((c : Thread nD τ).loc b))

/-! ## The blocks -/

/-- Window `w`'s block at point `t`: its array, as the call finds it, read through the block's rectangle. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or the block index
    did not move since the last fetch. -/
theorem held0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point, whether the pipeline fetched it there or the block index
    did not move since the last fetch. -/
theorem held1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point, whether the pipeline fetched it there or the block index
    did not move since the last fetch. -/
theorem held2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point, whether the pipeline fetched it there or the block index
    did not move since the last fetch. -/
theorem held3_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point, whether the pipeline fetched it there or the block index
    did not move since the last fetch. -/
theorem held4_of {c : Dev nD} (dat : Dat τ (Elt F) Unit ℕ (UR sig nD τ) ℕ cfg2 c) (hA : dat.A 4 = V c (Pipeline.arrRef spec2 4))
    (hafter : ∀ t, dat.after 4 t = blockAt V c 4 t) (t : Fin cfg2.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point, whether the pipeline fetched it there or the block index
    did not move since the last fetch. -/
theorem held5_of {c : Dev nD} (dat : Dat τ (Elt F) Unit ℕ (UR sig nD τ) ℕ cfg2 c) (hA : dat.A 5 = V c (Pipeline.arrRef spec2 5))
    (hafter : ∀ t, dat.after 5 t = blockAt V c 5 t) (t : Fin cfg2.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the two output buffers -/

/-- The body's accesses are whole buffers: a block of rows, a weight matrix, a bias row. -/
abbrev rA : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The block of new features: the one store into window 6's buffer, its value the gated dense layer of the six loads. -/
def newBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k2_pay2 (View.ld x0 rA) (View.ld x1 rA) (View.ld x2 rW) (View.ld x3 rB) (View.ld x4 rW) (View.ld x5 rB)⟩]

/-- The block of unit-length rows: the one store into window 7's buffer, the new features times the reciprocal root of each
    row's floored sum of squares. -/
def unitBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k2_pay1 (k2_pay2 (View.ld x0 rA) (View.ld x1 rA) (View.ld x2 rW) (View.ld x3 rB) (View.ld x4 rW) (View.ld x5 rB)) (k2_pay3 (View.ld x0 rA) (View.ld x1 rA) (View.ld x2 rW) (View.ld x3 rB) (View.ld x4 rW) (View.ld x5 rB))⟩]

/-- One store of the whole block covers the buffer. -/
theorem covers (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- From the six input buffers held at contents reading `x0 … x5` and the two output buffers at anything, the body runs to its
    return with the inputs as they were and the outputs at `newBlock` and `unitBlock` of the inputs. -/
theorem bodyTriple (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (newBlock x0 x1 x2 x3 x4 x5) ∗ owns (c : Thread nD τ) arg8 fullShare (unitBlock x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers _)
  iexists _; isplitr
  swap; · iexact H7
  ipureintro
  try dsimp only
  exact View.read_writes_eq_canon _ _ _ (covers _)

/-! ## The pipeline's proof data -/

/-- The call's proof data on core `c`: the arrays as the call finds them; after the body at point `t` each input buffer
    still at its block and the two output buffers at `newBlock` / `unitBlock` of the input blocks; nothing owed, full shares. -/
def data (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => newBlock (blockAt V c 0 t) (blockAt V c 1 t) (blockAt V c 2 t) (blockAt V c 3 t) (blockAt V c 4 t) (blockAt V c 5 t)
    | ⟨7, _⟩ => unitBlock (blockAt V c 0 t) (blockAt V c 1 t) (blockAt V c 2 t) (blockAt V c 3 t) (blockAt V c 4 t) (blockAt V c 5 t)
  Φ _ := Pipeline.ΦA spec2 c
  q _ := fullShare
  owed _ := 0

theorem arrays_eq (c : Dev nD) (w : Fin cfg2.W) : (data V c).A w = V c (Pipeline.arrRef spec2 w) := by
  dsimp only [data]

theorem after0 (c : Dev nD) (t : Fin cfg2.N) : (data V c).after 0 t = blockAt V c 0 t := by dsimp only [data]
theorem after1 (c : Dev nD) (t : Fin cfg2.N) : (data V c).after 1 t = blockAt V c 1 t := by dsimp only [data]
theorem after2 (c : Dev nD) (t : Fin cfg2.N) : (data V c).after 2 t = blockAt V c 2 t := by dsimp only [data]
theorem after3 (c : Dev nD) (t : Fin cfg2.N) : (data V c).after 3 t = blockAt V c 3 t := by dsimp only [data]
theorem after4 (c : Dev nD) (t : Fin cfg2.N) : (data V c).after 4 t = blockAt V c 4 t := by dsimp only [data]
theorem after5 (c : Dev nD) (t : Fin cfg2.N) : (data V c).after 5 t = blockAt V c 5 t := by dsimp only [data]
theorem after6 (c : Dev nD) (t : Fin cfg2.N) : (data V c).after 6 t = newBlock (blockAt V c 0 t) (blockAt V c 1 t) (blockAt V c 2 t) (blockAt V c 3 t) (blockAt V c 4 t) (blockAt V c 5 t) := by dsimp only [data]
theorem after7 (c : Dev nD) (t : Fin cfg2.N) : (data V c).after 7 t = unitBlock (blockAt V c 0 t) (blockAt V c 1 t) (blockAt V c 2 t) (blockAt V c 3 t) (blockAt V c 4 t) (blockAt V c 5 t) := by dsimp only [data]

theorem held0 (c : Dev nD) (t : Fin cfg2.N) (d) : (data V c).before 0 t d = blockAt V c 0 t :=
  held0_of V (data V c) (arrays_eq V c 0) (after0 V c) t d
theorem held1 (c : Dev nD) (t : Fin cfg2.N) (d) : (data V c).before 1 t d = blockAt V c 1 t :=
  held1_of V (data V c) (arrays_eq V c 1) (after1 V c) t d
theorem held2 (c : Dev nD) (t : Fin cfg2.N) (d) : (data V c).before 2 t d = blockAt V c 2 t :=
  held2_of V (data V c) (arrays_eq V c 2) (after2 V c) t d
theorem held3 (c : Dev nD) (t : Fin cfg2.N) (d) : (data V c).before 3 t d = blockAt V c 3 t :=
  held3_of V (data V c) (arrays_eq V c 3) (after3 V c) t d
theorem held4 (c : Dev nD) (t : Fin cfg2.N) (d) : (data V c).before 4 t d = blockAt V c 4 t :=
  held4_of V (data V c) (arrays_eq V c 4) (after4 V c) t d
theorem held5 (c : Dev nD) (t : Fin cfg2.N) (d) : (data V c).before 5 t d = blockAt V c 5 t :=
  held5_of V (data V c) (arrays_eq V c 5) (after5 V c) t d

/-! ## The obligation at a point -/

/-- What the body is called with at point `t`: the eight current staging buffers, -/
def bodyPre (c : Dev nD) (t : Fin cfg2.N) : sProp 𝕄 :=
  iprop((data V c).Φ t.castSucc ∗ (data V c).owesAt () t.castSucc
    ∗ (∃ d, owns (c : Thread nD τ) (st2_0 t) fullShare ((data V c).before 0 t d))
    ∗ (∃ d, owns (c : Thread nD τ) (st2_1 t) fullShare ((data V c).before 1 t d))
    ∗ (∃ d, owns (c : Thread nD τ) (st2_2 t) fullShare ((data V c).before 2 t d))
    ∗ (∃ d, owns (c : Thread nD τ) (st2_3 t) fullShare ((data V c).before 3 t d))
    ∗ (∃ d, owns (c : Thread nD τ) (st2_4 t) fullShare ((data V c).before 4 t d))
    ∗ (∃ d, owns (c : Thread nD τ) (st2_5 t) fullShare ((data V c).before 5 t d))
    ∗ (∃ d, owns (c : Thread nD τ) (st2_6 t) fullShare ((data V c).before 6 t d))
    ∗ (∃ d, owns (c : Thread nD τ) (st2_7 t) fullShare ((data V c).before 7 t d)))

/-- and what it returns. -/
def bodyPost (c : Dev nD) (t : Fin cfg2.N) : sProp 𝕄 :=
  iprop((data V c).Φ t.succ ∗ (data V c).owesAt () t.succ
    ∗ owns (c : Thread nD τ) (st2_0 t) fullShare ((data V c).after 0 t)
    ∗ owns (c : Thread nD τ) (st2_1 t) fullShare ((data V c).after 1 t)
    ∗ owns (c : Thread nD τ) (st2_2 t) fullShare ((data V c).after 2 t)
    ∗ owns (c : Thread nD τ) (st2_3 t) fullShare ((data V c).after 3 t)
    ∗ owns (c : Thread nD τ) (st2_4 t) fullShare ((data V c).after 4 t)
    ∗ owns (c : Thread nD τ) (st2_5 t) fullShare ((data V c).after 5 t)
    ∗ owns (c : Thread nD τ) (st2_6 t) fullShare ((data V c).after 6 t)
    ∗ owns (c : Thread nD τ) (st2_7 t) fullShare ((data V c).after 7 t))

set_option maxHeartbeats 1000000 in
/-- The body at any point: the input buffers hold their blocks, so the triple applies; the invariant and what the core owes
    pass through untouched. -/
theorem bodyAtPoint (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [held0, held1, held2, held3, held4, held5]
  rw [show (data V c).Φ t.succ = (data V c).Φ t.castSucc from rfl,
    show (data V c).owesAt () t.succ = (data V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyTriple c Set.univ _ _ _ _ _ _ _ _ _ _ _ _ _ _ _ _ _ (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (data (F := F) V c) (defs₀ (F := F)) Variants.none () Set.univ := fun t => by
  rw [bigSep_W2, bigSep_W2]
  exact bodyAtPoint V c t

end Cert.KernelIdeal.Layer2

end
-- ==== Proof.MainRun.lean ====
/-
  The whole of @main as the pipeline library sees it: nine items in a row — three stretches of host operations (the
  degree normalisation, the first aggregation and the first layer's slices of the weights), layer 1's kernel call, the
  second aggregation, layer 2's call, the third aggregation, layer 3's call, and the final concatenation. The contents of
  every unscoped buffer are followed through the nine items as a fold from the launch memory (`W0 … W9`): a host stretch
  applies its operations, a call replaces its eight arrays by what its pipeline leaves. One theorem, `run_all`, says
  that every weakly fair execution of @main ends with every unscoped buffer at `W9`; the frame claim (no argument array
  changes) and the value of the result array are both read off it.
-/
import proofs.«170062_j90890097918586_1_alg».proof.Proof.Layer0
import proofs.«170062_j90890097918586_1_alg».proof.Proof.Layer1
import proofs.«170062_j90890097918586_1_alg».proof.Proof.Layer2
import proofs.«170062_j90890097918586_1_alg».proof.Proof.Gen.KernelIdeal.Regions

set_option maxRecDepth 16384

noncomputable section

namespace Cert.KernelIdeal.MainRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev W0 : Dev nD → Valuation τ sig (Elt F) := fun c b => m (c, b)
/-- After the degree normalisation's operations, the select that masks isolated nodes, and the first aggregation with
    layer 1's slices: three host stretches. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev X3 : (c : Dev nD) → (b : Ref sig .tc) → Buf (Elt F) ((c : Thread nD τ).loc b) := fun c b => W3 m c b

/-- After layer 1's call: its eight arrays at what the pipeline leaves (an input as entered, an output at the blocks the
    points wrote back), every other buffer as entered. -/
def W4 (c : Dev nD) : Valuation τ sig (Elt F) :=
  Pipeline.withArrays spec0 c (W3 m c) fun w => (Layer0.data (X3 m) c).arrAt w cfg0.N
theorem W4_arr (c : Dev nD) (w : Fin cfg0.W) :
    W4 m c (Proc.devRef .tc (Pipeline.arrRef spec0 w)) = (Layer0.data (X3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same contents read at the TensorCore's references. -/
abbrev X4 : (c : Dev nD) → (b : Ref sig .tc) → Buf (Elt F) ((c : Thread nD τ).loc b) := fun c b => W4 m c b
theorem left0 (c : Dev nD) (w : Fin cfg0.W) : (Layer0.data (X3 m) c).arrAt w cfg0.N = X4 m c (Pipeline.arrRef spec0 w) :=
  (W4_arr m c w).symm
theorem kept0 (c : Dev nD) : ∀ b, b ∉ Finset.univ.image (Pipeline.arrRef spec0) → X4 m c b = X3 m c b :=
  fun b hb => W4_of_ne m c b fun w e => hb (Finset.mem_image.mpr ⟨w, Finset.mem_univ _, e⟩)

/-- After the second aggregation and layer 2's slices. -/
abbrev W5 : Dev nD → Valuation τ sig (Elt F) := fun c => StableHlo.after hostOps1 (W4 m c)
abbrev X5 : (c : Dev nD) → (b : Ref sig .tc) → Buf (Elt F) ((c : Thread nD τ).loc b) := fun c b => W5 m c b

/-- After layer 2's call: its eight arrays at what the pipeline leaves (an input as entered, an output at the blocks the
    points wrote back), every other buffer as entered. -/
def W6 (c : Dev nD) : Valuation τ sig (Elt F) :=
  Pipeline.withArrays spec1 c (W5 m c) fun w => (Layer1.data (X5 m) c).arrAt w cfg1.N
theorem W6_arr (c : Dev nD) (w : Fin cfg1.W) :
    W6 m c (Proc.devRef .tc (Pipeline.arrRef spec1 w)) = (Layer1.data (X5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same contents read at the TensorCore's references. -/
abbrev X6 : (c : Dev nD) → (b : Ref sig .tc) → Buf (Elt F) ((c : Thread nD τ).loc b) := fun c b => W6 m c b
theorem left1 (c : Dev nD) (w : Fin cfg1.W) : (Layer1.data (X5 m) c).arrAt w cfg1.N = X6 m c (Pipeline.arrRef spec1 w) :=
  (W6_arr m c w).symm
theorem kept1 (c : Dev nD) : ∀ b, b ∉ Finset.univ.image (Pipeline.arrRef spec1) → X6 m c b = X5 m c b :=
  fun b hb => W6_of_ne m c b fun w e => hb (Finset.mem_image.mpr ⟨w, Finset.mem_univ _, e⟩)

/-- After the third aggregation and layer 3's slices. -/
abbrev W7 : Dev nD → Valuation τ sig (Elt F) := fun c => StableHlo.after hostOps2 (W6 m c)
abbrev X7 : (c : Dev nD) → (b : Ref sig .tc) → Buf (Elt F) ((c : Thread nD τ).loc b) := fun c b => W7 m c b

/-- After layer 3's call: its eight arrays at what the pipeline leaves (an input as entered, an output at the blocks the
    points wrote back), every other buffer as entered. -/
def W8 (c : Dev nD) : Valuation τ sig (Elt F) :=
  Pipeline.withArrays spec2 c (W7 m c) fun w => (Layer2.data (X7 m) c).arrAt w cfg2.N
theorem W8_arr (c : Dev nD) (w : Fin cfg2.W) :
    W8 m c (Proc.devRef .tc (Pipeline.arrRef spec2 w)) = (Layer2.data (X7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same contents read at the TensorCore's references. -/
abbrev X8 : (c : Dev nD) → (b : Ref sig .tc) → Buf (Elt F) ((c : Thread nD τ).loc b) := fun c b => W8 m c b
theorem left2 (c : Dev nD) (w : Fin cfg2.W) : (Layer2.data (X7 m) c).arrAt w cfg2.N = X8 m c (Pipeline.arrRef spec2 w) :=
  (W8_arr m c w).symm
theorem kept2 (c : Dev nD) : ∀ b, b ∉ Finset.univ.image (Pipeline.arrRef spec2) → X8 m c b = X7 m c b :=
  fun b hb => W8_of_ne m c b fun w e => hb (Finset.mem_image.mpr ⟨w, Finset.mem_univ _, e⟩)

/-- After the concatenation: the end. -/
abbrev W9 : Dev nD → Valuation τ sig (Elt F) := fun c => StableHlo.after hostOps3 (W8 m c)

/-! ## The proof data family and what rides along -/

/-- No call has a prefetched table. -/
abbrev adm : (p : Fin 3) → (pcfgs (F := F) p).Adm := fun p => (cfgs p).toPCfg_adm
/-- Each call's proof data at the contents it is entered with: a literal match on the call's number. -/
def pdats : (p : Fin 3) → (c : Dev nD) → Dat τ (Elt F) Unit ℕ (UR sig nD τ) ℕ (Pipeline.pin (pcfgs (F := F)) adm p) c
  | ⟨0, _⟩ => fun c => Layer0.data (X3 m) c
  | ⟨1, _⟩ => fun c => Layer1.data (X5 m) c
  | ⟨2, _⟩ => fun c => Layer2.data (X7 m) c
abbrev 𝒱₀ : Variants := Variants.none
/-- No core owes another anything. -/
abbrev L : GSem nD τ sig → Finset Unit := fun _ => ∅
abbrev lv : GSem nD τ sig → Unit → ℕ := fun _ _ => 0
/-- Beside the buffers, through every item: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The three calls as segments -/

-- the library's split and join lemmas are stated over a pinned configuration; unifying them with this call's needs
-- plain definitions unfolded inside a metavariable's type
set_option backward.isDefEq.respectTransparency.types false in
/-- Layer 1's call as a segment of @main: entered with every unscoped buffer at `W3`, left with them at `W4`. Its
    eight arrays are split out of the unscoped buffers on entry and put back at what the pipeline leaves on exit; the
    generator register goes into the call's invariant and comes back; nothing is owed and the kernel has no semaphore. -/
def call0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer0.obligation (X3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (X3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X3 m c) (X4 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's split and join lemmas are stated over a pinned configuration; unifying them with this call's needs
-- plain definitions unfolded inside a metavariable's type
set_option backward.isDefEq.respectTransparency.types false in
/-- Layer 2's call as a segment of @main: entered with every unscoped buffer at `W5`, left with them at `W6`. Its
    eight arrays are split out of the unscoped buffers on entry and put back at what the pipeline leaves on exit; the
    generator register goes into the call's invariant and comes back; nothing is owed and the kernel has no semaphore. -/
def call1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.obligation (X5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (X5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X5 m c) (X6 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's split and join lemmas are stated over a pinned configuration; unifying them with this call's needs
-- plain definitions unfolded inside a metavariable's type
set_option backward.isDefEq.respectTransparency.types false in
/-- Layer 3's call as a segment of @main: entered with every unscoped buffer at `W7`, left with them at `W8`. Its
    eight arrays are split out of the unscoped buffers on entry and put back at what the pipeline leaves on exit; the
    generator register goes into the call's invariant and comes back; nothing is owed and the kernel has no semaphore. -/
def call2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.obligation (X7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (X7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (X7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (X7 m c) (X8 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its nine segments, and the run -/

abbrev segs : List (Pipeline.Seg (pcfgs (F := F)) adm (pdats m) () defs₀ 𝒱₀ L lv) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .region (call0 m),
    .host (stretch hostOps1 hostOps1_sub hostOps1_fresh (W4 m)),
    .region (call1 m),
    .host (stretch hostOps2 hostOps2_sub hostOps2_fresh (W6 m)),
    .region (call2 m),
    .host (stretch hostOps3 hostOps3_sub hostOps3_fresh (W8 m)) ]

variable (ρ : Dev nD → PrngReg)

-- the library's run theorem finds its implicit arguments by unifying its conclusion with this statement
set_option backward.isDefEq.respectTransparency.types false in
/-- Every weakly fair execution of @main from memory `m` with zero counters terminates, nothing faulting, and ends with
    every unscoped buffer of every core at `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## No item writes an argument -/

/-- Argument 0 reaches the end as launched. -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps3 _ hostOps3_writes (by decide)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((Layer0.data (X3 m) c).arrAt_in 0 rfl _).trans (Layer0.arrays_eq (X3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- Argument 1 reaches the end as launched. -/
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps3 _ hostOps3_writes (by decide)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- Argument 2 reaches the end as launched. -/
theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps3 _ hostOps3_writes (by decide)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

/-- Argument 3 reaches the end as launched. -/
theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps3 _ hostOps3_writes (by decide)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-- Argument 4 reaches the end as launched. -/
theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps3 _ hostOps3_writes (by decide)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

/-- Argument 5 reaches the end as launched. -/
theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps3 _ hostOps3_writes (by decide)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

/-- The frame claim's post, off `run_all`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

end Cert.KernelIdeal.MainRun

end
-- ==== Proof.Bits.Layer0.lean ====
/-
  Layer 1's kernel call, seen from the pipeline that runs it: the call walks 20 grid points, point `t` working on rows
  5000·t … 5000·t + 4999. At a point the pipeline has staged, in on-chip buffers, the block of those rows of the node features
  (window 0) and of the aggregated features (window 1), and the whole of the two weight matrices and the two bias rows (windows
  2 to 5, whose block never changes: they are fetched once and found in place afterwards); the body reads all six, and
  stores the block of the layer's new features (window 6) and the same block scaled row by row to unit length (window 7), each
  with one store of the whole block. This file says what the body leaves in the two output buffers as a function of the six
  input blocks, proves that the body does leave that (running it symbolically), and packages it as the proof data the
  pipeline library asks for, with its per-point obligation. Everything is stated at an arbitrary contents `V` of the arrays
  when the call is entered, and for any float instance.
-/
import proofs.«170062_j90890097918586_1_alg».proof.Proof.Gen.Kernel.Launch
import proofs.«170062_j90890097918586_1_alg».proof.Proof.Gen.Kernel.Skeleton
import proofs.«170062_j90890097918586_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the call is entered
variable (V : (c : Dev nD) → (b : Ref sig .tc) → Buf (Elt F) ((c : Thread nD τ).loc b))

/-! ## The blocks -/

/-- Window `w`'s block at point `t`: its array, as the call finds it, read through the block's rectangle. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or the block index
    did not move since the last fetch. -/
theorem held0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point, whether the pipeline fetched it there or the block index
    did not move since the last fetch. -/
theorem held1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point, whether the pipeline fetched it there or the block index
    did not move since the last fetch. -/
theorem held2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point, whether the pipeline fetched it there or the block index
    did not move since the last fetch. -/
theorem held3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point, whether the pipeline fetched it there or the block index
    did not move since the last fetch. -/
theorem held4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point, whether the pipeline fetched it there or the block index
    did not move since the last fetch. -/
theorem held5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the two output buffers -/

/-- The body's accesses are whole buffers: a block of rows, a weight matrix, a bias row. -/
abbrev rA : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The block of new features: the one store into window 6's buffer, its value the gated dense layer of the six loads. -/
def newBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay2 (View.ld x0 rA) (View.ld x1 rA) (View.ld x2 rW) (View.ld x3 rB) (View.ld x4 rW) (View.ld x5 rB)⟩]

/-- The block of unit-length rows: the one store into window 7's buffer, the new features times the reciprocal root of each
    row's floored sum of squares. -/
def unitBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay1 (k0_pay2 (View.ld x0 rA) (View.ld x1 rA) (View.ld x2 rW) (View.ld x3 rB) (View.ld x4 rW) (View.ld x5 rB)) (k0_pay3 (View.ld x0 rA) (View.ld x1 rA) (View.ld x2 rW) (View.ld x3 rB) (View.ld x4 rW) (View.ld x5 rB))⟩]

/-- One store of the whole block covers the buffer. -/
theorem covers (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- From the six input buffers held at contents reading `x0 … x5` and the two output buffers at anything, the body runs to its
    return with the inputs as they were and the outputs at `newBlock` and `unitBlock` of the inputs. -/
theorem bodyTriple (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (newBlock x0 x1 x2 x3 x4 x5) ∗ owns (c : Thread nD τ) arg8 fullShare (unitBlock x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers _)
  iexists _; isplitr
  swap; · iexact H7
  ipureintro
  try dsimp only
  exact View.read_writes_eq_canon _ _ _ (covers _)

/-! ## The pipeline's proof data -/

/-- The call's proof data on core `c`: the arrays as the call finds them; after the body at point `t` each input buffer
    still at its block and the two output buffers at `newBlock` / `unitBlock` of the input blocks; nothing owed, full shares. -/
def data (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => newBlock (blockAt V c 0 t) (blockAt V c 1 t) (blockAt V c 2 t) (blockAt V c 3 t) (blockAt V c 4 t) (blockAt V c 5 t)
    | ⟨7, _⟩ => unitBlock (blockAt V c 0 t) (blockAt V c 1 t) (blockAt V c 2 t) (blockAt V c 3 t) (blockAt V c 4 t) (blockAt V c 5 t)
  Φ _ := Pipeline.ΦA spec0 c
  q _ := fullShare
  owed _ := 0

theorem arrays_eq (c : Dev nD) (w : Fin cfg0.W) : (data V c).A w = V c (Pipeline.arrRef spec0 w) := by
  dsimp only [data]

theorem after0 (c : Dev nD) (t : Fin cfg0.N) : (data V c).after 0 t = blockAt V c 0 t := by dsimp only [data]
theorem after1 (c : Dev nD) (t : Fin cfg0.N) : (data V c).after 1 t = blockAt V c 1 t := by dsimp only [data]
theorem after2 (c : Dev nD) (t : Fin cfg0.N) : (data V c).after 2 t = blockAt V c 2 t := by dsimp only [data]
theorem after3 (c : Dev nD) (t : Fin cfg0.N) : (data V c).after 3 t = blockAt V c 3 t := by dsimp only [data]
theorem after4 (c : Dev nD) (t : Fin cfg0.N) : (data V c).after 4 t = blockAt V c 4 t := by dsimp only [data]
theorem after5 (c : Dev nD) (t : Fin cfg0.N) : (data V c).after 5 t = blockAt V c 5 t := by dsimp only [data]
theorem after6 (c : Dev nD) (t : Fin cfg0.N) : (data V c).after 6 t = newBlock (blockAt V c 0 t) (blockAt V c 1 t) (blockAt V c 2 t) (blockAt V c 3 t) (blockAt V c 4 t) (blockAt V c 5 t) := by dsimp only [data]
theorem after7 (c : Dev nD) (t : Fin cfg0.N) : (data V c).after 7 t = unitBlock (blockAt V c 0 t) (blockAt V c 1 t) (blockAt V c 2 t) (blockAt V c 3 t) (blockAt V c 4 t) (blockAt V c 5 t) := by dsimp only [data]

theorem held0 (c : Dev nD) (t : Fin cfg0.N) (d) : (data V c).before 0 t d = blockAt V c 0 t :=
  held0_of V (data V c) (arrays_eq V c 0) (after0 V c) t d
theorem held1 (c : Dev nD) (t : Fin cfg0.N) (d) : (data V c).before 1 t d = blockAt V c 1 t :=
  held1_of V (data V c) (arrays_eq V c 1) (after1 V c) t d
theorem held2 (c : Dev nD) (t : Fin cfg0.N) (d) : (data V c).before 2 t d = blockAt V c 2 t :=
  held2_of V (data V c) (arrays_eq V c 2) (after2 V c) t d
theorem held3 (c : Dev nD) (t : Fin cfg0.N) (d) : (data V c).before 3 t d = blockAt V c 3 t :=
  held3_of V (data V c) (arrays_eq V c 3) (after3 V c) t d
theorem held4 (c : Dev nD) (t : Fin cfg0.N) (d) : (data V c).before 4 t d = blockAt V c 4 t :=
  held4_of V (data V c) (arrays_eq V c 4) (after4 V c) t d
theorem held5 (c : Dev nD) (t : Fin cfg0.N) (d) : (data V c).before 5 t d = blockAt V c 5 t :=
  held5_of V (data V c) (arrays_eq V c 5) (after5 V c) t d

/-! ## The obligation at a point -/

/-- What the body is called with at point `t`: the eight current staging buffers, -/
def bodyPre (c : Dev nD) (t : Fin cfg0.N) : sProp 𝕄 :=
  iprop((data V c).Φ t.castSucc ∗ (data V c).owesAt () t.castSucc
    ∗ (∃ d, owns (c : Thread nD τ) (st0_0 t) fullShare ((data V c).before 0 t d))
    ∗ (∃ d, owns (c : Thread nD τ) (st0_1 t) fullShare ((data V c).before 1 t d))
    ∗ (∃ d, owns (c : Thread nD τ) (st0_2 t) fullShare ((data V c).before 2 t d))
    ∗ (∃ d, owns (c : Thread nD τ) (st0_3 t) fullShare ((data V c).before 3 t d))
    ∗ (∃ d, owns (c : Thread nD τ) (st0_4 t) fullShare ((data V c).before 4 t d))
    ∗ (∃ d, owns (c : Thread nD τ) (st0_5 t) fullShare ((data V c).before 5 t d))
    ∗ (∃ d, owns (c : Thread nD τ) (st0_6 t) fullShare ((data V c).before 6 t d))
    ∗ (∃ d, owns (c : Thread nD τ) (st0_7 t) fullShare ((data V c).before 7 t d)))

/-- and what it returns. -/
def bodyPost (c : Dev nD) (t : Fin cfg0.N) : sProp 𝕄 :=
  iprop((data V c).Φ t.succ ∗ (data V c).owesAt () t.succ
    ∗ owns (c : Thread nD τ) (st0_0 t) fullShare ((data V c).after 0 t)
    ∗ owns (c : Thread nD τ) (st0_1 t) fullShare ((data V c).after 1 t)
    ∗ owns (c : Thread nD τ) (st0_2 t) fullShare ((data V c).after 2 t)
    ∗ owns (c : Thread nD τ) (st0_3 t) fullShare ((data V c).after 3 t)
    ∗ owns (c : Thread nD τ) (st0_4 t) fullShare ((data V c).after 4 t)
    ∗ owns (c : Thread nD τ) (st0_5 t) fullShare ((data V c).after 5 t)
    ∗ owns (c : Thread nD τ) (st0_6 t) fullShare ((data V c).after 6 t)
    ∗ owns (c : Thread nD τ) (st0_7 t) fullShare ((data V c).after 7 t))

set_option maxHeartbeats 1000000 in
/-- The body at any point: the input buffers hold their blocks, so the triple applies; the invariant and what the core owes
    pass through untouched. -/
theorem bodyAtPoint (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4, held5]
  rw [show (data V c).Φ t.succ = (data V c).Φ t.castSucc from rfl,
    show (data V c).owesAt () t.succ = (data V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyTriple c Set.univ _ _ _ _ _ _ _ _ _ _ _ _ _ _ _ _ _ (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (data (F := F) V c) (defs₀ (F := F)) Variants.none () Set.univ := fun t => by
  rw [bigSep_W0, bigSep_W0]
  exact bodyAtPoint V c t

end Cert.Kernel.Layer0

end
-- ==== Proof.Bits.Layer1.lean ====
/-
  Layer 2's kernel call, seen from the pipeline that runs it: the call walks 20 grid points, point `t` working on rows
  5000·t … 5000·t + 4999. At a point the pipeline has staged, in on-chip buffers, the block of those rows of the node features
  (window 0) and of the aggregated features (window 1), and the whole of the two weight matrices and the two bias rows (windows
  2 to 5, whose block never changes: they are fetched once and found in place afterwards); the body reads all six, and
  stores the block of the layer's new features (window 6) and the same block scaled row by row to unit length (window 7), each
  with one store of the whole block. This file says what the body leaves in the two output buffers as a function of the six
  input blocks, proves that the body does leave that (running it symbolically), and packages it as the proof data the
  pipeline library asks for, with its per-point obligation. Everything is stated at an arbitrary contents `V` of the arrays
  when the call is entered, and for any float instance.
-/
import proofs.«170062_j90890097918586_1_alg».proof.Proof.Gen.Kernel.Launch
import proofs.«170062_j90890097918586_1_alg».proof.Proof.Gen.Kernel.Skeleton
import proofs.«170062_j90890097918586_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the call is entered
variable (V : (c : Dev nD) → (b : Ref sig .tc) → Buf (Elt F) ((c : Thread nD τ).loc b))

/-! ## The blocks -/

/-- Window `w`'s block at point `t`: its array, as the call finds it, read through the block's rectangle. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or the block index
    did not move since the last fetch. -/
theorem held0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point, whether the pipeline fetched it there or the block index
    did not move since the last fetch. -/
theorem held1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point, whether the pipeline fetched it there or the block index
    did not move since the last fetch. -/
theorem held2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point, whether the pipeline fetched it there or the block index
    did not move since the last fetch. -/
theorem held3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point, whether the pipeline fetched it there or the block index
    did not move since the last fetch. -/
theorem held4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point, whether the pipeline fetched it there or the block index
    did not move since the last fetch. -/
theorem held5_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the two output buffers -/

/-- The body's accesses are whole buffers: a block of rows, a weight matrix, a bias row. -/
abbrev rA : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The block of new features: the one store into window 6's buffer, its value the gated dense layer of the six loads. -/
def newBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k1_pay2 (View.ld x0 rA) (View.ld x1 rA) (View.ld x2 rW) (View.ld x3 rB) (View.ld x4 rW) (View.ld x5 rB)⟩]

/-- The block of unit-length rows: the one store into window 7's buffer, the new features times the reciprocal root of each
    row's floored sum of squares. -/
def unitBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k1_pay1 (k1_pay2 (View.ld x0 rA) (View.ld x1 rA) (View.ld x2 rW) (View.ld x3 rB) (View.ld x4 rW) (View.ld x5 rB)) (k1_pay3 (View.ld x0 rA) (View.ld x1 rA) (View.ld x2 rW) (View.ld x3 rB) (View.ld x4 rW) (View.ld x5 rB))⟩]

/-- One store of the whole block covers the buffer. -/
theorem covers (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- From the six input buffers held at contents reading `x0 … x5` and the two output buffers at anything, the body runs to its
    return with the inputs as they were and the outputs at `newBlock` and `unitBlock` of the inputs. -/
theorem bodyTriple (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (newBlock x0 x1 x2 x3 x4 x5) ∗ owns (c : Thread nD τ) arg8 fullShare (unitBlock x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers _)
  iexists _; isplitr
  swap; · iexact H7
  ipureintro
  try dsimp only
  exact View.read_writes_eq_canon _ _ _ (covers _)

/-! ## The pipeline's proof data -/

/-- The call's proof data on core `c`: the arrays as the call finds them; after the body at point `t` each input buffer
    still at its block and the two output buffers at `newBlock` / `unitBlock` of the input blocks; nothing owed, full shares. -/
def data (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => newBlock (blockAt V c 0 t) (blockAt V c 1 t) (blockAt V c 2 t) (blockAt V c 3 t) (blockAt V c 4 t) (blockAt V c 5 t)
    | ⟨7, _⟩ => unitBlock (blockAt V c 0 t) (blockAt V c 1 t) (blockAt V c 2 t) (blockAt V c 3 t) (blockAt V c 4 t) (blockAt V c 5 t)
  Φ _ := Pipeline.ΦA spec1 c
  q _ := fullShare
  owed _ := 0

theorem arrays_eq (c : Dev nD) (w : Fin cfg1.W) : (data V c).A w = V c (Pipeline.arrRef spec1 w) := by
  dsimp only [data]

theorem after0 (c : Dev nD) (t : Fin cfg1.N) : (data V c).after 0 t = blockAt V c 0 t := by dsimp only [data]
theorem after1 (c : Dev nD) (t : Fin cfg1.N) : (data V c).after 1 t = blockAt V c 1 t := by dsimp only [data]
theorem after2 (c : Dev nD) (t : Fin cfg1.N) : (data V c).after 2 t = blockAt V c 2 t := by dsimp only [data]
theorem after3 (c : Dev nD) (t : Fin cfg1.N) : (data V c).after 3 t = blockAt V c 3 t := by dsimp only [data]
theorem after4 (c : Dev nD) (t : Fin cfg1.N) : (data V c).after 4 t = blockAt V c 4 t := by dsimp only [data]
theorem after5 (c : Dev nD) (t : Fin cfg1.N) : (data V c).after 5 t = blockAt V c 5 t := by dsimp only [data]
theorem after6 (c : Dev nD) (t : Fin cfg1.N) : (data V c).after 6 t = newBlock (blockAt V c 0 t) (blockAt V c 1 t) (blockAt V c 2 t) (blockAt V c 3 t) (blockAt V c 4 t) (blockAt V c 5 t) := by dsimp only [data]
theorem after7 (c : Dev nD) (t : Fin cfg1.N) : (data V c).after 7 t = unitBlock (blockAt V c 0 t) (blockAt V c 1 t) (blockAt V c 2 t) (blockAt V c 3 t) (blockAt V c 4 t) (blockAt V c 5 t) := by dsimp only [data]

theorem held0 (c : Dev nD) (t : Fin cfg1.N) (d) : (data V c).before 0 t d = blockAt V c 0 t :=
  held0_of V (data V c) (arrays_eq V c 0) (after0 V c) t d
theorem held1 (c : Dev nD) (t : Fin cfg1.N) (d) : (data V c).before 1 t d = blockAt V c 1 t :=
  held1_of V (data V c) (arrays_eq V c 1) (after1 V c) t d
theorem held2 (c : Dev nD) (t : Fin cfg1.N) (d) : (data V c).before 2 t d = blockAt V c 2 t :=
  held2_of V (data V c) (arrays_eq V c 2) (after2 V c) t d
theorem held3 (c : Dev nD) (t : Fin cfg1.N) (d) : (data V c).before 3 t d = blockAt V c 3 t :=
  held3_of V (data V c) (arrays_eq V c 3) (after3 V c) t d
theorem held4 (c : Dev nD) (t : Fin cfg1.N) (d) : (data V c).before 4 t d = blockAt V c 4 t :=
  held4_of V (data V c) (arrays_eq V c 4) (after4 V c) t d
theorem held5 (c : Dev nD) (t : Fin cfg1.N) (d) : (data V c).before 5 t d = blockAt V c 5 t :=
  held5_of V (data V c) (arrays_eq V c 5) (after5 V c) t d

/-! ## The obligation at a point -/

/-- What the body is called with at point `t`: the eight current staging buffers, -/
def bodyPre (c : Dev nD) (t : Fin cfg1.N) : sProp 𝕄 :=
  iprop((data V c).Φ t.castSucc ∗ (data V c).owesAt () t.castSucc
    ∗ (∃ d, owns (c : Thread nD τ) (st1_0 t) fullShare ((data V c).before 0 t d))
    ∗ (∃ d, owns (c : Thread nD τ) (st1_1 t) fullShare ((data V c).before 1 t d))
    ∗ (∃ d, owns (c : Thread nD τ) (st1_2 t) fullShare ((data V c).before 2 t d))
    ∗ (∃ d, owns (c : Thread nD τ) (st1_3 t) fullShare ((data V c).before 3 t d))
    ∗ (∃ d, owns (c : Thread nD τ) (st1_4 t) fullShare ((data V c).before 4 t d))
    ∗ (∃ d, owns (c : Thread nD τ) (st1_5 t) fullShare ((data V c).before 5 t d))
    ∗ (∃ d, owns (c : Thread nD τ) (st1_6 t) fullShare ((data V c).before 6 t d))
    ∗ (∃ d, owns (c : Thread nD τ) (st1_7 t) fullShare ((data V c).before 7 t d)))

/-- and what it returns. -/
def bodyPost (c : Dev nD) (t : Fin cfg1.N) : sProp 𝕄 :=
  iprop((data V c).Φ t.succ ∗ (data V c).owesAt () t.succ
    ∗ owns (c : Thread nD τ) (st1_0 t) fullShare ((data V c).after 0 t)
    ∗ owns (c : Thread nD τ) (st1_1 t) fullShare ((data V c).after 1 t)
    ∗ owns (c : Thread nD τ) (st1_2 t) fullShare ((data V c).after 2 t)
    ∗ owns (c : Thread nD τ) (st1_3 t) fullShare ((data V c).after 3 t)
    ∗ owns (c : Thread nD τ) (st1_4 t) fullShare ((data V c).after 4 t)
    ∗ owns (c : Thread nD τ) (st1_5 t) fullShare ((data V c).after 5 t)
    ∗ owns (c : Thread nD τ) (st1_6 t) fullShare ((data V c).after 6 t)
    ∗ owns (c : Thread nD τ) (st1_7 t) fullShare ((data V c).after 7 t))

set_option maxHeartbeats 1000000 in
/-- The body at any point: the input buffers hold their blocks, so the triple applies; the invariant and what the core owes
    pass through untouched. -/
theorem bodyAtPoint (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3, held4, held5]
  rw [show (data V c).Φ t.succ = (data V c).Φ t.castSucc from rfl,
    show (data V c).owesAt () t.succ = (data V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyTriple c Set.univ _ _ _ _ _ _ _ _ _ _ _ _ _ _ _ _ _ (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (data (F := F) V c) (defs₀ (F := F)) Variants.none () Set.univ := fun t => by
  rw [bigSep_W1, bigSep_W1]
  exact bodyAtPoint V c t

end Cert.Kernel.Layer1

end
-- ==== Proof.Bits.Layer2.lean ====
/-
  Layer 3's kernel call, seen from the pipeline that runs it: the call walks 20 grid points, point `t` working on rows
  5000·t … 5000·t + 4999. At a point the pipeline has staged, in on-chip buffers, the block of those rows of the node features
  (window 0) and of the aggregated features (window 1), and the whole of the two weight matrices and the two bias rows (windows
  2 to 5, whose block never changes: they are fetched once and found in place afterwards); the body reads all six, and
  stores the block of the layer's new features (window 6) and the same block scaled row by row to unit length (window 7), each
  with one store of the whole block. This file says what the body leaves in the two output buffers as a function of the six
  input blocks, proves that the body does leave that (running it symbolically), and packages it as the proof data the
  pipeline library asks for, with its per-point obligation. Everything is stated at an arbitrary contents `V` of the arrays
  when the call is entered, and for any float instance.
-/
import proofs.«170062_j90890097918586_1_alg».proof.Proof.Gen.Kernel.Launch
import proofs.«170062_j90890097918586_1_alg».proof.Proof.Gen.Kernel.Skeleton
import proofs.«170062_j90890097918586_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the call is entered
variable (V : (c : Dev nD) → (b : Ref sig .tc) → Buf (Elt F) ((c : Thread nD τ).loc b))

/-! ## The blocks -/

/-- Window `w`'s block at point `t`: its array, as the call finds it, read through the block's rectangle. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or the block index
    did not move since the last fetch. -/
theorem held0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point, whether the pipeline fetched it there or the block index
    did not move since the last fetch. -/
theorem held1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point, whether the pipeline fetched it there or the block index
    did not move since the last fetch. -/
theorem held2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point, whether the pipeline fetched it there or the block index
    did not move since the last fetch. -/
theorem held3_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point, whether the pipeline fetched it there or the block index
    did not move since the last fetch. -/
theorem held4_of {c : Dev nD} (dat : Dat τ (Elt F) Unit ℕ (UR sig nD τ) ℕ cfg2 c) (hA : dat.A 4 = V c (Pipeline.arrRef spec2 4))
    (hafter : ∀ t, dat.after 4 t = blockAt V c 4 t) (t : Fin cfg2.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point, whether the pipeline fetched it there or the block index
    did not move since the last fetch. -/
theorem held5_of {c : Dev nD} (dat : Dat τ (Elt F) Unit ℕ (UR sig nD τ) ℕ cfg2 c) (hA : dat.A 5 = V c (Pipeline.arrRef spec2 5))
    (hafter : ∀ t, dat.after 5 t = blockAt V c 5 t) (t : Fin cfg2.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the two output buffers -/

/-- The body's accesses are whole buffers: a block of rows, a weight matrix, a bias row. -/
abbrev rA : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The block of new features: the one store into window 6's buffer, its value the gated dense layer of the six loads. -/
def newBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k2_pay2 (View.ld x0 rA) (View.ld x1 rA) (View.ld x2 rW) (View.ld x3 rB) (View.ld x4 rW) (View.ld x5 rB)⟩]

/-- The block of unit-length rows: the one store into window 7's buffer, the new features times the reciprocal root of each
    row's floored sum of squares. -/
def unitBlock (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA, k2_pay1 (k2_pay2 (View.ld x0 rA) (View.ld x1 rA) (View.ld x2 rW) (View.ld x3 rB) (View.ld x4 rW) (View.ld x5 rB)) (k2_pay3 (View.ld x0 rA) (View.ld x1 rA) (View.ld x2 rW) (View.ld x3 rB) (View.ld x4 rW) (View.ld x5 rB))⟩]

/-- One store of the whole block covers the buffer. -/
theorem covers (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- From the six input buffers held at contents reading `x0 … x5` and the two output buffers at anything, the body runs to its
    return with the inputs as they were and the outputs at `newBlock` and `unitBlock` of the inputs. -/
theorem bodyTriple (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (newBlock x0 x1 x2 x3 x4 x5) ∗ owns (c : Thread nD τ) arg8 fullShare (unitBlock x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers _)
  iexists _; isplitr
  swap; · iexact H7
  ipureintro
  try dsimp only
  exact View.read_writes_eq_canon _ _ _ (covers _)

/-! ## The pipeline's proof data -/

/-- The call's proof data on core `c`: the arrays as the call finds them; after the body at point `t` each input buffer
    still at its block and the two output buffers at `newBlock` / `unitBlock` of the input blocks; nothing owed, full shares. -/
def data (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => newBlock (blockAt V c 0 t) (blockAt V c 1 t) (blockAt V c 2 t) (blockAt V c 3 t) (blockAt V c 4 t) (blockAt V c 5 t)
    | ⟨7, _⟩ => unitBlock (blockAt V c 0 t) (blockAt V c 1 t) (blockAt V c 2 t) (blockAt V c 3 t) (blockAt V c 4 t) (blockAt V c 5 t)
  Φ _ := Pipeline.ΦA spec2 c
  q _ := fullShare
  owed _ := 0

theorem arrays_eq (c : Dev nD) (w : Fin cfg2.W) : (data V c).A w = V c (Pipeline.arrRef spec2 w) := by
  dsimp only [data]

theorem after0 (c : Dev nD) (t : Fin cfg2.N) : (data V c).after 0 t = blockAt V c 0 t := by dsimp only [data]
theorem after1 (c : Dev nD) (t : Fin cfg2.N) : (data V c).after 1 t = blockAt V c 1 t := by dsimp only [data]
theorem after2 (c : Dev nD) (t : Fin cfg2.N) : (data V c).after 2 t = blockAt V c 2 t := by dsimp only [data]
theorem after3 (c : Dev nD) (t : Fin cfg2.N) : (data V c).after 3 t = blockAt V c 3 t := by dsimp only [data]
theorem after4 (c : Dev nD) (t : Fin cfg2.N) : (data V c).after 4 t = blockAt V c 4 t := by dsimp only [data]
theorem after5 (c : Dev nD) (t : Fin cfg2.N) : (data V c).after 5 t = blockAt V c 5 t := by dsimp only [data]
theorem after6 (c : Dev nD) (t : Fin cfg2.N) : (data V c).after 6 t = newBlock (blockAt V c 0 t) (blockAt V c 1 t) (blockAt V c 2 t) (blockAt V c 3 t) (blockAt V c 4 t) (blockAt V c 5 t) := by dsimp only [data]
theorem after7 (c : Dev nD) (t : Fin cfg2.N) : (data V c).after 7 t = unitBlock (blockAt V c 0 t) (blockAt V c 1 t) (blockAt V c 2 t) (blockAt V c 3 t) (blockAt V c 4 t) (blockAt V c 5 t) := by dsimp only [data]

theorem held0 (c : Dev nD) (t : Fin cfg2.N) (d) : (data V c).before 0 t d = blockAt V c 0 t :=
  held0_of V (data V c) (arrays_eq V c 0) (after0 V c) t d
theorem held1 (c : Dev nD) (t : Fin cfg2.N) (d) : (data V c).before 1 t d = blockAt V c 1 t :=
  held1_of V (data V c) (arrays_eq V c 1) (after1 V c) t d
theorem held2 (c : Dev nD) (t : Fin cfg2.N) (d) : (data V c).before 2 t d = blockAt V c 2 t :=
  held2_of V (data V c) (arrays_eq V c 2) (after2 V c) t d
theorem held3 (c : Dev nD) (t : Fin cfg2.N) (d) : (data V c).before 3 t d = blockAt V c 3 t :=
  held3_of V (data V c) (arrays_eq V c 3) (after3 V c) t d
theorem held4 (c : Dev nD) (t : Fin cfg2.N) (d) : (data V c).before 4 t d = blockAt V c 4 t :=
  held4_of V (data V c) (arrays_eq V c 4) (after4 V c) t d
theorem held5 (c : Dev nD) (t : Fin cfg2.N) (d) : (data V c).before 5 t d = blockAt V c 5 t :=
  held5_of V (data V c) (arrays_eq V c 5) (after5 V c) t d

/-! ## The obligation at a point -/

/-- What the body is called with at point `t`: the eight current staging buffers, -/
def bodyPre (c : Dev nD) (t : Fin cfg2.N) : sProp 𝕄 :=
  iprop((data V c).Φ t.castSucc ∗ (data V c).owesAt () t.castSucc
    ∗ (∃ d, owns (c : Thread nD τ) (st2_0 t) fullShare ((data V c).before 0 t d))
    ∗ (∃ d, owns (c : Thread nD τ) (st2_1 t) fullShare ((data V c).before 1 t d))
    ∗ (∃ d, owns (c : Thread nD τ) (st2_2 t) fullShare ((data V c).before 2 t d))
    ∗ (∃ d, owns (c : Thread nD τ) (st2_3 t) fullShare ((data V c).before 3 t d))
    ∗ (∃ d, owns (c : Thread nD τ) (st2_4 t) fullShare ((data V c).before 4 t d))
    ∗ (∃ d, owns (c : Thread nD τ) (st2_5 t) fullShare ((data V c).before 5 t d))
    ∗ (∃ d, owns (c : Thread nD τ) (st2_6 t) fullShare ((data V c).before 6 t d))
    ∗ (∃ d, owns (c : Thread nD τ) (st2_7 t) fullShare ((data V c).before 7 t d)))

/-- and what it returns. -/
def bodyPost (c : Dev nD) (t : Fin cfg2.N) : sProp 𝕄 :=
  iprop((data V c).Φ t.succ ∗ (data V c).owesAt () t.succ
    ∗ owns (c : Thread nD τ) (st2_0 t) fullShare ((data V c).after 0 t)
    ∗ owns (c : Thread nD τ) (st2_1 t) fullShare ((data V c).after 1 t)
    ∗ owns (c : Thread nD τ) (st2_2 t) fullShare ((data V c).after 2 t)
    ∗ owns (c : Thread nD τ) (st2_3 t) fullShare ((data V c).after 3 t)
    ∗ owns (c : Thread nD τ) (st2_4 t) fullShare ((data V c).after 4 t)
    ∗ owns (c : Thread nD τ) (st2_5 t) fullShare ((data V c).after 5 t)
    ∗ owns (c : Thread nD τ) (st2_6 t) fullShare ((data V c).after 6 t)
    ∗ owns (c : Thread nD τ) (st2_7 t) fullShare ((data V c).after 7 t))

set_option maxHeartbeats 1000000 in
/-- The body at any point: the input buffers hold their blocks, so the triple applies; the invariant and what the core owes
    pass through untouched. -/
theorem bodyAtPoint (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [held0, held1, held2, held3, held4, held5]
  rw [show (data V c).Φ t.succ = (data V c).Φ t.castSucc from rfl,
    show (data V c).owesAt () t.succ = (data V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyTriple c Set.univ _ _ _ _ _ _ _ _ _ _ _ _ _ _ _ _ _ (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (data (F := F) V c) (defs₀ (F := F)) Variants.none () Set.univ := fun t => by
  rw [bigSep_W2, bigSep_W2]
  exact bodyAtPoint V c t

end Cert.Kernel.Layer2

end
-- ==== Proof.Bits.MainRun.lean ====
/-
  The whole of @main as the pipeline library sees it: nine items in a row — three stretches of host operations (the
  degree normalisation, the first aggregation and the first layer's slices of the weights), layer 1's kernel call, the
  second aggregation, layer 2's call, the third aggregation, layer 3's call, and the final concatenation. The contents of
  every unscoped buffer are followed through the nine items as a fold from the launch memory (`W0 … W9`): a host stretch
  applies its operations, a call replaces its eight arrays by what its pipeline leaves. One theorem, `run_all`, says
  that every weakly fair execution of @main ends with every unscoped buffer at `W9`; the frame claim (no argument array
  changes) and the value of the result array are both read off it.
-/
import proofs.«170062_j90890097918586_1_alg».proof.Proof.Bits.Layer0
import proofs.«170062_j90890097918586_1_alg».proof.Proof.Bits.Layer1
import proofs.«170062_j90890097918586_1_alg».proof.Proof.Bits.Layer2
import proofs.«170062_j90890097918586_1_alg».proof.Proof.Gen.Kernel.Regions

set_option maxRecDepth 16384

noncomputable section

namespace Cert.Kernel.MainRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev W0 : Dev nD → Valuation τ sig (Elt F) := fun c b => m (c, b)
/-- After the degree normalisation's operations, the select that masks isolated nodes, and the first aggregation with
    layer 1's slices: three host stretches. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev X3 : (c : Dev nD) → (b : Ref sig .tc) → Buf (Elt F) ((c : Thread nD τ).loc b) := fun c b => W3 m c b

/-- After layer 1's call: its eight arrays at what the pipeline leaves (an input as entered, an output at the blocks the
    points wrote back), every other buffer as entered. -/
def W4 (c : Dev nD) : Valuation τ sig (Elt F) :=
  Pipeline.withArrays spec0 c (W3 m c) fun w => (Layer0.data (X3 m) c).arrAt w cfg0.N
theorem W4_arr (c : Dev nD) (w : Fin cfg0.W) :
    W4 m c (Proc.devRef .tc (Pipeline.arrRef spec0 w)) = (Layer0.data (X3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same contents read at the TensorCore's references. -/
abbrev X4 : (c : Dev nD) → (b : Ref sig .tc) → Buf (Elt F) ((c : Thread nD τ).loc b) := fun c b => W4 m c b
theorem left0 (c : Dev nD) (w : Fin cfg0.W) : (Layer0.data (X3 m) c).arrAt w cfg0.N = X4 m c (Pipeline.arrRef spec0 w) :=
  (W4_arr m c w).symm
theorem kept0 (c : Dev nD) : ∀ b, b ∉ Finset.univ.image (Pipeline.arrRef spec0) → X4 m c b = X3 m c b :=
  fun b hb => W4_of_ne m c b fun w e => hb (Finset.mem_image.mpr ⟨w, Finset.mem_univ _, e⟩)

/-- After the second aggregation and layer 2's slices. -/
abbrev W5 : Dev nD → Valuation τ sig (Elt F) := fun c => StableHlo.after hostOps1 (W4 m c)
abbrev X5 : (c : Dev nD) → (b : Ref sig .tc) → Buf (Elt F) ((c : Thread nD τ).loc b) := fun c b => W5 m c b

/-- After layer 2's call: its eight arrays at what the pipeline leaves (an input as entered, an output at the blocks the
    points wrote back), every other buffer as entered. -/
def W6 (c : Dev nD) : Valuation τ sig (Elt F) :=
  Pipeline.withArrays spec1 c (W5 m c) fun w => (Layer1.data (X5 m) c).arrAt w cfg1.N
theorem W6_arr (c : Dev nD) (w : Fin cfg1.W) :
    W6 m c (Proc.devRef .tc (Pipeline.arrRef spec1 w)) = (Layer1.data (X5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same contents read at the TensorCore's references. -/
abbrev X6 : (c : Dev nD) → (b : Ref sig .tc) → Buf (Elt F) ((c : Thread nD τ).loc b) := fun c b => W6 m c b
theorem left1 (c : Dev nD) (w : Fin cfg1.W) : (Layer1.data (X5 m) c).arrAt w cfg1.N = X6 m c (Pipeline.arrRef spec1 w) :=
  (W6_arr m c w).symm
theorem kept1 (c : Dev nD) : ∀ b, b ∉ Finset.univ.image (Pipeline.arrRef spec1) → X6 m c b = X5 m c b :=
  fun b hb => W6_of_ne m c b fun w e => hb (Finset.mem_image.mpr ⟨w, Finset.mem_univ _, e⟩)

/-- After the third aggregation and layer 3's slices. -/
abbrev W7 : Dev nD → Valuation τ sig (Elt F) := fun c => StableHlo.after hostOps2 (W6 m c)
abbrev X7 : (c : Dev nD) → (b : Ref sig .tc) → Buf (Elt F) ((c : Thread nD τ).loc b) := fun c b => W7 m c b

/-- After layer 3's call: its eight arrays at what the pipeline leaves (an input as entered, an output at the blocks the
    points wrote back), every other buffer as entered. -/
def W8 (c : Dev nD) : Valuation τ sig (Elt F) :=
  Pipeline.withArrays spec2 c (W7 m c) fun w => (Layer2.data (X7 m) c).arrAt w cfg2.N
theorem W8_arr (c : Dev nD) (w : Fin cfg2.W) :
    W8 m c (Proc.devRef .tc (Pipeline.arrRef spec2 w)) = (Layer2.data (X7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same contents read at the TensorCore's references. -/
abbrev X8 : (c : Dev nD) → (b : Ref sig .tc) → Buf (Elt F) ((c : Thread nD τ).loc b) := fun c b => W8 m c b
theorem left2 (c : Dev nD) (w : Fin cfg2.W) : (Layer2.data (X7 m) c).arrAt w cfg2.N = X8 m c (Pipeline.arrRef spec2 w) :=
  (W8_arr m c w).symm
theorem kept2 (c : Dev nD) : ∀ b, b ∉ Finset.univ.image (Pipeline.arrRef spec2) → X8 m c b = X7 m c b :=
  fun b hb => W8_of_ne m c b fun w e => hb (Finset.mem_image.mpr ⟨w, Finset.mem_univ _, e⟩)

/-- After the concatenation: the end. -/
abbrev W9 : Dev nD → Valuation τ sig (Elt F) := fun c => StableHlo.after hostOps3 (W8 m c)

/-! ## The proof data family and what rides along -/

/-- No call has a prefetched table. -/
abbrev adm : (p : Fin 3) → (pcfgs (F := F) p).Adm := fun p => (cfgs p).toPCfg_adm
/-- Each call's proof data at the contents it is entered with: a literal match on the call's number. -/
def pdats : (p : Fin 3) → (c : Dev nD) → Dat τ (Elt F) Unit ℕ (UR sig nD τ) ℕ (Pipeline.pin (pcfgs (F := F)) adm p) c
  | ⟨0, _⟩ => fun c => Layer0.data (X3 m) c
  | ⟨1, _⟩ => fun c => Layer1.data (X5 m) c
  | ⟨2, _⟩ => fun c => Layer2.data (X7 m) c
abbrev 𝒱₀ : Variants := Variants.none
/-- No core owes another anything. -/
abbrev L : GSem nD τ sig → Finset Unit := fun _ => ∅
abbrev lv : GSem nD τ sig → Unit → ℕ := fun _ _ => 0
/-- Beside the buffers, through every item: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The three calls as segments -/

-- the library's split and join lemmas are stated over a pinned configuration; unifying them with this call's needs
-- plain definitions unfolded inside a metavariable's type
set_option backward.isDefEq.respectTransparency.types false in
/-- Layer 1's call as a segment of @main: entered with every unscoped buffer at `W3`, left with them at `W4`. Its
    eight arrays are split out of the unscoped buffers on entry and put back at what the pipeline leaves on exit; the
    generator register goes into the call's invariant and comes back; nothing is owed and the kernel has no semaphore. -/
def call0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer0.obligation (X3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (X3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X3 m c) (X4 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's split and join lemmas are stated over a pinned configuration; unifying them with this call's needs
-- plain definitions unfolded inside a metavariable's type
set_option backward.isDefEq.respectTransparency.types false in
/-- Layer 2's call as a segment of @main: entered with every unscoped buffer at `W5`, left with them at `W6`. Its
    eight arrays are split out of the unscoped buffers on entry and put back at what the pipeline leaves on exit; the
    generator register goes into the call's invariant and comes back; nothing is owed and the kernel has no semaphore. -/
def call1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.obligation (X5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (X5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X5 m c) (X6 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's split and join lemmas are stated over a pinned configuration; unifying them with this call's needs
-- plain definitions unfolded inside a metavariable's type
set_option backward.isDefEq.respectTransparency.types false in
/-- Layer 3's call as a segment of @main: entered with every unscoped buffer at `W7`, left with them at `W8`. Its
    eight arrays are split out of the unscoped buffers on entry and put back at what the pipeline leaves on exit; the
    generator register goes into the call's invariant and comes back; nothing is owed and the kernel has no semaphore. -/
def call2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.obligation (X7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (X7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (X7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (X7 m c) (X8 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its nine segments, and the run -/

abbrev segs : List (Pipeline.Seg (pcfgs (F := F)) adm (pdats m) () defs₀ 𝒱₀ L lv) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .region (call0 m),
    .host (stretch hostOps1 hostOps1_sub hostOps1_fresh (W4 m)),
    .region (call1 m),
    .host (stretch hostOps2 hostOps2_sub hostOps2_fresh (W6 m)),
    .region (call2 m),
    .host (stretch hostOps3 hostOps3_sub hostOps3_fresh (W8 m)) ]

variable (ρ : Dev nD → PrngReg)

-- the library's run theorem finds its implicit arguments by unifying its conclusion with this statement
set_option backward.isDefEq.respectTransparency.types false in
/-- Every weakly fair execution of @main from memory `m` with zero counters terminates, nothing faulting, and ends with
    every unscoped buffer of every core at `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## No item writes an argument -/

/-- Argument 0 reaches the end as launched. -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps3 _ hostOps3_writes (by decide)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((Layer0.data (X3 m) c).arrAt_in 0 rfl _).trans (Layer0.arrays_eq (X3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- Argument 1 reaches the end as launched. -/
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps3 _ hostOps3_writes (by decide)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- Argument 2 reaches the end as launched. -/
theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps3 _ hostOps3_writes (by decide)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

/-- Argument 3 reaches the end as launched. -/
theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps3 _ hostOps3_writes (by decide)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-- Argument 4 reaches the end as launched. -/
theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps3 _ hostOps3_writes (by decide)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

/-- Argument 5 reaches the end as launched. -/
theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps3 _ hostOps3_writes (by decide)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

/-- The frame claim's post, off `run_all`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

end Cert.Kernel.MainRun

end
-- ==== Proof.RefImports.lean ====
/-
  The reference program's list of operations and its operations read at an index, for the modules that compare the two
  programs to share one import. Nothing is proved here.
-/
import proofs.«170062_j90890097918586_1_alg».proof.Proof.RefOps
import proofs.«170062_j90890097918586_1_alg».proof.Proof.RefRead
-- ==== Proof.RefStagedRun.lean ====
/-
  The reference program's run, read in stages.

  The reference is a straight line of 215 array operations: it splits the edge list into rows and columns, counts every
  node's degree and turns the degrees into one scale per edge, and then three times over aggregates the current features
  along the edges (gather by column, scale, scatter-add by row), applies the gated dense layer and scales its rows to unit
  length; at the end it sets the input features and the three layers' unit-length rows side by side. Written out as one
  term of the six arguments the result repeats each layer's features inside the next layer's, so instead the line is cut
  into seven consecutive pieces — up to the first aggregation, the first layer, the second aggregation, the second layer,
  the third aggregation, the third layer, the final concatenation — and the contents of the buffers between two pieces are
  named. For each piece, each buffer a later piece reads is shown to hold the stage `val_main_vN` of the arguments that the
  operation-by-operation reading of the program defines: within a piece the operations' functions are applied to what the
  piece found, and what it found is replaced by the stage names the piece before established, so no stage is ever written
  out inside a later one. A buffer a piece does not write keeps what it held. Folding the seven pieces back into the whole
  line gives the run: the result buffer ends at the last stage of the arguments, and the arguments are unchanged.
-/
import proofs.«170062_j90890097918586_1_alg».proof.Proof.RefImports
import Idealize.ShloMosaic.Lib.StableHlo.Run

noncomputable section

namespace Cert.RefStagedRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ## A line of operations run in two parts -/

/-- The contents after a line of operations is the contents after its second part, from the contents after its first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The seven pieces of the line -/

/-- The edge list's rows and columns, the nodes' degrees, the scale of every edge, and the first aggregation. -/
abbrev chunk1 : List (HloOp τ sig (Elt F)) :=
  [ unary main_arg1 main_v0 ((extractStridedSlice S1x1280000 ![0, 0] · slices_S2x1280000_S1x1280000_0_0) : (⟨S2x1280000, .i32⟩ : BufTy).Contents (Elt F) → (⟨S1x1280000, .i32⟩ : BufTy).Contents (Elt F)),
    reshape main_v0 main_v1 rfl shapeCasts_S1x1280000_S1280000,
    unary main_arg1 main_v2 ((extractStridedSlice S1x1280000 ![1, 0] · slices_S2x1280000_S1x1280000_1_0) : (⟨S2x1280000, .i32⟩ : BufTy).Contents (Elt F) → (⟨S1x1280000, .i32⟩ : BufTy).Contents (Elt F)),
    reshape main_v2 main_v3 rfl shapeCasts_S1x1280000_S1280000,
    nullary main_cst (constant S_ .f32 0x3F800000#32),
    unary main_cst main_v4 (broadcastInDim S1280000 ![] bcast_S_S1280000 : (⟨S_, .f32⟩ : BufTy).Contents (Elt F) → (⟨S1280000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1280000x1 ![0] bcast_S1280000_S1280000x1_0 : (⟨S1280000, .i32⟩ : BufTy).Contents (Elt F) → (⟨S1280000x1, .i32⟩ : BufTy).Contents (Elt F)),
    ternary main_v5 main_v6 main_v4 main_v7 ((fun x i u => Host.scatterAdd scatter_S100000_S1280000x1_S1280000_n_0_0_1 x i u) : (⟨S100000, .f32⟩ : BufTy).Contents (Elt F) → (⟨S1280000x1, .i32⟩ : BufTy).Contents (Elt F) → (⟨S1280000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S1280000 ![] bcast_S_S1280000 : (⟨S_, .i32⟩ : BufTy).Contents (Elt F) → (⟨S1280000, .i32⟩ : BufTy).Contents (Elt F)),
    binary main_v1 main_v14 main_v15 (cmpi .slt : (⟨S1280000, .i32⟩ : BufTy).Contents (Elt F) → (⟨S1280000, .i32⟩ : BufTy).Contents (Elt F) → (⟨S1280000, .i1⟩ : BufTy).Contents (Elt F)),
    nullary main_c_4 (constantI S_ 32 100000#32),
    unary main_c_4 main_v16 (broadcastInDim S1280000 ![] bcast_S_S1280000 : (⟨S_, .i32⟩ : BufTy).Contents (Elt F) → (⟨S1280000, .i32⟩ : BufTy).Contents (Elt F)),
    binary main_v1 main_v16 main_v17 (addi : (⟨S1280000, .i32⟩ : BufTy).Contents (Elt F) → (⟨S1280000, .i32⟩ : BufTy).Contents (Elt F) → (⟨S1280000, .i32⟩ : BufTy).Contents (Elt F)),
    ternary main_v15 main_v17 main_v1 main_v18 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v18 main_v19 (broadcastInDim S1280000x1 ![0] bcast_S1280000_S1280000x1_0 : (⟨S1280000, .i32⟩ : BufTy).Contents (Elt F) → (⟨S1280000x1, .i32⟩ : BufTy).Contents (Elt F)),
    binary main_v13 main_v19 main_v20 ((fun x i => Host.gather gather_S100000_S1280000x1_S1280000_n_0_n_n_0_1_1 x i) : (⟨S100000, .f32⟩ : BufTy).Contents (Elt F) → (⟨S1280000x1, .i32⟩ : BufTy).Contents (Elt F) → (⟨S1280000, .f32⟩ : BufTy).Contents (Elt F)),
    nullary main_c_5 (constantI S_ 32 0#32),
    unary main_c_5 main_v21 (broadcastInDim S1280000 ![] bcast_S_S1280000 : (⟨S_, .i32⟩ : BufTy).Contents (Elt F) → (⟨S1280000, .i32⟩ : BufTy).Contents (Elt F)),
    binary main_v3 main_v21 main_v22 (cmpi .slt : (⟨S1280000, .i32⟩ : BufTy).Contents (Elt F) → (⟨S1280000, .i32⟩ : BufTy).Contents (Elt F) → (⟨S1280000, .i1⟩ : BufTy).Contents (Elt F)),
    nullary main_c_6 (constantI S_ 32 100000#32),
    unary main_c_6 main_v23 (broadcastInDim S1280000 ![] bcast_S_S1280000 : (⟨S_, .i32⟩ : BufTy).Contents (Elt F) → (⟨S1280000, .i32⟩ : BufTy).Contents (Elt F)),
    binary main_v3 main_v23 main_v24 (addi : (⟨S1280000, .i32⟩ : BufTy).Contents (Elt F) → (⟨S1280000, .i32⟩ : BufTy).Contents (Elt F) → (⟨S1280000, .i32⟩ : BufTy).Contents (Elt F)),
    ternary main_v22 main_v24 main_v3 main_v25 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v25 main_v26 (broadcastInDim S1280000x1 ![0] bcast_S1280000_S1280000x1_0 : (⟨S1280000, .i32⟩ : BufTy).Contents (Elt F) → (⟨S1280000x1, .i32⟩ : BufTy).Contents (Elt F)),
    binary main_v13 main_v26 main_v27 ((fun x i => Host.gather gather_S100000_S1280000x1_S1280000_n_0_n_n_0_1_1 x i) : (⟨S100000, .f32⟩ : BufTy).Contents (Elt F) → (⟨S1280000x1, .i32⟩ : BufTy).Contents (Elt F) → (⟨S1280000, .f32⟩ : BufTy).Contents (Elt F)),
    binary main_v20 main_v27 main_v28 (mulf : (⟨S1280000, .f32⟩ : BufTy).Contents (Elt F) → (⟨S1280000, .f32⟩ : BufTy).Contents (Elt F) → (⟨S1280000, .f32⟩ : BufTy).Contents (Elt F)),
    nullary main_c_7 (constantI S_ 32 0#32),
    unary main_c_7 main_v29 (broadcastInDim S1280000 ![] bcast_S_S1280000 : (⟨S_, .i32⟩ : BufTy).Contents (Elt F) → (⟨S1280000, .i32⟩ : BufTy).Contents (Elt F)),
    binary main_v3 main_v29 main_v30 (cmpi .slt : (⟨S1280000, .i32⟩ : BufTy).Contents (Elt F) → (⟨S1280000, .i32⟩ : BufTy).Contents (Elt F) → (⟨S1280000, .i1⟩ : BufTy).Contents (Elt F)),
    nullary main_c_8 (constantI S_ 32 100000#32),
    unary main_c_8 main_v31 (broadcastInDim S1280000 ![] bcast_S_S1280000 : (⟨S_, .i32⟩ : BufTy).Contents (Elt F) → (⟨S1280000, .i32⟩ : BufTy).Contents (Elt F)),
    binary main_v3 main_v31 main_v32 (addi : (⟨S1280000, .i32⟩ : BufTy).Contents (Elt F) → (⟨S1280000, .i32⟩ : BufTy).Contents (Elt F) → (⟨S1280000, .i32⟩ : BufTy).Contents (Elt F)),
    ternary main_v30 main_v32 main_v3 main_v33 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v33 main_v34 (broadcastInDim S1280000x1 ![0] bcast_S1280000_S1280000x1_0 : (⟨S1280000, .i32⟩ : BufTy).Contents (Elt F) → (⟨S1280000x1, .i32⟩ : BufTy).Contents (Elt F)),
    binary main_arg0 main_v34 main_v35 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)),
    unary main_v28 main_v36 (broadcastInDim S1280000x1 ![0] bcast_S1280000_S1280000x1_0 : (⟨S1280000, .f32⟩ : BufTy).Contents (Elt F) → (⟨S1280000x1, .f32⟩ : BufTy).Contents (Elt F)),
    unary main_v36 main_v37 (broadcastInDim S1280000x64 ![0, 1] bcast_S1280000x1_S1280000x64_0_1 : (⟨S1280000x1, .f32⟩ : BufTy).Contents (Elt F) → (⟨S1280000x64, .f32⟩ : BufTy).Contents (Elt F)),
    binary main_v35 main_v37 main_v38 (mulf : (⟨S1280000x64, .f32⟩ : BufTy).Contents (Elt F) → (⟨S1280000x64, .f32⟩ : BufTy).Contents (Elt F) → (⟨S1280000x64, .f32⟩ : BufTy).Contents (Elt F)),
    nullary main_cst_9 (constant S_ .f32 0x00000000#32),
    unary main_cst_9 main_v39 (broadcastInDim S100000x64 ![] bcast_S_S100000x64 : (⟨S_, .f32⟩ : BufTy).Contents (Elt F) → (⟨S100000x64, .f32⟩ : BufTy).Contents (Elt F)),
    unary main_v1 main_v40 (broadcastInDim S1280000x1 ![0] bcast_S1280000_S1280000x1_0 : (⟨S1280000, .i32⟩ : BufTy).Contents (Elt F) → (⟨S1280000x1, .i32⟩ : BufTy).Contents (Elt F)),
    ternary main_v39 main_v40 main_v38 main_v41 ((fun x i u => Host.scatterAdd scatter_S100000x64_S1280000x1_S1280000x64_1_0_0_1 x i u) : (⟨S100000x64, .f32⟩ : BufTy).Contents (Elt F) → (⟨S1280000x1, .i32⟩ : BufTy).Contents (Elt F) → (⟨S1280000x64, .f32⟩ : BufTy).Contents (Elt F) → (⟨S100000x64, .f32⟩ : BufTy).Contents (Elt F)) ]

/-- The first layer: its slices of the stacked weights and biases, the gated dense part, the rows scaled to unit length. -/
abbrev chunk2 : List (HloOp τ sig (Elt F)) :=
  [ unary main_arg2 main_v42 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v42 main_v43 rfl shapeCasts_S1x64x64_S64x64,
    binary main_v41 main_v43 main_v44 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v45 ((extractStridedSlice S1x64 ![0, 0] · slices_S3x64_S1x64_0_0) : (⟨S3x64, .f32⟩ : BufTy).Contents (Elt F) → (⟨S1x64, .f32⟩ : BufTy).Contents (Elt F)),
    reshape main_v45 main_v46 rfl shapeCasts_S1x64_S64,
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v44 main_v48 main_v49 (addf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x00000000#32),
    unary main_cst_10 main_v50 (broadcastInDim S100000x64 ![] bcast_S_S100000x64 : (⟨S_, .f32⟩ : BufTy).Contents (Elt F) → (⟨S100000x64, .f32⟩ : BufTy).Contents (Elt F)),
    binary main_v49 main_v50 main_v51 (cmpf .ogt : (⟨S100000x64, .f32⟩ : BufTy).Contents (Elt F) → (⟨S100000x64, .f32⟩ : BufTy).Contents (Elt F) → (⟨S100000x64, .i1⟩ : BufTy).Contents (Elt F)),
    nullary main_cst_11 (constant S_ .f32 0x3E4CCCCD#32),
    unary main_cst_11 main_v52 (broadcastInDim S100000x64 ![] bcast_S_S100000x64 : (⟨S_, .f32⟩ : BufTy).Contents (Elt F) → (⟨S100000x64, .f32⟩ : BufTy).Contents (Elt F)),
    binary main_v52 main_v49 main_v53 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v51) (TRef.of (T := ⟨S100000x64, .f32⟩) main_v49) (TRef.of (T := ⟨S100000x64, .f32⟩) main_v53) (TRef.of (T := ⟨S100000x64, .f32⟩) main_v54) select,
    binary main_arg0 main_v41 main_v55 (mulf : (⟨S100000x64, .f32⟩ : BufTy).Contents (Elt F) → (⟨S100000x64, .f32⟩ : BufTy).Contents (Elt F) → (⟨S100000x64, .f32⟩ : BufTy).Contents (Elt F)),
    unary main_arg4 main_v56 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v56 main_v57 rfl shapeCasts_S1x64x64_S64x64,
    binary main_v55 main_v57 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v59 ((extractStridedSlice S1x64 ![0, 0] · slices_S3x64_S1x64_0_0) : (⟨S3x64, .f32⟩ : BufTy).Contents (Elt F) → (⟨S1x64, .f32⟩ : BufTy).Contents (Elt F)),
    reshape main_v59 main_v60 rfl shapeCasts_S1x64_S64,
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v58 main_v62 main_v63 (addf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x00000000#32),
    unary main_cst_12 main_v64 (broadcastInDim S100000x64 ![] bcast_S_S100000x64 : (⟨S_, .f32⟩ : BufTy).Contents (Elt F) → (⟨S100000x64, .f32⟩ : BufTy).Contents (Elt F)),
    binary main_v63 main_v64 main_v65 (cmpf .ogt : (⟨S100000x64, .f32⟩ : BufTy).Contents (Elt F) → (⟨S100000x64, .f32⟩ : BufTy).Contents (Elt F) → (⟨S100000x64, .i1⟩ : BufTy).Contents (Elt F)),
    nullary main_cst_13 (constant S_ .f32 0x3E4CCCCD#32),
    unary main_cst_13 main_v66 (broadcastInDim S100000x64 ![] bcast_S_S100000x64 : (⟨S_, .f32⟩ : BufTy).Contents (Elt F) → (⟨S100000x64, .f32⟩ : BufTy).Contents (Elt F)),
    binary main_v66 main_v63 main_v67 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v65) (TRef.of (T := ⟨S100000x64, .f32⟩) main_v63) (TRef.of (T := ⟨S100000x64, .f32⟩) main_v67) (TRef.of (T := ⟨S100000x64, .f32⟩) main_v68) select,
    binary main_v54 main_v68 main_v69 (addf : (⟨S100000x64, .f32⟩ : BufTy).Contents (Elt F) → (⟨S100000x64, .f32⟩ : BufTy).Contents (Elt F) → (⟨S100000x64, .f32⟩ : BufTy).Contents (Elt F)),
    binary main_v69 main_v69 main_v70 (mulf : (⟨S100000x64, .f32⟩ : BufTy).Contents (Elt F) → (⟨S100000x64, .f32⟩ : BufTy).Contents (Elt F) → (⟨S100000x64, .f32⟩ : BufTy).Contents (Elt F)),
    nullary main_cst_14 (constant S_ .f32 0x00000000#32),
    binary main_v70 main_cst_14 main_v71 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v71 main_v72 (broadcastInDim S100000x1 ![0] bcast_S100000_S100000x1_0 : (⟨S100000, .f32⟩ : BufTy).Contents (Elt F) → (⟨S100000x1, .f32⟩ : BufTy).Contents (Elt F)),
    nullary main_cst_15 (constant S_ .f32 0x2B8CBCCC#32),
    unary main_cst_15 main_v73 (broadcastInDim S100000x1 ![] bcast_S_S100000x1 : (⟨S_, .f32⟩ : BufTy).Contents (Elt F) → (⟨S100000x1, .f32⟩ : BufTy).Contents (Elt F)),
    binary main_v72 main_v73 main_v74 (maximumf : (⟨S100000x1, .f32⟩ : BufTy).Contents (Elt F) → (⟨S100000x1, .f32⟩ : BufTy).Contents (Elt F) → (⟨S100000x1, .f32⟩ : BufTy).Contents (Elt F)),
    unary main_v74 main_v75 (Host.rsqrt : (⟨S100000x1, .f32⟩ : BufTy).Contents (Elt F) → (⟨S100000x1, .f32⟩ : BufTy).Contents (Elt F)),
    unary main_v75 main_v76 (broadcastInDim S100000x64 ![0, 1] bcast_S100000x1_S100000x64_0_1 : (⟨S100000x1, .f32⟩ : BufTy).Contents (Elt F) → (⟨S100000x64, .f32⟩ : BufTy).Contents (Elt F)),
    binary main_v69 main_v76 main_v77 (mulf : (⟨S100000x64, .f32⟩ : BufTy).Contents (Elt F) → (⟨S100000x64, .f32⟩ : BufTy).Contents (Elt F) → (⟨S100000x64, .f32⟩ : BufTy).Contents (Elt F)) ]

/-- The second aggregation, of the first layer's new features. -/
abbrev chunk3 : List (HloOp τ sig (Elt F)) :=
  [ nullary main_c_16 (constantI S_ 32 0#32),
    unary main_c_16 main_v78 (broadcastInDim S1280000 ![] bcast_S_S1280000 : (⟨S_, .i32⟩ : BufTy).Contents (Elt F) → (⟨S1280000, .i32⟩ : BufTy).Contents (Elt F)),
    binary main_v3 main_v78 main_v79 (cmpi .slt : (⟨S1280000, .i32⟩ : BufTy).Contents (Elt F) → (⟨S1280000, .i32⟩ : BufTy).Contents (Elt F) → (⟨S1280000, .i1⟩ : BufTy).Contents (Elt F)),
    nullary main_c_17 (constantI S_ 32 100000#32),
    unary main_c_17 main_v80 (broadcastInDim S1280000 ![] bcast_S_S1280000 : (⟨S_, .i32⟩ : BufTy).Contents (Elt F) → (⟨S1280000, .i32⟩ : BufTy).Contents (Elt F)),
    binary main_v3 main_v80 main_v81 (addi : (⟨S1280000, .i32⟩ : BufTy).Contents (Elt F) → (⟨S1280000, .i32⟩ : BufTy).Contents (Elt F) → (⟨S1280000, .i32⟩ : BufTy).Contents (Elt F)),
    ternary main_v79 main_v81 main_v3 main_v82 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v82 main_v83 (broadcastInDim S1280000x1 ![0] bcast_S1280000_S1280000x1_0 : (⟨S1280000, .i32⟩ : BufTy).Contents (Elt F) → (⟨S1280000x1, .i32⟩ : BufTy).Contents (Elt F)),
    binary main_v69 main_v83 main_v84 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)),
    unary main_v28 main_v85 (broadcastInDim S1280000x1 ![0] bcast_S1280000_S1280000x1_0 : (⟨S1280000, .f32⟩ : BufTy).Contents (Elt F) → (⟨S1280000x1, .f32⟩ : BufTy).Contents (Elt F)),
    unary main_v85 main_v86 (broadcastInDim S1280000x64 ![0, 1] bcast_S1280000x1_S1280000x64_0_1 : (⟨S1280000x1, .f32⟩ : BufTy).Contents (Elt F) → (⟨S1280000x64, .f32⟩ : BufTy).Contents (Elt F)),
    binary main_v84 main_v86 main_v87 (mulf : (⟨S1280000x64, .f32⟩ : BufTy).Contents (Elt F) → (⟨S1280000x64, .f32⟩ : BufTy).Contents (Elt F) → (⟨S1280000x64, .f32⟩ : BufTy).Contents (Elt F)),
    nullary main_cst_18 (constant S_ .f32 0x00000000#32),
    unary main_cst_18 main_v88 (broadcastInDim S100000x64 ![] bcast_S_S100000x64 : (⟨S_, .f32⟩ : BufTy).Contents (Elt F) → (⟨S100000x64, .f32⟩ : BufTy).Contents (Elt F)),
    unary main_v1 main_v89 (broadcastInDim S1280000x1 ![0] bcast_S1280000_S1280000x1_0 : (⟨S1280000, .i32⟩ : BufTy).Contents (Elt F) → (⟨S1280000x1, .i32⟩ : BufTy).Contents (Elt F)),
    ternary main_v88 main_v89 main_v87 main_v90 ((fun x i u => Host.scatterAdd scatter_S100000x64_S1280000x1_S1280000x64_1_0_0_1 x i u) : (⟨S100000x64, .f32⟩ : BufTy).Contents (Elt F) → (⟨S1280000x1, .i32⟩ : BufTy).Contents (Elt F) → (⟨S1280000x64, .f32⟩ : BufTy).Contents (Elt F) → (⟨S100000x64, .f32⟩ : BufTy).Contents (Elt F)) ]

/-- The second layer. -/
abbrev chunk4 : List (HloOp τ sig (Elt F)) :=
  [ unary main_arg2 main_v91 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v91 main_v92 rfl shapeCasts_S1x64x64_S64x64,
    binary main_v90 main_v92 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v94 ((extractStridedSlice S1x64 ![1, 0] · slices_S3x64_S1x64_1_0) : (⟨S3x64, .f32⟩ : BufTy).Contents (Elt F) → (⟨S1x64, .f32⟩ : BufTy).Contents (Elt F)),
    reshape main_v94 main_v95 rfl shapeCasts_S1x64_S64,
    unary main_v95 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v93 main_v97 main_v98 (addf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    unary main_cst_19 main_v99 (broadcastInDim S100000x64 ![] bcast_S_S100000x64 : (⟨S_, .f32⟩ : BufTy).Contents (Elt F) → (⟨S100000x64, .f32⟩ : BufTy).Contents (Elt F)),
    binary main_v98 main_v99 main_v100 (cmpf .ogt : (⟨S100000x64, .f32⟩ : BufTy).Contents (Elt F) → (⟨S100000x64, .f32⟩ : BufTy).Contents (Elt F) → (⟨S100000x64, .i1⟩ : BufTy).Contents (Elt F)),
    nullary main_cst_20 (constant S_ .f32 0x3E4CCCCD#32),
    unary main_cst_20 main_v101 (broadcastInDim S100000x64 ![] bcast_S_S100000x64 : (⟨S_, .f32⟩ : BufTy).Contents (Elt F) → (⟨S100000x64, .f32⟩ : BufTy).Contents (Elt F)),
    binary main_v101 main_v98 main_v102 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v100) (TRef.of (T := ⟨S100000x64, .f32⟩) main_v98) (TRef.of (T := ⟨S100000x64, .f32⟩) main_v102) (TRef.of (T := ⟨S100000x64, .f32⟩) main_v103) select,
    binary main_v69 main_v90 main_v104 (mulf : (⟨S100000x64, .f32⟩ : BufTy).Contents (Elt F) → (⟨S100000x64, .f32⟩ : BufTy).Contents (Elt F) → (⟨S100000x64, .f32⟩ : BufTy).Contents (Elt F)),
    unary main_arg4 main_v105 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v105 main_v106 rfl shapeCasts_S1x64x64_S64x64,
    binary main_v104 main_v106 main_v107 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v108 ((extractStridedSlice S1x64 ![1, 0] · slices_S3x64_S1x64_1_0) : (⟨S3x64, .f32⟩ : BufTy).Contents (Elt F) → (⟨S1x64, .f32⟩ : BufTy).Contents (Elt F)),
    reshape main_v108 main_v109 rfl shapeCasts_S1x64_S64,
    unary main_v109 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v107 main_v111 main_v112 (addf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x00000000#32),
    unary main_cst_21 main_v113 (broadcastInDim S100000x64 ![] bcast_S_S100000x64 : (⟨S_, .f32⟩ : BufTy).Contents (Elt F) → (⟨S100000x64, .f32⟩ : BufTy).Contents (Elt F)),
    binary main_v112 main_v113 main_v114 (cmpf .ogt : (⟨S100000x64, .f32⟩ : BufTy).Contents (Elt F) → (⟨S100000x64, .f32⟩ : BufTy).Contents (Elt F) → (⟨S100000x64, .i1⟩ : BufTy).Contents (Elt F)),
    nullary main_cst_22 (constant S_ .f32 0x3E4CCCCD#32),
    unary main_cst_22 main_v115 (broadcastInDim S100000x64 ![] bcast_S_S100000x64 : (⟨S_, .f32⟩ : BufTy).Contents (Elt F) → (⟨S100000x64, .f32⟩ : BufTy).Contents (Elt F)),
    binary main_v115 main_v112 main_v116 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v114) (TRef.of (T := ⟨S100000x64, .f32⟩) main_v112) (TRef.of (T := ⟨S100000x64, .f32⟩) main_v116) (TRef.of (T := ⟨S100000x64, .f32⟩) main_v117) select,
    binary main_v103 main_v117 main_v118 (addf : (⟨S100000x64, .f32⟩ : BufTy).Contents (Elt F) → (⟨S100000x64, .f32⟩ : BufTy).Contents (Elt F) → (⟨S100000x64, .f32⟩ : BufTy).Contents (Elt F)),
    binary main_v118 main_v118 main_v119 (mulf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x00000000#32),
    binary main_v119 main_cst_23 main_v120 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v120 main_v121 (broadcastInDim S100000x1 ![0] bcast_S100000_S100000x1_0 : (⟨S100000, .f32⟩ : BufTy).Contents (Elt F) → (⟨S100000x1, .f32⟩ : BufTy).Contents (Elt F)),
    nullary main_cst_24 (constant S_ .f32 0x2B8CBCCC#32),
    unary main_cst_24 main_v122 (broadcastInDim S100000x1 ![] bcast_S_S100000x1 : (⟨S_, .f32⟩ : BufTy).Contents (Elt F) → (⟨S100000x1, .f32⟩ : BufTy).Contents (Elt F)),
    binary main_v121 main_v122 main_v123 (maximumf : (⟨S100000x1, .f32⟩ : BufTy).Contents (Elt F) → (⟨S100000x1, .f32⟩ : BufTy).Contents (Elt F) → (⟨S100000x1, .f32⟩ : BufTy).Contents (Elt F)),
    unary main_v123 main_v124 (Host.rsqrt : (⟨S100000x1, .f32⟩ : BufTy).Contents (Elt F) → (⟨S100000x1, .f32⟩ : BufTy).Contents (Elt F)),
    unary main_v124 main_v125 (broadcastInDim S100000x64 ![0, 1] bcast_S100000x1_S100000x64_0_1 : (⟨S100000x1, .f32⟩ : BufTy).Contents (Elt F) → (⟨S100000x64, .f32⟩ : BufTy).Contents (Elt F)),
    binary main_v118 main_v125 main_v126 (mulf : (⟨S100000x64, .f32⟩ : BufTy).Contents (Elt F) → (⟨S100000x64, .f32⟩ : BufTy).Contents (Elt F) → (⟨S100000x64, .f32⟩ : BufTy).Contents (Elt F)) ]

/-- The third aggregation, of the second layer's new features. -/
abbrev chunk5 : List (HloOp τ sig (Elt F)) :=
  [ nullary main_c_25 (constantI S_ 32 0#32),
    unary main_c_25 main_v127 (broadcastInDim S1280000 ![] bcast_S_S1280000 : (⟨S_, .i32⟩ : BufTy).Contents (Elt F) → (⟨S1280000, .i32⟩ : BufTy).Contents (Elt F)),
    binary main_v3 main_v127 main_v128 (cmpi .slt : (⟨S1280000, .i32⟩ : BufTy).Contents (Elt F) → (⟨S1280000, .i32⟩ : BufTy).Contents (Elt F) → (⟨S1280000, .i1⟩ : BufTy).Contents (Elt F)),
    nullary main_c_26 (constantI S_ 32 100000#32),
    unary main_c_26 main_v129 (broadcastInDim S1280000 ![] bcast_S_S1280000 : (⟨S_, .i32⟩ : BufTy).Contents (Elt F) → (⟨S1280000, .i32⟩ : BufTy).Contents (Elt F)),
    binary main_v3 main_v129 main_v130 (addi : (⟨S1280000, .i32⟩ : BufTy).Contents (Elt F) → (⟨S1280000, .i32⟩ : BufTy).Contents (Elt F) → (⟨S1280000, .i32⟩ : BufTy).Contents (Elt F)),
    ternary main_v128 main_v130 main_v3 main_v131 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v131 main_v132 (broadcastInDim S1280000x1 ![0] bcast_S1280000_S1280000x1_0 : (⟨S1280000, .i32⟩ : BufTy).Contents (Elt F) → (⟨S1280000x1, .i32⟩ : BufTy).Contents (Elt F)),
    binary main_v118 main_v132 main_v133 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)),
    unary main_v28 main_v134 (broadcastInDim S1280000x1 ![0] bcast_S1280000_S1280000x1_0 : (⟨S1280000, .f32⟩ : BufTy).Contents (Elt F) → (⟨S1280000x1, .f32⟩ : BufTy).Contents (Elt F)),
    unary main_v134 main_v135 (broadcastInDim S1280000x64 ![0, 1] bcast_S1280000x1_S1280000x64_0_1 : (⟨S1280000x1, .f32⟩ : BufTy).Contents (Elt F) → (⟨S1280000x64, .f32⟩ : BufTy).Contents (Elt F)),
    binary main_v133 main_v135 main_v136 (mulf : (⟨S1280000x64, .f32⟩ : BufTy).Contents (Elt F) → (⟨S1280000x64, .f32⟩ : BufTy).Contents (Elt F) → (⟨S1280000x64, .f32⟩ : BufTy).Contents (Elt F)),
    nullary main_cst_27 (constant S_ .f32 0x00000000#32),
    unary main_cst_27 main_v137 (broadcastInDim S100000x64 ![] bcast_S_S100000x64 : (⟨S_, .f32⟩ : BufTy).Contents (Elt F) → (⟨S100000x64, .f32⟩ : BufTy).Contents (Elt F)),
    unary main_v1 main_v138 (broadcastInDim S1280000x1 ![0] bcast_S1280000_S1280000x1_0 : (⟨S1280000, .i32⟩ : BufTy).Contents (Elt F) → (⟨S1280000x1, .i32⟩ : BufTy).Contents (Elt F)),
    ternary main_v137 main_v138 main_v136 main_v139 ((fun x i u => Host.scatterAdd scatter_S100000x64_S1280000x1_S1280000x64_1_0_0_1 x i u) : (⟨S100000x64, .f32⟩ : BufTy).Contents (Elt F) → (⟨S1280000x1, .i32⟩ : BufTy).Contents (Elt F) → (⟨S1280000x64, .f32⟩ : BufTy).Contents (Elt F) → (⟨S100000x64, .f32⟩ : BufTy).Contents (Elt F)) ]

/-- The third layer. -/
abbrev chunk6 : List (HloOp τ sig (Elt F)) :=
  [ unary main_arg2 main_v140 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v140 main_v141 rfl shapeCasts_S1x64x64_S64x64,
    binary main_v139 main_v141 main_v142 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v143 ((extractStridedSlice S1x64 ![2, 0] · slices_S3x64_S1x64_2_0) : (⟨S3x64, .f32⟩ : BufTy).Contents (Elt F) → (⟨S1x64, .f32⟩ : BufTy).Contents (Elt F)),
    reshape main_v143 main_v144 rfl shapeCasts_S1x64_S64,
    unary main_v144 main_v145 (broadcastInDim S1x64 ![1] bcast_S64_S1x64_1 : (⟨S64, .f32⟩ : BufTy).Contents (Elt F) → (⟨S1x64, .f32⟩ : BufTy).Contents (Elt F)),
    unary main_v145 main_v146 (broadcastInDim S100000x64 ![0, 1] bcast_S1x64_S100000x64_0_1 : (⟨S1x64, .f32⟩ : BufTy).Contents (Elt F) → (⟨S100000x64, .f32⟩ : BufTy).Contents (Elt F)),
    binary main_v142 main_v146 main_v147 (addf : (⟨S100000x64, .f32⟩ : BufTy).Contents (Elt F) → (⟨S100000x64, .f32⟩ : BufTy).Contents (Elt F) → (⟨S100000x64, .f32⟩ : BufTy).Contents (Elt F)),
    nullary main_cst_28 (constant S_ .f32 0x00000000#32),
    unary main_cst_28 main_v148 (broadcastInDim S100000x64 ![] bcast_S_S100000x64 : (⟨S_, .f32⟩ : BufTy).Contents (Elt F) → (⟨S100000x64, .f32⟩ : BufTy).Contents (Elt F)),
    binary main_v147 main_v148 main_v149 (cmpf .ogt : (⟨S100000x64, .f32⟩ : BufTy).Contents (Elt F) → (⟨S100000x64, .f32⟩ : BufTy).Contents (Elt F) → (⟨S100000x64, .i1⟩ : BufTy).Contents (Elt F)),
    nullary main_cst_29 (constant S_ .f32 0x3E4CCCCD#32),
    unary main_cst_29 main_v150 (broadcastInDim S100000x64 ![] bcast_S_S100000x64 : (⟨S_, .f32⟩ : BufTy).Contents (Elt F) → (⟨S100000x64, .f32⟩ : BufTy).Contents (Elt F)),
    binary main_v150 main_v147 main_v151 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v149) (TRef.of (T := ⟨S100000x64, .f32⟩) main_v147) (TRef.of (T := ⟨S100000x64, .f32⟩) main_v151) (TRef.of (T := ⟨S100000x64, .f32⟩) main_v152) select,
    binary main_v118 main_v139 main_v153 (mulf : (⟨S100000x64, .f32⟩ : BufTy).Contents (Elt F) → (⟨S100000x64, .f32⟩ : BufTy).Contents (Elt F) → (⟨S100000x64, .f32⟩ : BufTy).Contents (Elt F)),
    unary main_arg4 main_v154 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v154 main_v155 rfl shapeCasts_S1x64x64_S64x64,
    binary main_v153 main_v155 main_v156 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v157 ((extractStridedSlice S1x64 ![2, 0] · slices_S3x64_S1x64_2_0) : (⟨S3x64, .f32⟩ : BufTy).Contents (Elt F) → (⟨S1x64, .f32⟩ : BufTy).Contents (Elt F)),
    reshape main_v157 main_v158 rfl shapeCasts_S1x64_S64,
    unary main_v158 main_v159 (broadcastInDim S1x64 ![1] bcast_S64_S1x64_1 : (⟨S64, .f32⟩ : BufTy).Contents (Elt F) → (⟨S1x64, .f32⟩ : BufTy).Contents (Elt F)),
    unary main_v159 main_v160 (broadcastInDim S100000x64 ![0, 1] bcast_S1x64_S100000x64_0_1 : (⟨S1x64, .f32⟩ : BufTy).Contents (Elt F) → (⟨S100000x64, .f32⟩ : BufTy).Contents (Elt F)),
    binary main_v156 main_v160 main_v161 (addf : (⟨S100000x64, .f32⟩ : BufTy).Contents (Elt F) → (⟨S100000x64, .f32⟩ : BufTy).Contents (Elt F) → (⟨S100000x64, .f32⟩ : BufTy).Contents (Elt F)),
    nullary main_cst_30 (constant S_ .f32 0x00000000#32),
    unary main_cst_30 main_v162 (broadcastInDim S100000x64 ![] bcast_S_S100000x64 : (⟨S_, .f32⟩ : BufTy).Contents (Elt F) → (⟨S100000x64, .f32⟩ : BufTy).Contents (Elt F)),
    binary main_v161 main_v162 main_v163 (cmpf .ogt : (⟨S100000x64, .f32⟩ : BufTy).Contents (Elt F) → (⟨S100000x64, .f32⟩ : BufTy).Contents (Elt F) → (⟨S100000x64, .i1⟩ : BufTy).Contents (Elt F)),
    nullary main_cst_31 (constant S_ .f32 0x3E4CCCCD#32),
    unary main_cst_31 main_v164 (broadcastInDim S100000x64 ![] bcast_S_S100000x64 : (⟨S_, .f32⟩ : BufTy).Contents (Elt F) → (⟨S100000x64, .f32⟩ : BufTy).Contents (Elt F)),
    binary main_v164 main_v161 main_v165 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v163) (TRef.of (T := ⟨S100000x64, .f32⟩) main_v161) (TRef.of (T := ⟨S100000x64, .f32⟩) main_v165) (TRef.of (T := ⟨S100000x64, .f32⟩) main_v166) select,
    binary main_v152 main_v166 main_v167 (addf : (⟨S100000x64, .f32⟩ : BufTy).Contents (Elt F) → (⟨S100000x64, .f32⟩ : BufTy).Contents (Elt F) → (⟨S100000x64, .f32⟩ : BufTy).Contents (Elt F)),
    binary main_v167 main_v167 main_v168 (mulf : (⟨S100000x64, .f32⟩ : BufTy).Contents (Elt F) → (⟨S100000x64, .f32⟩ : BufTy).Contents (Elt F) → (⟨S100000x64, .f32⟩ : BufTy).Contents (Elt F)),
    nullary main_cst_32 (constant S_ .f32 0x00000000#32),
    binary main_v168 main_cst_32 main_v169 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v169 main_v170 (broadcastInDim S100000x1 ![0] bcast_S100000_S100000x1_0 : (⟨S100000, .f32⟩ : BufTy).Contents (Elt F) → (⟨S100000x1, .f32⟩ : BufTy).Contents (Elt F)),
    nullary main_cst_33 (constant S_ .f32 0x2B8CBCCC#32),
    unary main_cst_33 main_v171 (broadcastInDim S100000x1 ![] bcast_S_S100000x1 : (⟨S_, .f32⟩ : BufTy).Contents (Elt F) → (⟨S100000x1, .f32⟩ : BufTy).Contents (Elt F)),
    binary main_v170 main_v171 main_v172 (maximumf : (⟨S100000x1, .f32⟩ : BufTy).Contents (Elt F) → (⟨S100000x1, .f32⟩ : BufTy).Contents (Elt F) → (⟨S100000x1, .f32⟩ : BufTy).Contents (Elt F)),
    unary main_v172 main_v173 (Host.rsqrt : (⟨S100000x1, .f32⟩ : BufTy).Contents (Elt F) → (⟨S100000x1, .f32⟩ : BufTy).Contents (Elt F)),
    unary main_v173 main_v174 (broadcastInDim S100000x64 ![0, 1] bcast_S100000x1_S100000x64_0_1 : (⟨S100000x1, .f32⟩ : BufTy).Contents (Elt F) → (⟨S100000x64, .f32⟩ : BufTy).Contents (Elt F)),
    binary main_v167 main_v174 main_v175 (mulf : (⟨S100000x64, .f32⟩ : BufTy).Contents (Elt F) → (⟨S100000x64, .f32⟩ : BufTy).Contents (Elt F) → (⟨S100000x64, .f32⟩ : BufTy).Contents (Elt F)) ]

/-- The concatenation of the input features and the three layers' unit-length rows. -/
abbrev chunk7 : List (HloOp τ sig (Elt F)) :=
  [ nary ![main_arg0, main_v77, main_v126, main_v175] main_v176 (fun u => concatenate S100000x256 1 [⟨S100000x64, u 0⟩, ⟨S100000x64, u 1⟩, ⟨S100000x64, u 2⟩, ⟨S100000x64, u 3⟩] concatenates_S100000x64_S100000x64_S100000x64_S100000x64_S100000x256_d1) ]

set_option maxRecDepth 8192 in
/-- The whole line is the seven pieces in order. -/
theorem ops_split : (ops : List (HloOp τ sig (Elt F))) = chunk1 ++ (chunk2 ++ (chunk3 ++ (chunk4 ++ (chunk5 ++ (chunk6 ++ chunk7))))) := rfl

/-- So the contents after the whole line is the contents after the seven pieces, one after the other. -/
theorem after_ops (V : Valuation τ sig (Elt F)) :
    after (ops (F := F)) V = after chunk7 (after chunk6 (after chunk5 (after chunk4 (after chunk3 (after chunk2 (after chunk1 V)))))) := by
  rw [ops_split, after_append, after_append, after_append, after_append, after_append, after_append]

/-! ## The contents between the pieces -/

variable (m : (ℓ : Loc nD τ sig) → Buf (Elt F) ℓ)

/-- What a core's buffers hold when the program starts. -/
abbrev U0 (c : Dev nD) : Valuation τ sig (Elt F) := launchContents m c
/-- The contents after piece 1. -/
def U1 (c : Dev nD) : Valuation τ sig (Elt F) := after chunk1 (U0 m c)
/-- The contents after piece 2. -/
def U2 (c : Dev nD) : Valuation τ sig (Elt F) := after chunk2 (U1 m c)
/-- The contents after piece 3. -/
def U3 (c : Dev nD) : Valuation τ sig (Elt F) := after chunk3 (U2 m c)
/-- The contents after piece 4. -/
def U4 (c : Dev nD) : Valuation τ sig (Elt F) := after chunk4 (U3 m c)
/-- The contents after piece 5. -/
def U5 (c : Dev nD) : Valuation τ sig (Elt F) := after chunk5 (U4 m c)
/-- The contents after piece 6. -/
def U6 (c : Dev nD) : Valuation τ sig (Elt F) := after chunk6 (U5 m c)
/-- The contents after piece 7. -/
def U7 (c : Dev nD) : Valuation τ sig (Elt F) := after chunk7 (U6 m c)

/-! ## After the first aggregation -/
theorem at1_arg0 (c : Dev nD) : U1 m c (Proc.devRef .tc main_arg0) = m ((c.tc : Thread nD τ).loc main_arg0) := by
  show after chunk1 (U0 m c) (Proc.devRef .tc main_arg0) = _
  after_results_simp <;> rfl
theorem at1_arg1 (c : Dev nD) : U1 m c (Proc.devRef .tc main_arg1) = m ((c.tc : Thread nD τ).loc main_arg1) := by
  show after chunk1 (U0 m c) (Proc.devRef .tc main_arg1) = _
  after_results_simp <;> rfl
theorem at1_arg2 (c : Dev nD) : U1 m c (Proc.devRef .tc main_arg2) = m ((c.tc : Thread nD τ).loc main_arg2) := by
  show after chunk1 (U0 m c) (Proc.devRef .tc main_arg2) = _
  after_results_simp <;> rfl
theorem at1_arg3 (c : Dev nD) : U1 m c (Proc.devRef .tc main_arg3) = m ((c.tc : Thread nD τ).loc main_arg3) := by
  show after chunk1 (U0 m c) (Proc.devRef .tc main_arg3) = _
  after_results_simp <;> rfl
theorem at1_arg4 (c : Dev nD) : U1 m c (Proc.devRef .tc main_arg4) = m ((c.tc : Thread nD τ).loc main_arg4) := by
  show after chunk1 (U0 m c) (Proc.devRef .tc main_arg4) = _
  after_results_simp <;> rfl
theorem at1_arg5 (c : Dev nD) : U1 m c (Proc.devRef .tc main_arg5) = m ((c.tc : Thread nD τ).loc main_arg5) := by
  show after chunk1 (U0 m c) (Proc.devRef .tc main_arg5) = _
  after_results_simp <;> rfl
theorem at1_v41 (c : Dev nD) : U1 m c (Proc.devRef .tc main_v41) = val_main_v41 (F := F) (m ((c.tc : Thread nD τ).loc main_arg0)) (m ((c.tc : Thread nD τ).loc main_arg1)) := by
  show after chunk1 (U0 m c) (Proc.devRef .tc main_v41) = _
  after_results_simp <;> rfl
theorem at1_v3 (c : Dev nD) : U1 m c (Proc.devRef .tc main_v3) = val_main_v3 (F := F) (m ((c.tc : Thread nD τ).loc main_arg1)) := by
  show after chunk1 (U0 m c) (Proc.devRef .tc main_v3) = _
  after_results_simp <;> rfl
theorem at1_v28 (c : Dev nD) : U1 m c (Proc.devRef .tc main_v28) = val_main_v28 (F := F) (m ((c.tc : Thread nD τ).loc main_arg1)) := by
  show after chunk1 (U0 m c) (Proc.devRef .tc main_v28) = _
  after_results_simp <;> rfl
theorem at1_v1 (c : Dev nD) : U1 m c (Proc.devRef .tc main_v1) = val_main_v1 (F := F) (m ((c.tc : Thread nD τ).loc main_arg1)) := by
  show after chunk1 (U0 m c) (Proc.devRef .tc main_v1) = _
  after_results_simp <;> rfl

/-! ## After the first layer -/
theorem at2_arg0 (c : Dev nD) : U2 m c (Proc.devRef .tc main_arg0) = m ((c.tc : Thread nD τ).loc main_arg0) := by
  show after chunk2 (U1 m c) (Proc.devRef .tc main_arg0) = _
  after_results_simp
  exact at1_arg0 m c
theorem at2_arg1 (c : Dev nD) : U2 m c (Proc.devRef .tc main_arg1) = m ((c.tc : Thread nD τ).loc main_arg1) := by
  show after chunk2 (U1 m c) (Proc.devRef .tc main_arg1) = _
  after_results_simp
  exact at1_arg1 m c
theorem at2_arg2 (c : Dev nD) : U2 m c (Proc.devRef .tc main_arg2) = m ((c.tc : Thread nD τ).loc main_arg2) := by
  show after chunk2 (U1 m c) (Proc.devRef .tc main_arg2) = _
  after_results_simp
  exact at1_arg2 m c
theorem at2_arg3 (c : Dev nD) : U2 m c (Proc.devRef .tc main_arg3) = m ((c.tc : Thread nD τ).loc main_arg3) := by
  show after chunk2 (U1 m c) (Proc.devRef .tc main_arg3) = _
  after_results_simp
  exact at1_arg3 m c
theorem at2_arg4 (c : Dev nD) : U2 m c (Proc.devRef .tc main_arg4) = m ((c.tc : Thread nD τ).loc main_arg4) := by
  show after chunk2 (U1 m c) (Proc.devRef .tc main_arg4) = _
  after_results_simp
  exact at1_arg4 m c
theorem at2_arg5 (c : Dev nD) : U2 m c (Proc.devRef .tc main_arg5) = m ((c.tc : Thread nD τ).loc main_arg5) := by
  show after chunk2 (U1 m c) (Proc.devRef .tc main_arg5) = _
  after_results_simp
  exact at1_arg5 m c
theorem at2_v3 (c : Dev nD) : U2 m c (Proc.devRef .tc main_v3) = val_main_v3 (F := F) (m ((c.tc : Thread nD τ).loc main_arg1)) := by
  show after chunk2 (U1 m c) (Proc.devRef .tc main_v3) = _
  after_results_simp
  exact at1_v3 m c
theorem at2_v69 (c : Dev nD) : U2 m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk2 (U1 m c) (Proc.devRef .tc main_v69) = _
  after_results_simp
  rw [at1_v41 m c, at1_arg2 m c, at1_arg3 m c, at1_arg0 m c, at1_arg4 m c, at1_arg5 m c]
  rfl
theorem at2_v28 (c : Dev nD) : U2 m c (Proc.devRef .tc main_v28) = val_main_v28 (F := F) (m ((c.tc : Thread nD τ).loc main_arg1)) := by
  show after chunk2 (U1 m c) (Proc.devRef .tc main_v28) = _
  after_results_simp
  exact at1_v28 m c
theorem at2_v1 (c : Dev nD) : U2 m c (Proc.devRef .tc main_v1) = val_main_v1 (F := F) (m ((c.tc : Thread nD τ).loc main_arg1)) := by
  show after chunk2 (U1 m c) (Proc.devRef .tc main_v1) = _
  after_results_simp
  exact at1_v1 m c
theorem at2_v77 (c : Dev nD) : U2 m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk2 (U1 m c) (Proc.devRef .tc main_v77) = _
  after_results_simp
  rw [at1_v41 m c, at1_arg2 m c, at1_arg3 m c, at1_arg0 m c, at1_arg4 m c, at1_arg5 m c]
  rfl

/-! ## After the second aggregation -/
theorem at3_arg0 (c : Dev nD) : U3 m c (Proc.devRef .tc main_arg0) = m ((c.tc : Thread nD τ).loc main_arg0) := by
  show after chunk3 (U2 m c) (Proc.devRef .tc main_arg0) = _
  after_results_simp
  exact at2_arg0 m c
theorem at3_arg1 (c : Dev nD) : U3 m c (Proc.devRef .tc main_arg1) = m ((c.tc : Thread nD τ).loc main_arg1) := by
  show after chunk3 (U2 m c) (Proc.devRef .tc main_arg1) = _
  after_results_simp
  exact at2_arg1 m c
theorem at3_arg2 (c : Dev nD) : U3 m c (Proc.devRef .tc main_arg2) = m ((c.tc : Thread nD τ).loc main_arg2) := by
  show after chunk3 (U2 m c) (Proc.devRef .tc main_arg2) = _
  after_results_simp
  exact at2_arg2 m c
theorem at3_arg3 (c : Dev nD) : U3 m c (Proc.devRef .tc main_arg3) = m ((c.tc : Thread nD τ).loc main_arg3) := by
  show after chunk3 (U2 m c) (Proc.devRef .tc main_arg3) = _
  after_results_simp
  exact at2_arg3 m c
theorem at3_arg4 (c : Dev nD) : U3 m c (Proc.devRef .tc main_arg4) = m ((c.tc : Thread nD τ).loc main_arg4) := by
  show after chunk3 (U2 m c) (Proc.devRef .tc main_arg4) = _
  after_results_simp
  exact at2_arg4 m c
theorem at3_arg5 (c : Dev nD) : U3 m c (Proc.devRef .tc main_arg5) = m ((c.tc : Thread nD τ).loc main_arg5) := by
  show after chunk3 (U2 m c) (Proc.devRef .tc main_arg5) = _
  after_results_simp
  exact at2_arg5 m c
theorem at3_v90 (c : Dev nD) : U3 m c (Proc.devRef .tc main_v90) = val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk3 (U2 m c) (Proc.devRef .tc main_v90) = _
  after_results_simp
  rw [at2_v1 m c, at2_v69 m c, at2_v3 m c, at2_v28 m c]
  rfl
theorem at3_v69 (c : Dev nD) : U3 m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk3 (U2 m c) (Proc.devRef .tc main_v69) = _
  after_results_simp
  exact at2_v69 m c
theorem at3_v3 (c : Dev nD) : U3 m c (Proc.devRef .tc main_v3) = val_main_v3 (F := F) (m ((c.tc : Thread nD τ).loc main_arg1)) := by
  show after chunk3 (U2 m c) (Proc.devRef .tc main_v3) = _
  after_results_simp
  exact at2_v3 m c
theorem at3_v28 (c : Dev nD) : U3 m c (Proc.devRef .tc main_v28) = val_main_v28 (F := F) (m ((c.tc : Thread nD τ).loc main_arg1)) := by
  show after chunk3 (U2 m c) (Proc.devRef .tc main_v28) = _
  after_results_simp
  exact at2_v28 m c
theorem at3_v1 (c : Dev nD) : U3 m c (Proc.devRef .tc main_v1) = val_main_v1 (F := F) (m ((c.tc : Thread nD τ).loc main_arg1)) := by
  show after chunk3 (U2 m c) (Proc.devRef .tc main_v1) = _
  after_results_simp
  exact at2_v1 m c
theorem at3_v77 (c : Dev nD) : U3 m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk3 (U2 m c) (Proc.devRef .tc main_v77) = _
  after_results_simp
  exact at2_v77 m c

/-! ## After the second layer -/
theorem at4_arg0 (c : Dev nD) : U4 m c (Proc.devRef .tc main_arg0) = m ((c.tc : Thread nD τ).loc main_arg0) := by
  show after chunk4 (U3 m c) (Proc.devRef .tc main_arg0) = _
  after_results_simp
  exact at3_arg0 m c
theorem at4_arg1 (c : Dev nD) : U4 m c (Proc.devRef .tc main_arg1) = m ((c.tc : Thread nD τ).loc main_arg1) := by
  show after chunk4 (U3 m c) (Proc.devRef .tc main_arg1) = _
  after_results_simp
  exact at3_arg1 m c
theorem at4_arg2 (c : Dev nD) : U4 m c (Proc.devRef .tc main_arg2) = m ((c.tc : Thread nD τ).loc main_arg2) := by
  show after chunk4 (U3 m c) (Proc.devRef .tc main_arg2) = _
  after_results_simp
  exact at3_arg2 m c
theorem at4_arg3 (c : Dev nD) : U4 m c (Proc.devRef .tc main_arg3) = m ((c.tc : Thread nD τ).loc main_arg3) := by
  show after chunk4 (U3 m c) (Proc.devRef .tc main_arg3) = _
  after_results_simp
  exact at3_arg3 m c
theorem at4_arg4 (c : Dev nD) : U4 m c (Proc.devRef .tc main_arg4) = m ((c.tc : Thread nD τ).loc main_arg4) := by
  show after chunk4 (U3 m c) (Proc.devRef .tc main_arg4) = _
  after_results_simp
  exact at3_arg4 m c
theorem at4_arg5 (c : Dev nD) : U4 m c (Proc.devRef .tc main_arg5) = m ((c.tc : Thread nD τ).loc main_arg5) := by
  show after chunk4 (U3 m c) (Proc.devRef .tc main_arg5) = _
  after_results_simp
  exact at3_arg5 m c
theorem at4_v3 (c : Dev nD) : U4 m c (Proc.devRef .tc main_v3) = val_main_v3 (F := F) (m ((c.tc : Thread nD τ).loc main_arg1)) := by
  show after chunk4 (U3 m c) (Proc.devRef .tc main_v3) = _
  after_results_simp
  exact at3_v3 m c
theorem at4_v118 (c : Dev nD) : U4 m c (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk4 (U3 m c) (Proc.devRef .tc main_v118) = _
  after_results_simp
  rw [at3_v90 m c, at3_arg2 m c, at3_arg3 m c, at3_v69 m c, at3_arg4 m c, at3_arg5 m c]
  rfl
theorem at4_v28 (c : Dev nD) : U4 m c (Proc.devRef .tc main_v28) = val_main_v28 (F := F) (m ((c.tc : Thread nD τ).loc main_arg1)) := by
  show after chunk4 (U3 m c) (Proc.devRef .tc main_v28) = _
  after_results_simp
  exact at3_v28 m c
theorem at4_v1 (c : Dev nD) : U4 m c (Proc.devRef .tc main_v1) = val_main_v1 (F := F) (m ((c.tc : Thread nD τ).loc main_arg1)) := by
  show after chunk4 (U3 m c) (Proc.devRef .tc main_v1) = _
  after_results_simp
  exact at3_v1 m c
theorem at4_v77 (c : Dev nD) : U4 m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk4 (U3 m c) (Proc.devRef .tc main_v77) = _
  after_results_simp
  exact at3_v77 m c
theorem at4_v126 (c : Dev nD) : U4 m c (Proc.devRef .tc main_v126) = val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk4 (U3 m c) (Proc.devRef .tc main_v126) = _
  after_results_simp
  rw [at3_v90 m c, at3_arg2 m c, at3_arg3 m c, at3_v69 m c, at3_arg4 m c, at3_arg5 m c]
  rfl

/-! ## After the third aggregation -/
theorem at5_arg0 (c : Dev nD) : U5 m c (Proc.devRef .tc main_arg0) = m ((c.tc : Thread nD τ).loc main_arg0) := by
  show after chunk5 (U4 m c) (Proc.devRef .tc main_arg0) = _
  after_results_simp
  exact at4_arg0 m c
theorem at5_arg1 (c : Dev nD) : U5 m c (Proc.devRef .tc main_arg1) = m ((c.tc : Thread nD τ).loc main_arg1) := by
  show after chunk5 (U4 m c) (Proc.devRef .tc main_arg1) = _
  after_results_simp
  exact at4_arg1 m c
theorem at5_arg2 (c : Dev nD) : U5 m c (Proc.devRef .tc main_arg2) = m ((c.tc : Thread nD τ).loc main_arg2) := by
  show after chunk5 (U4 m c) (Proc.devRef .tc main_arg2) = _
  after_results_simp
  exact at4_arg2 m c
theorem at5_arg3 (c : Dev nD) : U5 m c (Proc.devRef .tc main_arg3) = m ((c.tc : Thread nD τ).loc main_arg3) := by
  show after chunk5 (U4 m c) (Proc.devRef .tc main_arg3) = _
  after_results_simp
  exact at4_arg3 m c
theorem at5_arg4 (c : Dev nD) : U5 m c (Proc.devRef .tc main_arg4) = m ((c.tc : Thread nD τ).loc main_arg4) := by
  show after chunk5 (U4 m c) (Proc.devRef .tc main_arg4) = _
  after_results_simp
  exact at4_arg4 m c
theorem at5_arg5 (c : Dev nD) : U5 m c (Proc.devRef .tc main_arg5) = m ((c.tc : Thread nD τ).loc main_arg5) := by
  show after chunk5 (U4 m c) (Proc.devRef .tc main_arg5) = _
  after_results_simp
  exact at4_arg5 m c
theorem at5_v139 (c : Dev nD) : U5 m c (Proc.devRef .tc main_v139) = val_main_v139 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk5 (U4 m c) (Proc.devRef .tc main_v139) = _
  after_results_simp
  rw [at4_v1 m c, at4_v118 m c, at4_v3 m c, at4_v28 m c]
  rfl
theorem at5_v118 (c : Dev nD) : U5 m c (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk5 (U4 m c) (Proc.devRef .tc main_v118) = _
  after_results_simp
  exact at4_v118 m c
theorem at5_v77 (c : Dev nD) : U5 m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk5 (U4 m c) (Proc.devRef .tc main_v77) = _
  after_results_simp
  exact at4_v77 m c
theorem at5_v126 (c : Dev nD) : U5 m c (Proc.devRef .tc main_v126) = val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk5 (U4 m c) (Proc.devRef .tc main_v126) = _
  after_results_simp
  exact at4_v126 m c

/-! ## After the third layer -/
theorem at6_arg0 (c : Dev nD) : U6 m c (Proc.devRef .tc main_arg0) = m ((c.tc : Thread nD τ).loc main_arg0) := by
  show after chunk6 (U5 m c) (Proc.devRef .tc main_arg0) = _
  after_results_simp
  exact at5_arg0 m c
theorem at6_arg1 (c : Dev nD) : U6 m c (Proc.devRef .tc main_arg1) = m ((c.tc : Thread nD τ).loc main_arg1) := by
  show after chunk6 (U5 m c) (Proc.devRef .tc main_arg1) = _
  after_results_simp
  exact at5_arg1 m c
theorem at6_arg2 (c : Dev nD) : U6 m c (Proc.devRef .tc main_arg2) = m ((c.tc : Thread nD τ).loc main_arg2) := by
  show after chunk6 (U5 m c) (Proc.devRef .tc main_arg2) = _
  after_results_simp
  exact at5_arg2 m c
theorem at6_arg3 (c : Dev nD) : U6 m c (Proc.devRef .tc main_arg3) = m ((c.tc : Thread nD τ).loc main_arg3) := by
  show after chunk6 (U5 m c) (Proc.devRef .tc main_arg3) = _
  after_results_simp
  exact at5_arg3 m c
theorem at6_arg4 (c : Dev nD) : U6 m c (Proc.devRef .tc main_arg4) = m ((c.tc : Thread nD τ).loc main_arg4) := by
  show after chunk6 (U5 m c) (Proc.devRef .tc main_arg4) = _
  after_results_simp
  exact at5_arg4 m c
theorem at6_arg5 (c : Dev nD) : U6 m c (Proc.devRef .tc main_arg5) = m ((c.tc : Thread nD τ).loc main_arg5) := by
  show after chunk6 (U5 m c) (Proc.devRef .tc main_arg5) = _
  after_results_simp
  exact at5_arg5 m c
theorem at6_v77 (c : Dev nD) : U6 m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk6 (U5 m c) (Proc.devRef .tc main_v77) = _
  after_results_simp
  exact at5_v77 m c
theorem at6_v126 (c : Dev nD) : U6 m c (Proc.devRef .tc main_v126) = val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk6 (U5 m c) (Proc.devRef .tc main_v126) = _
  after_results_simp
  exact at5_v126 m c
theorem at6_v175 (c : Dev nD) : U6 m c (Proc.devRef .tc main_v175) = val_main_v175 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk6 (U5 m c) (Proc.devRef .tc main_v175) = _
  after_results_simp
  rw [at5_v139 m c, at5_arg2 m c, at5_arg3 m c, at5_v118 m c, at5_arg4 m c, at5_arg5 m c]
  rfl

/-! ## After the concatenation -/
theorem at7_arg0 (c : Dev nD) : U7 m c (Proc.devRef .tc main_arg0) = m ((c.tc : Thread nD τ).loc main_arg0) := by
  show after chunk7 (U6 m c) (Proc.devRef .tc main_arg0) = _
  after_results_simp
  exact at6_arg0 m c
theorem at7_arg1 (c : Dev nD) : U7 m c (Proc.devRef .tc main_arg1) = m ((c.tc : Thread nD τ).loc main_arg1) := by
  show after chunk7 (U6 m c) (Proc.devRef .tc main_arg1) = _
  after_results_simp
  exact at6_arg1 m c
theorem at7_arg2 (c : Dev nD) : U7 m c (Proc.devRef .tc main_arg2) = m ((c.tc : Thread nD τ).loc main_arg2) := by
  show after chunk7 (U6 m c) (Proc.devRef .tc main_arg2) = _
  after_results_simp
  exact at6_arg2 m c
theorem at7_arg3 (c : Dev nD) : U7 m c (Proc.devRef .tc main_arg3) = m ((c.tc : Thread nD τ).loc main_arg3) := by
  show after chunk7 (U6 m c) (Proc.devRef .tc main_arg3) = _
  after_results_simp
  exact at6_arg3 m c
theorem at7_arg4 (c : Dev nD) : U7 m c (Proc.devRef .tc main_arg4) = m ((c.tc : Thread nD τ).loc main_arg4) := by
  show after chunk7 (U6 m c) (Proc.devRef .tc main_arg4) = _
  after_results_simp
  exact at6_arg4 m c
theorem at7_arg5 (c : Dev nD) : U7 m c (Proc.devRef .tc main_arg5) = m ((c.tc : Thread nD τ).loc main_arg5) := by
  show after chunk7 (U6 m c) (Proc.devRef .tc main_arg5) = _
  after_results_simp
  exact at6_arg5 m c
theorem at7_v176 (c : Dev nD) : U7 m c (Proc.devRef .tc main_v176) = val_main_v176 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after chunk7 (U6 m c) (Proc.devRef .tc main_v176) = _
  after_results_simp
  show concatenate S100000x256 1 [⟨S100000x64, U6 m c (Proc.devRef .tc main_arg0)⟩, ⟨S100000x64, U6 m c (Proc.devRef .tc main_v77)⟩, ⟨S100000x64, U6 m c (Proc.devRef .tc main_v126)⟩, ⟨S100000x64, U6 m c (Proc.devRef .tc main_v175)⟩] concatenates_S100000x64_S100000x64_S100000x64_S100000x64_S100000x256_d1 = _
  rw [at6_arg0 m c, at6_v77 m c, at6_v126 m c, at6_v175 m c]
  rfl

/-! ## The run -/

/-- After the whole line the result buffer holds the last stage of the arguments. -/
theorem result_eq (c : Dev nD) :
    after (ops (F := F)) (launchContents m c) (Proc.devRef .tc main_v176) = val_main_v176 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  exact at7_v176 m c
/-- Argument 0 is as launched. -/
theorem kept0 (c : Dev nD) :
    after (ops (F := F)) (launchContents m c) (Proc.devRef .tc main_arg0) = m ((c.tc : Thread nD τ).loc main_arg0) := by
  rw [after_ops]
  exact at7_arg0 m c
/-- Argument 1 is as launched. -/
theorem kept1 (c : Dev nD) :
    after (ops (F := F)) (launchContents m c) (Proc.devRef .tc main_arg1) = m ((c.tc : Thread nD τ).loc main_arg1) := by
  rw [after_ops]
  exact at7_arg1 m c
/-- Argument 2 is as launched. -/
theorem kept2 (c : Dev nD) :
    after (ops (F := F)) (launchContents m c) (Proc.devRef .tc main_arg2) = m ((c.tc : Thread nD τ).loc main_arg2) := by
  rw [after_ops]
  exact at7_arg2 m c
/-- Argument 3 is as launched. -/
theorem kept3 (c : Dev nD) :
    after (ops (F := F)) (launchContents m c) (Proc.devRef .tc main_arg3) = m ((c.tc : Thread nD τ).loc main_arg3) := by
  rw [after_ops]
  exact at7_arg3 m c
/-- Argument 4 is as launched. -/
theorem kept4 (c : Dev nD) :
    after (ops (F := F)) (launchContents m c) (Proc.devRef .tc main_arg4) = m ((c.tc : Thread nD τ).loc main_arg4) := by
  rw [after_ops]
  exact at7_arg4 m c
/-- Argument 5 is as launched. -/
theorem kept5 (c : Dev nD) :
    after (ops (F := F)) (launchContents m c) (Proc.devRef .tc main_arg5) = m ((c.tc : Thread nD τ).loc main_arg5) := by
  rw [after_ops]
  exact at7_arg5 m c

/-- On every device, for any float values, from any memory with zero counters: every weakly fair execution of the reference
    terminates with the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v176) = val_main_v176 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v176).trans (result_eq m c),
      (h c main_arg0).trans (kept0 m c),
      (h c main_arg1).trans (kept1 m c),
      (h c main_arg2).trans (kept2 m c),
      (h c main_arg3).trans (kept3 m c),
      (h c main_arg4).trans (kept4 m c),
      (h c main_arg5).trans (kept5 m c)⟩)
    (run_seq scopedRefs_eq scopedSems_eq defs main (fun _ => ops) main_eq (fun _ => ops_sub) m ρ)

end Cert.RefStagedRun

end
-- ==== Proof.Spec.lean ====
/-
  What one layer computes, said once and index by index over the extended reals, for both programs to be compared with.

  A layer takes the node features `h` (100000 rows of 64) and the aggregated neighbour features `a` of the same shape, and
  returns, row by row,
      g = leaky (a · W₁ + b₁) + leaky ((h ∘ a) · W₂ + b₂)          (`gateRow`: the products are 64-term sums)
  and the same row scaled to unit length with a floor under the squared norm,
      g · rsqrt (max (Σ g²) floor)                                  (`unitRow`).
  Row `r` of the result depends on row `r` of `h` and `a` only, which is why a block of rows of the result is the same
  function of the matching block of rows of the inputs. Three layers are chained: layer `l` reads what layer `l-1` wrote
  before scaling, and the aggregation `agg` (a gather along the edges, a scale per edge and a scatter-add into the rows) is
  a parameter here: both programs apply the same one.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The rectifier's slope: the float literal 0.2 at the exact value of its word. -/
def slope : EReal := Ideal.ofBits .f32 0x3E4CCCCD#32
/-- The floor under a row's squared norm: the float literal 1e-12 at the exact value of its word. -/
def floorSq : EReal := Ideal.ofBits .f32 0x2B8CBCCC#32

/-- The leaky rectifier: `z` where `z` is positive, `slope · z` elsewhere. -/
def leaky (z : EReal) : EReal := if 0 < z then z else slope * z

/-- A select on "`z` is greater than the zero literal" is the `if` on `0 < z`: how both programs spell the rectifier's choice. -/
theorem select_ogt_zero (z y : EReal) :
    Scalar.select (FloatOps.cmpf (F := Ideal) (φ := .f32) .ogt z (Ideal.ofBits .f32 0x00000000#32)) z y = if 0 < z then z else y := by
  rw [Ideal.cmpf_def, Ideal.ofBits_zero_f32]
  unfold Ideal.cmp Scalar.select
  by_cases h : (0 : EReal) < z <;> simp [h]

/-- A row of 64 features. -/
abbrev Row := Fin 64 → EReal
/-- A 64 × 64 weight matrix. -/
abbrev Mat := (⟨2, ![64, 64]⟩ : Shape).Idx → EReal
/-- The features of all nodes: 100000 rows of 64. -/
abbrev Nodes := (⟨2, ![100000, 64]⟩ : Shape).Idx → EReal
/-- The three layers' weight matrices, and their bias rows. -/
abbrev Weights := (⟨3, ![3, 64, 64]⟩ : Shape).Idx → EReal
abbrev Biases := (⟨2, ![3, 64]⟩ : Shape).Idx → EReal

/-- One row of the gated dense layer, from the node's own row `h` and its aggregated row `a`. -/
def gateRow (h a : Row) (w1 : Mat) (b1 : Row) (w2 : Mat) (b2 : Row) : Row := fun q =>
  leaky ((∑ k : Fin 64, a k * w1 (ix2 k q)) + b1 q) + leaky ((∑ k : Fin 64, (h k * a k) * w2 (ix2 k q)) + b2 q)

/-- A row scaled to unit length, the squared norm floored. -/
def unitRow (g : Row) : Row := fun q => g q * Ideal.rsqrt (max (∑ k : Fin 64, g k * g k) floorSq)

/-- Row `r` of an array of node features. -/
def rowOf (x : Nodes) (r : Fin 100000) : Row := fun k => x (ix2 r k)

/-- The gated dense layer on all nodes, row by row. -/
def gate (h a : Nodes) (w1 : Mat) (b1 : Row) (w2 : Mat) (b2 : Row) : Nodes := fun i =>
  gateRow (rowOf h (i 0)) (rowOf a (i 0)) w1 b1 w2 b2 (i 1)

/-- Every row scaled to unit length. -/
def unit (g : Nodes) : Nodes := fun i => unitRow (rowOf g (i 0)) (i 1)

/-- Layer `l`'s matrix out of the stacked weights, and its bias row. -/
def matOf (W : Weights) (l : Fin 3) : Mat := fun j => W (ix3 l (j 0) (j 1))
def biasOf (b : Biases) (l : Fin 3) : Row := fun q => b (ix2 l q)

/-- Layer `l` applied to the features `h`, over the aggregation `agg`. -/
def layer (agg : Nodes → Nodes) (W1 : Weights) (b1 : Biases) (W2 : Weights) (b2 : Biases) (l : Fin 3) (h : Nodes) : Nodes :=
  gate h (agg h) (matOf W1 l) (biasOf b1 l) (matOf W2 l) (biasOf b2 l)

end Cert.Spec

end
-- ==== Proof.RefLayers.lean ====
/-
  The reference program, layer by layer, is the shared specification.

  Each of the three layers of the reference reads the node features `h` and their aggregate `a` and writes, row by row,
  `leaky (a · W₁ + b₁) + leaky ((h ∘ a) · W₂ + b₂)`, then the same row scaled to unit length with the squared norm
  floored. Read at an index, every host operation of a layer is pointwise, a 64-term sum, or a re-indexing by literal
  shapes; composing them gives `Spec.gate` and `Spec.unit` exactly. The aggregate each layer reads is left as the
  reference's own stage: nothing here looks inside it.
-/
import proofs.«170062_j90890097918586_1_alg».proof.Proof.RefImports
import proofs.«170062_j90890097918586_1_alg».proof.Proof.Spec

noncomputable section

open scoped BigOperators

namespace Cert.RefLayers

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S100000x64, .f32⟩ : BufTy).Contents (Elt Ideal)) (x1 : (⟨S2x1280000, .i32⟩ : BufTy).Contents (Elt Ideal))
  (x2 : (⟨S3x64x64, .f32⟩ : BufTy).Contents (Elt Ideal)) (x3 : (⟨S3x64, .f32⟩ : BufTy).Contents (Elt Ideal))
  (x4 : (⟨S3x64x64, .f32⟩ : BufTy).Contents (Elt Ideal)) (x5 : (⟨S3x64, .f32⟩ : BufTy).Contents (Elt Ideal))

/-! ## Layer 1 -/

/-- The layer's first matrix is slice 0 of the first stacked weights: the slice keeps `(k, q)` under a leading 0, and
    the reshape that drops the leading axis re-indexes `(k, q)` row-major, which is `(k, q)` again. -/
theorem mat1a : val_main_v43 (F := Ideal) x2 = Cert.Spec.matOf x2 0 := by
  funext j
  obtain ⟨k, q, rfl⟩ : ∃ (k : Fin 64) (q : Fin 64), j = ix2 k q := ⟨j 0, j 1, eq_ix2 j⟩
  rw [val_main_v43_apply, val_main_v42_apply]
  unfold Cert.Spec.matOf
  refine congrArg x2 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The layer's second matrix is slice 0 of the second stacked weights. -/
theorem mat1b : val_main_v57 (F := Ideal) x4 = Cert.Spec.matOf x4 0 := by
  funext j
  obtain ⟨k, q, rfl⟩ : ∃ (k : Fin 64) (q : Fin 64), j = ix2 k q := ⟨j 0, j 1, eq_ix2 j⟩
  rw [val_main_v57_apply, val_main_v56_apply]
  unfold Cert.Spec.matOf
  refine congrArg x4 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The layer's first bias row is slice 0 of the first stacked biases, the leading axis dropped. -/
theorem bias1a (q : Fin 64) : val_main_v46 (F := Ideal) x3 (ix1 q) = Cert.Spec.biasOf x3 0 q := by
  rw [val_main_v46_apply, val_main_v45_apply]
  unfold Cert.Spec.biasOf
  refine congrArg x3 (funext fun a => Fin.ext ?_)
  have hq := q.isLt
  match a with
  | ⟨0, _⟩ => rfl
  | ⟨1, _⟩ => show q.val % 64 = q.val; omega

/-- The layer's second bias row is slice 0 of the second stacked biases. -/
theorem bias1b (q : Fin 64) : val_main_v60 (F := Ideal) x5 (ix1 q) = Cert.Spec.biasOf x5 0 q := by
  rw [val_main_v60_apply, val_main_v59_apply]
  unfold Cert.Spec.biasOf
  refine congrArg x5 (funext fun a => Fin.ext ?_)
  have hq := q.isLt
  match a with
  | ⟨0, _⟩ => rfl
  | ⟨1, _⟩ => show q.val % 64 = q.val; omega

/-- The first branch before the rectifier, at row `r` and column `q`: the aggregated row against column `q` of the
    layer's first matrix (a 64-term sum), plus the first bias at `q` (the bias row broadcast down the rows). -/
theorem dense1a (r : Fin 100000) (q : Fin 64) :
    val_main_v49 (F := Ideal) x0 x1 x2 x3 (ix2 r q)
      = (∑ k : Fin 64, val_main_v41 (F := Ideal) x0 x1 (ix2 r k) * Cert.Spec.matOf x2 0 (ix2 k q))
        + Cert.Spec.biasOf x3 0 q := by
  rw [val_main_v49_apply, Ideal.addf_def, val_main_v44_apply, val_main_v48_apply, val_main_v47_apply, mat1a]
  refine congrArg₂ (· + ·) (Finset.sum_congr rfl fun k _ => congrArg₂ (· * ·) ?_ ?_) ?_
  · exact congrArg (val_main_v41 (F := Ideal) x0 x1)
      (funext fun a => Fin.ext (by match a with | ⟨0, _⟩ => rfl | ⟨1, _⟩ => rfl))
  · exact congrArg (Cert.Spec.matOf x2 0)
      (funext fun a => Fin.ext (by match a with | ⟨0, _⟩ => rfl | ⟨1, _⟩ => rfl))
  · refine Eq.trans (congrArg (val_main_v46 (F := Ideal) x3) ?_) (bias1a x3 q)
    exact funext fun a => Fin.ext (by match a with | ⟨0, _⟩ => rfl)

/-- The second branch before the rectifier: the row of products `h ∘ a` against column `q` of the layer's second
    matrix, plus the second bias at `q`. -/
theorem dense1b (r : Fin 100000) (q : Fin 64) :
    val_main_v63 (F := Ideal) x0 x1 x4 x5 (ix2 r q)
      = (∑ k : Fin 64, (x0 (ix2 r k) * val_main_v41 (F := Ideal) x0 x1 (ix2 r k)) * Cert.Spec.matOf x4 0 (ix2 k q))
        + Cert.Spec.biasOf x5 0 q := by
  rw [val_main_v63_apply, Ideal.addf_def, val_main_v58_apply, val_main_v62_apply, val_main_v61_apply, mat1b]
  refine congrArg₂ (· + ·) (Finset.sum_congr rfl fun k _ => congrArg₂ (· * ·) ?_ ?_) ?_
  · rw [val_main_v55_apply, Ideal.mulf_def]
    exact congrArg (fun j => x0 j * val_main_v41 (F := Ideal) x0 x1 j)
      (funext fun a => Fin.ext (by match a with | ⟨0, _⟩ => rfl | ⟨1, _⟩ => rfl))
  · exact congrArg (Cert.Spec.matOf x4 0)
      (funext fun a => Fin.ext (by match a with | ⟨0, _⟩ => rfl | ⟨1, _⟩ => rfl))
  · refine Eq.trans (congrArg (val_main_v60 (F := Ideal) x5) ?_) (bias1b x5 q)
    exact funext fun a => Fin.ext (by match a with | ⟨0, _⟩ => rfl)

/-- The first branch's rectifier: a select on "greater than the zero literal" between the value and 0.2 times it. -/
theorem leaky1a (i : S100000x64.Idx) :
    val_main_v54 (F := Ideal) x0 x1 x2 x3 i = Cert.Spec.leaky (val_main_v49 (F := Ideal) x0 x1 x2 x3 i) := by
  rw [val_main_v54_apply, val_main_v51_apply, val_main_v53_apply, val_main_v50_apply, val_main_v52_apply,
    val_main_cst_10_apply, val_main_cst_11_apply]
  exact Cert.Spec.select_ogt_zero _ _

/-- The second branch's rectifier. -/
theorem leaky1b (i : S100000x64.Idx) :
    val_main_v68 (F := Ideal) x0 x1 x4 x5 i = Cert.Spec.leaky (val_main_v63 (F := Ideal) x0 x1 x4 x5 i) := by
  rw [val_main_v68_apply, val_main_v65_apply, val_main_v67_apply, val_main_v64_apply, val_main_v66_apply,
    val_main_cst_12_apply, val_main_cst_13_apply]
  exact Cert.Spec.select_ogt_zero _ _

/-- The first layer's new features are the gated dense layer of the input features and their aggregate, with slice 0
    of the stacked weights and biases. -/
theorem new1 : val_main_v69 (F := Ideal) x0 x1 x2 x3 x4 x5
    = Cert.Spec.gate x0 (val_main_v41 (F := Ideal) x0 x1) (Cert.Spec.matOf x2 0) (Cert.Spec.biasOf x3 0)
        (Cert.Spec.matOf x4 0) (Cert.Spec.biasOf x5 0) := by
  funext i
  obtain ⟨r, q, rfl⟩ : ∃ (r : Fin 100000) (q : Fin 64), i = ix2 r q := ⟨i 0, i 1, eq_ix2 i⟩
  rw [val_main_v69_apply, Ideal.addf_def, leaky1a, leaky1b, dense1a, dense1b]
  unfold Cert.Spec.gate Cert.Spec.gateRow Cert.Spec.rowOf
  rfl

/-- The first layer's scaled features: each row of the new features times the reciprocal square root of its squared
    norm floored at 1e-12. The squared norm is a 64-term sum started from the zero literal; the reciprocal square root is
    taken per row and broadcast along it. -/
theorem unit1 : val_main_v77 (F := Ideal) x0 x1 x2 x3 x4 x5
    = Cert.Spec.unit (val_main_v69 (F := Ideal) x0 x1 x2 x3 x4 x5) := by
  funext i
  obtain ⟨r, q, rfl⟩ : ∃ (r : Fin 100000) (q : Fin 64), i = ix2 r q := ⟨i 0, i 1, eq_ix2 i⟩
  rw [val_main_v77_apply, val_main_v76_apply, val_main_v75_apply, val_main_v74_apply, val_main_v72_apply,
    val_main_v73_apply, val_main_cst_15_apply, val_main_v71_apply, val_main_cst_14_apply, Ideal.mulf_def,
    Ideal.hostUnary_rsqrt_def, Ideal.maximumf_def, Ideal.ofBits_def, Ideal.ofBits_def, Ideal.ofBits_zero_f32, zero_add]
  unfold Cert.Spec.unit Cert.Spec.unitRow Cert.Spec.rowOf Cert.Spec.floorSq
  refine congrArg (fun s => val_main_v69 (F := Ideal) x0 x1 x2 x3 x4 x5 (ix2 r q)
    * Ideal.rsqrt (max s (Ideal.ofBits .f32 0x2B8CBCCC#32))) (Finset.sum_congr rfl fun k _ => ?_)
  rw [val_main_v70_apply, Ideal.mulf_def]
  exact congrArg (fun j => val_main_v69 (F := Ideal) x0 x1 x2 x3 x4 x5 j
      * val_main_v69 (F := Ideal) x0 x1 x2 x3 x4 x5 j)
    (funext fun a => Fin.ext (by match a with | ⟨0, _⟩ => rfl | ⟨1, _⟩ => rfl))

/-! ## Layer 2 -/

/-- The layer's first matrix is slice 1 of the first stacked weights: the slice keeps `(k, q)` under a leading 1, and
    the reshape that drops the leading axis re-indexes `(k, q)` row-major, which is `(k, q)` again. -/
theorem mat2a : val_main_v92 (F := Ideal) x2 = Cert.Spec.matOf x2 1 := by
  funext j
  obtain ⟨k, q, rfl⟩ : ∃ (k : Fin 64) (q : Fin 64), j = ix2 k q := ⟨j 0, j 1, eq_ix2 j⟩
  rw [val_main_v92_apply, val_main_v91_apply]
  unfold Cert.Spec.matOf
  refine congrArg x2 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The layer's second matrix is slice 1 of the second stacked weights. -/
theorem mat2b : val_main_v106 (F := Ideal) x4 = Cert.Spec.matOf x4 1 := by
  funext j
  obtain ⟨k, q, rfl⟩ : ∃ (k : Fin 64) (q : Fin 64), j = ix2 k q := ⟨j 0, j 1, eq_ix2 j⟩
  rw [val_main_v106_apply, val_main_v105_apply]
  unfold Cert.Spec.matOf
  refine congrArg x4 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The layer's first bias row is slice 1 of the first stacked biases, the leading axis dropped. -/
theorem bias2a (q : Fin 64) : val_main_v95 (F := Ideal) x3 (ix1 q) = Cert.Spec.biasOf x3 1 q := by
  rw [val_main_v95_apply, val_main_v94_apply]
  unfold Cert.Spec.biasOf
  refine congrArg x3 (funext fun a => Fin.ext ?_)
  have hq := q.isLt
  match a with
  | ⟨0, _⟩ => rfl
  | ⟨1, _⟩ => show q.val % 64 = q.val; omega

/-- The layer's second bias row is slice 1 of the second stacked biases. -/
theorem bias2b (q : Fin 64) : val_main_v109 (F := Ideal) x5 (ix1 q) = Cert.Spec.biasOf x5 1 q := by
  rw [val_main_v109_apply, val_main_v108_apply]
  unfold Cert.Spec.biasOf
  refine congrArg x5 (funext fun a => Fin.ext ?_)
  have hq := q.isLt
  match a with
  | ⟨0, _⟩ => rfl
  | ⟨1, _⟩ => show q.val % 64 = q.val; omega

/-- The first branch before the rectifier, at row `r` and column `q`: the aggregated row against column `q` of the
    layer's first matrix (a 64-term sum), plus the first bias at `q` (the bias row broadcast down the rows). -/
theorem dense2a (r : Fin 100000) (q : Fin 64) :
    val_main_v98 (F := Ideal) x0 x1 x2 x3 x4 x5 (ix2 r q)
      = (∑ k : Fin 64, val_main_v90 (F := Ideal) x0 x1 x2 x3 x4 x5 (ix2 r k) * Cert.Spec.matOf x2 1 (ix2 k q))
        + Cert.Spec.biasOf x3 1 q := by
  rw [val_main_v98_apply, Ideal.addf_def, val_main_v93_apply, val_main_v97_apply, val_main_v96_apply, mat2a]
  refine congrArg₂ (· + ·) (Finset.sum_congr rfl fun k _ => congrArg₂ (· * ·) ?_ ?_) ?_
  · exact congrArg (val_main_v90 (F := Ideal) x0 x1 x2 x3 x4 x5)
      (funext fun a => Fin.ext (by match a with | ⟨0, _⟩ => rfl | ⟨1, _⟩ => rfl))
  · exact congrArg (Cert.Spec.matOf x2 1)
      (funext fun a => Fin.ext (by match a with | ⟨0, _⟩ => rfl | ⟨1, _⟩ => rfl))
  · refine Eq.trans (congrArg (val_main_v95 (F := Ideal) x3) ?_) (bias2a x3 q)
    exact funext fun a => Fin.ext (by match a with | ⟨0, _⟩ => rfl)

/-- The second branch before the rectifier: the row of products `h ∘ a` against column `q` of the layer's second
    matrix, plus the second bias at `q`. -/
theorem dense2b (r : Fin 100000) (q : Fin 64) :
    val_main_v112 (F := Ideal) x0 x1 x2 x3 x4 x5 (ix2 r q)
      = (∑ k : Fin 64, (val_main_v69 (F := Ideal) x0 x1 x2 x3 x4 x5 (ix2 r k)
            * val_main_v90 (F := Ideal) x0 x1 x2 x3 x4 x5 (ix2 r k)) * Cert.Spec.matOf x4 1 (ix2 k q))
        + Cert.Spec.biasOf x5 1 q := by
  rw [val_main_v112_apply, Ideal.addf_def, val_main_v107_apply, val_main_v111_apply, val_main_v110_apply, mat2b]
  refine congrArg₂ (· + ·) (Finset.sum_congr rfl fun k _ => congrArg₂ (· * ·) ?_ ?_) ?_
  · rw [val_main_v104_apply, Ideal.mulf_def]
    exact congrArg (fun j => val_main_v69 (F := Ideal) x0 x1 x2 x3 x4 x5 j
        * val_main_v90 (F := Ideal) x0 x1 x2 x3 x4 x5 j)
      (funext fun a => Fin.ext (by match a with | ⟨0, _⟩ => rfl | ⟨1, _⟩ => rfl))
  · exact congrArg (Cert.Spec.matOf x4 1)
      (funext fun a => Fin.ext (by match a with | ⟨0, _⟩ => rfl | ⟨1, _⟩ => rfl))
  · refine Eq.trans (congrArg (val_main_v109 (F := Ideal) x5) ?_) (bias2b x5 q)
    exact funext fun a => Fin.ext (by match a with | ⟨0, _⟩ => rfl)

/-- The first branch's rectifier: a select on "greater than the zero literal" between the value and 0.2 times it. -/
theorem leaky2a (i : S100000x64.Idx) :
    val_main_v103 (F := Ideal) x0 x1 x2 x3 x4 x5 i
      = Cert.Spec.leaky (val_main_v98 (F := Ideal) x0 x1 x2 x3 x4 x5 i) := by
  rw [val_main_v103_apply, val_main_v100_apply, val_main_v102_apply, val_main_v99_apply, val_main_v101_apply,
    val_main_cst_19_apply, val_main_cst_20_apply]
  exact Cert.Spec.select_ogt_zero _ _

/-- The second branch's rectifier. -/
theorem leaky2b (i : S100000x64.Idx) :
    val_main_v117 (F := Ideal) x0 x1 x2 x3 x4 x5 i
      = Cert.Spec.leaky (val_main_v112 (F := Ideal) x0 x1 x2 x3 x4 x5 i) := by
  rw [val_main_v117_apply, val_main_v114_apply, val_main_v116_apply, val_main_v113_apply, val_main_v115_apply,
    val_main_cst_21_apply, val_main_cst_22_apply]
  exact Cert.Spec.select_ogt_zero _ _

/-- The second layer's new features are the gated dense layer of the previous layer's new features and their
    aggregate, with slice 1 of the stacked weights and biases. -/
theorem new2 : val_main_v118 (F := Ideal) x0 x1 x2 x3 x4 x5
    = Cert.Spec.gate (val_main_v69 (F := Ideal) x0 x1 x2 x3 x4 x5) (val_main_v90 (F := Ideal) x0 x1 x2 x3 x4 x5)
        (Cert.Spec.matOf x2 1) (Cert.Spec.biasOf x3 1) (Cert.Spec.matOf x4 1) (Cert.Spec.biasOf x5 1) := by
  funext i
  obtain ⟨r, q, rfl⟩ : ∃ (r : Fin 100000) (q : Fin 64), i = ix2 r q := ⟨i 0, i 1, eq_ix2 i⟩
  rw [val_main_v118_apply, Ideal.addf_def, leaky2a, leaky2b, dense2a, dense2b]
  unfold Cert.Spec.gate Cert.Spec.gateRow Cert.Spec.rowOf
  rfl

/-- The second layer's scaled features: each row of the new features times the reciprocal square root of its squared
    norm floored at 1e-12. The squared norm is a 64-term sum started from the zero literal; the reciprocal square root is
    taken per row and broadcast along it. -/
theorem unit2 : val_main_v126 (F := Ideal) x0 x1 x2 x3 x4 x5
    = Cert.Spec.unit (val_main_v118 (F := Ideal) x0 x1 x2 x3 x4 x5) := by
  funext i
  obtain ⟨r, q, rfl⟩ : ∃ (r : Fin 100000) (q : Fin 64), i = ix2 r q := ⟨i 0, i 1, eq_ix2 i⟩
  rw [val_main_v126_apply, val_main_v125_apply, val_main_v124_apply, val_main_v123_apply, val_main_v121_apply,
    val_main_v122_apply, val_main_cst_24_apply, val_main_v120_apply, val_main_cst_23_apply, Ideal.mulf_def,
    Ideal.hostUnary_rsqrt_def, Ideal.maximumf_def, Ideal.ofBits_def, Ideal.ofBits_def, Ideal.ofBits_zero_f32, zero_add]
  unfold Cert.Spec.unit Cert.Spec.unitRow Cert.Spec.rowOf Cert.Spec.floorSq
  refine congrArg (fun s => val_main_v118 (F := Ideal) x0 x1 x2 x3 x4 x5 (ix2 r q)
    * Ideal.rsqrt (max s (Ideal.ofBits .f32 0x2B8CBCCC#32))) (Finset.sum_congr rfl fun k _ => ?_)
  rw [val_main_v119_apply, Ideal.mulf_def]
  exact congrArg (fun j => val_main_v118 (F := Ideal) x0 x1 x2 x3 x4 x5 j
      * val_main_v118 (F := Ideal) x0 x1 x2 x3 x4 x5 j)
    (funext fun a => Fin.ext (by match a with | ⟨0, _⟩ => rfl | ⟨1, _⟩ => rfl))

/-! ## Layer 3 -/

/-- The layer's first matrix is slice 2 of the first stacked weights: the slice keeps `(k, q)` under a leading 2, and
    the reshape that drops the leading axis re-indexes `(k, q)` row-major, which is `(k, q)` again. -/
theorem mat3a : val_main_v141 (F := Ideal) x2 = Cert.Spec.matOf x2 2 := by
  funext j
  obtain ⟨k, q, rfl⟩ : ∃ (k : Fin 64) (q : Fin 64), j = ix2 k q := ⟨j 0, j 1, eq_ix2 j⟩
  rw [val_main_v141_apply, val_main_v140_apply]
  unfold Cert.Spec.matOf
  refine congrArg x2 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The layer's second matrix is slice 2 of the second stacked weights. -/
theorem mat3b : val_main_v155 (F := Ideal) x4 = Cert.Spec.matOf x4 2 := by
  funext j
  obtain ⟨k, q, rfl⟩ : ∃ (k : Fin 64) (q : Fin 64), j = ix2 k q := ⟨j 0, j 1, eq_ix2 j⟩
  rw [val_main_v155_apply, val_main_v154_apply]
  unfold Cert.Spec.matOf
  refine congrArg x4 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The layer's first bias row is slice 2 of the first stacked biases, the leading axis dropped. -/
theorem bias3a (q : Fin 64) : val_main_v144 (F := Ideal) x3 (ix1 q) = Cert.Spec.biasOf x3 2 q := by
  rw [val_main_v144_apply, val_main_v143_apply]
  unfold Cert.Spec.biasOf
  refine congrArg x3 (funext fun a => Fin.ext ?_)
  have hq := q.isLt
  match a with
  | ⟨0, _⟩ => rfl
  | ⟨1, _⟩ => show q.val % 64 = q.val; omega

/-- The layer's second bias row is slice 2 of the second stacked biases. -/
theorem bias3b (q : Fin 64) : val_main_v158 (F := Ideal) x5 (ix1 q) = Cert.Spec.biasOf x5 2 q := by
  rw [val_main_v158_apply, val_main_v157_apply]
  unfold Cert.Spec.biasOf
  refine congrArg x5 (funext fun a => Fin.ext ?_)
  have hq := q.isLt
  match a with
  | ⟨0, _⟩ => rfl
  | ⟨1, _⟩ => show q.val % 64 = q.val; omega

/-- The first branch before the rectifier, at row `r` and column `q`: the aggregated row against column `q` of the
    layer's first matrix (a 64-term sum), plus the first bias at `q` (the bias row broadcast down the rows). -/
theorem dense3a (r : Fin 100000) (q : Fin 64) :
    val_main_v147 (F := Ideal) x0 x1 x2 x3 x4 x5 (ix2 r q)
      = (∑ k : Fin 64, val_main_v139 (F := Ideal) x0 x1 x2 x3 x4 x5 (ix2 r k) * Cert.Spec.matOf x2 2 (ix2 k q))
        + Cert.Spec.biasOf x3 2 q := by
  rw [val_main_v147_apply, Ideal.addf_def, val_main_v142_apply, val_main_v146_apply, val_main_v145_apply, mat3a]
  refine congrArg₂ (· + ·) (Finset.sum_congr rfl fun k _ => congrArg₂ (· * ·) ?_ ?_) ?_
  · exact congrArg (val_main_v139 (F := Ideal) x0 x1 x2 x3 x4 x5)
      (funext fun a => Fin.ext (by match a with | ⟨0, _⟩ => rfl | ⟨1, _⟩ => rfl))
  · exact congrArg (Cert.Spec.matOf x2 2)
      (funext fun a => Fin.ext (by match a with | ⟨0, _⟩ => rfl | ⟨1, _⟩ => rfl))
  · refine Eq.trans (congrArg (val_main_v144 (F := Ideal) x3) ?_) (bias3a x3 q)
    exact funext fun a => Fin.ext (by match a with | ⟨0, _⟩ => rfl)

/-- The second branch before the rectifier: the row of products `h ∘ a` against column `q` of the layer's second
    matrix, plus the second bias at `q`. -/
theorem dense3b (r : Fin 100000) (q : Fin 64) :
    val_main_v161 (F := Ideal) x0 x1 x2 x3 x4 x5 (ix2 r q)
      = (∑ k : Fin 64, (val_main_v118 (F := Ideal) x0 x1 x2 x3 x4 x5 (ix2 r k)
            * val_main_v139 (F := Ideal) x0 x1 x2 x3 x4 x5 (ix2 r k)) * Cert.Spec.matOf x4 2 (ix2 k q))
        + Cert.Spec.biasOf x5 2 q := by
  rw [val_main_v161_apply, Ideal.addf_def, val_main_v156_apply, val_main_v160_apply, val_main_v159_apply, mat3b]
  refine congrArg₂ (· + ·) (Finset.sum_congr rfl fun k _ => congrArg₂ (· * ·) ?_ ?_) ?_
  · rw [val_main_v153_apply, Ideal.mulf_def]
    exact congrArg (fun j => val_main_v118 (F := Ideal) x0 x1 x2 x3 x4 x5 j
        * val_main_v139 (F := Ideal) x0 x1 x2 x3 x4 x5 j)
      (funext fun a => Fin.ext (by match a with | ⟨0, _⟩ => rfl | ⟨1, _⟩ => rfl))
  · exact congrArg (Cert.Spec.matOf x4 2)
      (funext fun a => Fin.ext (by match a with | ⟨0, _⟩ => rfl | ⟨1, _⟩ => rfl))
  · refine Eq.trans (congrArg (val_main_v158 (F := Ideal) x5) ?_) (bias3b x5 q)
    exact funext fun a => Fin.ext (by match a with | ⟨0, _⟩ => rfl)

/-- The first branch's rectifier: a select on "greater than the zero literal" between the value and 0.2 times it. -/
theorem leaky3a (i : S100000x64.Idx) :
    val_main_v152 (F := Ideal) x0 x1 x2 x3 x4 x5 i
      = Cert.Spec.leaky (val_main_v147 (F := Ideal) x0 x1 x2 x3 x4 x5 i) := by
  rw [val_main_v152_apply, val_main_v149_apply, val_main_v151_apply, val_main_v148_apply, val_main_v150_apply,
    val_main_cst_28_apply, val_main_cst_29_apply]
  exact Cert.Spec.select_ogt_zero _ _

/-- The second branch's rectifier. -/
theorem leaky3b (i : S100000x64.Idx) :
    val_main_v166 (F := Ideal) x0 x1 x2 x3 x4 x5 i
      = Cert.Spec.leaky (val_main_v161 (F := Ideal) x0 x1 x2 x3 x4 x5 i) := by
  rw [val_main_v166_apply, val_main_v163_apply, val_main_v165_apply, val_main_v162_apply, val_main_v164_apply,
    val_main_cst_30_apply, val_main_cst_31_apply]
  exact Cert.Spec.select_ogt_zero _ _

/-- The third layer's new features are the gated dense layer of the previous layer's new features and their
    aggregate, with slice 2 of the stacked weights and biases. -/
theorem new3 : val_main_v167 (F := Ideal) x0 x1 x2 x3 x4 x5
    = Cert.Spec.gate (val_main_v118 (F := Ideal) x0 x1 x2 x3 x4 x5) (val_main_v139 (F := Ideal) x0 x1 x2 x3 x4 x5)
        (Cert.Spec.matOf x2 2) (Cert.Spec.biasOf x3 2) (Cert.Spec.matOf x4 2) (Cert.Spec.biasOf x5 2) := by
  funext i
  obtain ⟨r, q, rfl⟩ : ∃ (r : Fin 100000) (q : Fin 64), i = ix2 r q := ⟨i 0, i 1, eq_ix2 i⟩
  rw [val_main_v167_apply, Ideal.addf_def, leaky3a, leaky3b, dense3a, dense3b]
  unfold Cert.Spec.gate Cert.Spec.gateRow Cert.Spec.rowOf
  rfl

/-- The third layer's scaled features: each row of the new features times the reciprocal square root of its squared
    norm floored at 1e-12. The squared norm is a 64-term sum started from the zero literal; the reciprocal square root is
    taken per row and broadcast along it. -/
theorem unit3 : val_main_v175 (F := Ideal) x0 x1 x2 x3 x4 x5
    = Cert.Spec.unit (val_main_v167 (F := Ideal) x0 x1 x2 x3 x4 x5) := by
  funext i
  obtain ⟨r, q, rfl⟩ : ∃ (r : Fin 100000) (q : Fin 64), i = ix2 r q := ⟨i 0, i 1, eq_ix2 i⟩
  rw [val_main_v175_apply, val_main_v174_apply, val_main_v173_apply, val_main_v172_apply, val_main_v170_apply,
    val_main_v171_apply, val_main_cst_33_apply, val_main_v169_apply, val_main_cst_32_apply, Ideal.mulf_def,
    Ideal.hostUnary_rsqrt_def, Ideal.maximumf_def, Ideal.ofBits_def, Ideal.ofBits_def, Ideal.ofBits_zero_f32, zero_add]
  unfold Cert.Spec.unit Cert.Spec.unitRow Cert.Spec.rowOf Cert.Spec.floorSq
  refine congrArg (fun s => val_main_v167 (F := Ideal) x0 x1 x2 x3 x4 x5 (ix2 r q)
    * Ideal.rsqrt (max s (Ideal.ofBits .f32 0x2B8CBCCC#32))) (Finset.sum_congr rfl fun k _ => ?_)
  rw [val_main_v168_apply, Ideal.mulf_def]
  exact congrArg (fun j => val_main_v167 (F := Ideal) x0 x1 x2 x3 x4 x5 j
      * val_main_v167 (F := Ideal) x0 x1 x2 x3 x4 x5 j)
    (funext fun a => Fin.ext (by match a with | ⟨0, _⟩ => rfl | ⟨1, _⟩ => rfl))

end Cert.RefLayers

end
-- ==== Proof.BodyValue.lean ====
/-
  What each of the three kernel bodies computes, read at one element of its block of 5000 rows.

  A body forms the layer's new features from the node's own block `h` and the aggregated block `a`:
      g = leaky (a · W₁ + b₁) + leaky ((h ∘ a) · W₂ + b₂),
  the two products being 64-term sums (a narrowing of the operands' format is the identity on the extended reals, and the
  accumulator is the zero splat), the bias rows broadcast down the block, and the rectifier a select on "greater than
  zero". It then scales every row of `g` by the reciprocal square root of the row's sum of squares, floored:
      g · rsqrt (max (Σ g²) floor).
  `newK` reads the first at an element as `Spec.gateRow` of the matching rows; `unitK` reads the second as `Spec.unitRow` of
  the first's row. The three bodies differ only in the names of their loaded values and in where the view of the row sums
  as a column sits.
-/
import proofs.«170062_j90890097918586_1_alg».proof.Proof.Spec
import proofs.«170062_j90890097918586_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BodyValue

open Cert.KernelIdeal Cert.KernelIdeal.Gen Idealize.ShloMosaic Idealize.ShloMosaic.ValueIdx

/-! ## The matrix product read at one element -/

/-- The left operand's index under the product's dimension numbers: the output's row … -/
theorem lhs_coord0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted coordinate. -/
theorem lhs_coord1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- The right operand's index: the contracted coordinate … -/
theorem rhs_coord0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- … and the output's column. -/
theorem rhs_coord1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a block of 5000 rows with a 64 × 64 matrix into the zero accumulator, read at one element: the
    64-term sum over the contracted coordinate. -/
theorem matmul_zero_apply (lhs : FVec Ideal S5000x64 .bf16) (rhs : FVec Ideal S64x64 .bf16) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_coord0 _ _
      | ⟨1, _⟩ => exact (lhs_coord1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs_coord0 _ _).trans hk
      | ⟨1, _⟩ => exact rhs_coord1 _ _)
  rw [el, er]

/-! ## Small readings at an index -/

/-- A scalar literal at the ideal instance is the extended real its word encodes. -/
theorem scalar_ofBits (b : BitVec (FTy.bits .f32)) : Scalar.ofBits (F := Ideal) .f32 b = Ideal.ofBits .f32 b := rfl

/-- The reciprocal square root of a vector, read at an index. -/
theorem rsqrt_apply {s : Shape} {φ : FTy} (v : FVec Ideal s φ) (i : s.Idx) : rsqrt v i = Ideal.rsqrt (v i) := rfl

/-- A vector of 5000 entries viewed as a column `[5000, 1]` reads, at `(p, u)`, the entry `p`. -/
theorem shapeCast_col_apply {α : Type} (x : S5000.Idx → α) (p : Fin 5000) (u : Fin 1) :
    shapeCast S5000x1 x shapeCasts_S5000_S5000x1 (ix2 p u) = x (ix1 p) :=
  shapeCast_apply x shapeCasts_S5000_S5000x1 _ _ (by
    have hu : u.val = 0 := by omega
    rw [Shape.rowMajor_val_one, Shape.rowMajor_val_two]
    show p.val = p.val * 1 + u.val
    omega)

/-- A column `[5000, 1]` broadcast along the 64 lanes reads, at `(p, q)`, the column's entry in row `p`. -/
theorem broadcastTo_col_apply {α : Type} (x : S5000x1.Idx → α) (p : Fin 5000) (q : Fin 64) :
    broadcastTo S5000x64 x broadcasts_S5000x1_S5000x64 (ix2 p q) = x (ix2 p (0 : Fin 1)) := by
  refine broadcastTo_apply x broadcasts_S5000x1_S5000x64 (ix2 p q) (ix2 p (0 : Fin 1)) fun ax => ?_
  match ax with
  | ⟨0, _⟩ => rfl
  | ⟨1, _⟩ => rfl

/-- The sum along the 64 lanes of a block of 5000 rows, read at row `p`: the 64-term sum of that row. -/
theorem rowSum_apply (src : FVec Ideal S5000x64 .f32) (hφ : FKind.Formats .f32)
    (hacc : (0x00000000#32 : BitVec 32) = FKind.add.neutral .f32 hφ) (p : Fin 5000) :
    multiReduction .add [1] S5000 src 0x00000000#32 reduces_S5000x64_S5000 hφ hacc (ix1 p) = ∑ k : Fin 64, src (ix2 p k) :=
  (Ideal.multiReduction_add_single src 0x00000000#32 reduces_S5000x64_S5000 hφ hacc (ix1 p)).trans
    (Finset.sum_congr rfl fun k _ => congrArg src (funext fun a => Fin.ext (by
      match a with
      | ⟨0, _⟩ => rfl
      | ⟨1, _⟩ => rfl)))

/-! ## Body 0 -/

/-- The layer's new features, read at row `p`, lane `q`: the gated dense row of the node's own row and its aggregated row. -/
theorem new0 (v0 v1 : Vec Ideal S5000x64 .f32) (v3 : Vec Ideal S64x64 .f32) (v5 : Vec Ideal S1x64 .f32) (v7 : Vec Ideal S64x64 .f32) (v9 : Vec Ideal S1x64 .f32) (p : Fin 5000) (q : Fin 64) :
    k0_pay2 (F := Ideal) v0 v1 v3 v5 v7 v9 (ix2 p q)
      = Cert.Spec.gateRow (fun k => v0 (ix2 p k)) (fun k => v1 (ix2 p k)) v3 (fun j => v5 (ix2 0 j)) v7 (fun j => v9 (ix2 0 j)) q := by
  unfold k0_pay2 Cert.Spec.gateRow Cert.Spec.leaky Cert.Spec.slope
  simp only [addf_apply, select_apply, cmpf_apply, mulf_apply, broadcast_apply, shapeCast_self, truncf_apply,
    matmul_zero_apply, broadcastTo_1b_ab_apply, scalar_ofBits, Cert.Spec.select_ogt_zero]

/-- The scaling step at row `p`, lane `q`: the row's entry times the reciprocal square root of the floored row statistic. -/
theorem scale0 (g : FVec Ideal S5000x64 .f32) (n : FVec Ideal S5000x1 .f32) (p : Fin 5000) (q : Fin 64) :
    k0_pay1 (F := Ideal) g n (ix2 p q) = g (ix2 p q) * Ideal.rsqrt (max (n (ix2 p (0 : Fin 1))) Cert.Spec.floorSq) := by
  unfold k0_pay1 Cert.Spec.floorSq
  simp only [mulf_apply, broadcastTo_col_apply, rsqrt_apply, maximumf_apply, broadcast_apply, scalar_ofBits]

/-- The row statistic at row `p`: the sum of the squares of the new features' row. -/
theorem sq0 (v0 v1 : Vec Ideal S5000x64 .f32) (v3 : Vec Ideal S64x64 .f32) (v5 : Vec Ideal S1x64 .f32) (v7 : Vec Ideal S64x64 .f32) (v9 : Vec Ideal S1x64 .f32) (p : Fin 5000) :
    k0_pay3 (F := Ideal) v0 v1 v3 v5 v7 v9 (ix2 p (0 : Fin 1))
      = ∑ k : Fin 64, k0_pay2 (F := Ideal) v0 v1 v3 v5 v7 v9 (ix2 p k) * k0_pay2 (F := Ideal) v0 v1 v3 v5 v7 v9 (ix2 p k) := by
  unfold k0_pay3
  generalize k0_pay2 (F := Ideal) v0 v1 v3 v5 v7 v9 = g
  simp only [shapeCast_col_apply]
  exact (rowSum_apply (mulf g g) _ _ p).trans (Finset.sum_congr rfl fun k _ => mulf_apply g g (ix2 p k))

/-- The scaled features, read at row `p`, lane `q`: the new features' row scaled to unit length, the squared norm floored. -/
theorem unit0 (v0 v1 : Vec Ideal S5000x64 .f32) (v3 : Vec Ideal S64x64 .f32) (v5 : Vec Ideal S1x64 .f32) (v7 : Vec Ideal S64x64 .f32) (v9 : Vec Ideal S1x64 .f32) (p : Fin 5000) (q : Fin 64) :
    k0_pay1 (F := Ideal) (k0_pay2 (F := Ideal) v0 v1 v3 v5 v7 v9) (k0_pay3 (F := Ideal) v0 v1 v3 v5 v7 v9) (ix2 p q)
      = Cert.Spec.unitRow (fun k => k0_pay2 (F := Ideal) v0 v1 v3 v5 v7 v9 (ix2 p k)) q := by
  rw [scale0, sq0]
  rfl

/-! ## Body 1 -/

/-- The layer's new features, read at row `p`, lane `q`: the gated dense row of the node's own row and its aggregated row. -/
theorem new1 (v0 v2 : Vec Ideal S5000x64 .f32) (v4 : Vec Ideal S64x64 .f32) (v6 : Vec Ideal S1x64 .f32) (v8 : Vec Ideal S64x64 .f32) (v10 : Vec Ideal S1x64 .f32) (p : Fin 5000) (q : Fin 64) :
    k1_pay2 (F := Ideal) v0 v2 v4 v6 v8 v10 (ix2 p q)
      = Cert.Spec.gateRow (fun k => v0 (ix2 p k)) (fun k => v2 (ix2 p k)) v4 (fun j => v6 (ix2 0 j)) v8 (fun j => v10 (ix2 0 j)) q := by
  unfold k1_pay2 Cert.Spec.gateRow Cert.Spec.leaky Cert.Spec.slope
  simp only [addf_apply, select_apply, cmpf_apply, mulf_apply, broadcast_apply, shapeCast_self, truncf_apply,
    matmul_zero_apply, broadcastTo_1b_ab_apply, scalar_ofBits, Cert.Spec.select_ogt_zero]

/-- The scaling step at row `p`, lane `q`: the row's entry times the reciprocal square root of the floored row statistic. -/
theorem scale1 (g : FVec Ideal S5000x64 .f32) (n : FVec Ideal S5000 .f32) (p : Fin 5000) (q : Fin 64) :
    k1_pay1 (F := Ideal) g n (ix2 p q) = g (ix2 p q) * Ideal.rsqrt (max (n (ix1 p)) Cert.Spec.floorSq) := by
  unfold k1_pay1 Cert.Spec.floorSq
  simp only [mulf_apply, broadcastTo_col_apply, rsqrt_apply, maximumf_apply, broadcast_apply, scalar_ofBits, shapeCast_col_apply]

/-- The row statistic at row `p`: the sum of the squares of the new features' row. -/
theorem sq1 (v0 v2 : Vec Ideal S5000x64 .f32) (v4 : Vec Ideal S64x64 .f32) (v6 : Vec Ideal S1x64 .f32) (v8 : Vec Ideal S64x64 .f32) (v10 : Vec Ideal S1x64 .f32) (p : Fin 5000) :
    k1_pay3 (F := Ideal) v0 v2 v4 v6 v8 v10 (ix1 p)
      = ∑ k : Fin 64, k1_pay2 (F := Ideal) v0 v2 v4 v6 v8 v10 (ix2 p k) * k1_pay2 (F := Ideal) v0 v2 v4 v6 v8 v10 (ix2 p k) := by
  unfold k1_pay3
  generalize k1_pay2 (F := Ideal) v0 v2 v4 v6 v8 v10 = g
  exact (rowSum_apply (mulf g g) _ _ p).trans (Finset.sum_congr rfl fun k _ => mulf_apply g g (ix2 p k))

/-- The scaled features, read at row `p`, lane `q`: the new features' row scaled to unit length, the squared norm floored. -/
theorem unit1 (v0 v2 : Vec Ideal S5000x64 .f32) (v4 : Vec Ideal S64x64 .f32) (v6 : Vec Ideal S1x64 .f32) (v8 : Vec Ideal S64x64 .f32) (v10 : Vec Ideal S1x64 .f32) (p : Fin 5000) (q : Fin 64) :
    k1_pay1 (F := Ideal) (k1_pay2 (F := Ideal) v0 v2 v4 v6 v8 v10) (k1_pay3 (F := Ideal) v0 v2 v4 v6 v8 v10) (ix2 p q)
      = Cert.Spec.unitRow (fun k => k1_pay2 (F := Ideal) v0 v2 v4 v6 v8 v10 (ix2 p k)) q := by
  rw [scale1, sq1]
  rfl

/-! ## Body 2 -/

/-- The layer's new features, read at row `p`, lane `q`: the gated dense row of the node's own row and its aggregated row. -/
theorem new2 (v0 v2 : Vec Ideal S5000x64 .f32) (v4 : Vec Ideal S64x64 .f32) (v6 : Vec Ideal S1x64 .f32) (v8 : Vec Ideal S64x64 .f32) (v10 : Vec Ideal S1x64 .f32) (p : Fin 5000) (q : Fin 64) :
    k2_pay2 (F := Ideal) v0 v2 v4 v6 v8 v10 (ix2 p q)
      = Cert.Spec.gateRow (fun k => v0 (ix2 p k)) (fun k => v2 (ix2 p k)) v4 (fun j => v6 (ix2 0 j)) v8 (fun j => v10 (ix2 0 j)) q := by
  unfold k2_pay2 Cert.Spec.gateRow Cert.Spec.leaky Cert.Spec.slope
  simp only [addf_apply, select_apply, cmpf_apply, mulf_apply, broadcast_apply, shapeCast_self, truncf_apply,
    matmul_zero_apply, broadcastTo_1b_ab_apply, scalar_ofBits, Cert.Spec.select_ogt_zero]

/-- The scaling step at row `p`, lane `q`: the row's entry times the reciprocal square root of the floored row statistic. -/
theorem scale2 (g : FVec Ideal S5000x64 .f32) (n : FVec Ideal S5000 .f32) (p : Fin 5000) (q : Fin 64) :
    k2_pay1 (F := Ideal) g n (ix2 p q) = g (ix2 p q) * Ideal.rsqrt (max (n (ix1 p)) Cert.Spec.floorSq) := by
  unfold k2_pay1 Cert.Spec.floorSq
  simp only [mulf_apply, broadcastTo_col_apply, rsqrt_apply, maximumf_apply, broadcast_apply, scalar_ofBits, shapeCast_col_apply]

/-- The row statistic at row `p`: the sum of the squares of the new features' row. -/
theorem sq2 (v0 v2 : Vec Ideal S5000x64 .f32) (v4 : Vec Ideal S64x64 .f32) (v6 : Vec Ideal S1x64 .f32) (v8 : Vec Ideal S64x64 .f32) (v10 : Vec Ideal S1x64 .f32) (p : Fin 5000) :
    k2_pay3 (F := Ideal) v0 v2 v4 v6 v8 v10 (ix1 p)
      = ∑ k : Fin 64, k2_pay2 (F := Ideal) v0 v2 v4 v6 v8 v10 (ix2 p k) * k2_pay2 (F := Ideal) v0 v2 v4 v6 v8 v10 (ix2 p k) := by
  unfold k2_pay3
  generalize k2_pay2 (F := Ideal) v0 v2 v4 v6 v8 v10 = g
  exact (rowSum_apply (mulf g g) _ _ p).trans (Finset.sum_congr rfl fun k _ => mulf_apply g g (ix2 p k))

/-- The scaled features, read at row `p`, lane `q`: the new features' row scaled to unit length, the squared norm floored. -/
theorem unit2 (v0 v2 : Vec Ideal S5000x64 .f32) (v4 : Vec Ideal S64x64 .f32) (v6 : Vec Ideal S1x64 .f32) (v8 : Vec Ideal S64x64 .f32) (v10 : Vec Ideal S1x64 .f32) (p : Fin 5000) (q : Fin 64) :
    k2_pay1 (F := Ideal) (k2_pay2 (F := Ideal) v0 v2 v4 v6 v8 v10) (k2_pay3 (F := Ideal) v0 v2 v4 v6 v8 v10) (ix2 p q)
      = Cert.Spec.unitRow (fun k => k2_pay2 (F := Ideal) v0 v2 v4 v6 v8 v10 (ix2 p k)) q := by
  rw [scale2, sq2]
  rfl

end Cert.BodyValue

end
-- ==== Proof.LayerValue0.lean ====
/-
  Layer 1's kernel call, from what each grid point writes back to the two whole output arrays.

  The call walks 20 grid points; point `t` works on rows `5000·t … 5000·t + 4999`. Row `r` of the gated dense layer depends on
  row `r` of the node features and of the aggregated features only (and on the whole of the two matrices and the two bias
  rows), so the block of new features a point computes from its input blocks is the same block of ONE function of the whole
  arrays, `newArr`: the layer of the arrays as the call finds them. Here: the index maps decided over the grid; each input
  block read as rows of its array (`blockH` … `blockB2`); the body's two payloads at an entry of the block as `newArr`, and
  its rows scaled to unit length, at the entry's place in the array (`new_read`, `unit_read`); hence what a point writes back
  is its block of those two functions (`flushed6`, `flushed7`); the blocks tile the arrays (row `r` is in the block of point
  `r / 5000`); so after the last point the two output arrays are those two functions (`new_array`, `unit_array`).
-/
import proofs.«170062_j90890097918586_1_alg».proof.Proof.Spec
import proofs.«170062_j90890097918586_1_alg».proof.Proof.Layer0
import proofs.«170062_j90890097918586_1_alg».proof.Proof.BodyValue
import Idealize.ShloMosaic.Lib.Pipeline.Value
import Idealize.ShloMosaic.Lib.ValueIdx

noncomputable section

namespace Cert.KernelIdeal.LayerValue0

open Cert.KernelIdeal Cert.KernelIdeal.Gen
open Idealize.ShloMosaic Idealize.ShloMosaic.TcCoe Idealize.SL.Sem
open Idealize.ShloMosaic.Pipeline (Dat)
open Idealize.ShloMosaic.ValueIdx

/-! ## The arrays of this call -/

/-- The node features and the aggregated features the call reads, -/
abbrev inH : Ref sig .tc := main_arg0
abbrev inA : Ref sig .tc := main_v41
/-- the two weight matrices and the two bias rows, -/
abbrev inW1 : Ref sig .tc := main_v43
abbrev inB1 : Ref sig .tc := main_v50
abbrev inW2 : Ref sig .tc := main_v47
abbrev inB2 : Ref sig .tc := main_v51
/-- and the two arrays it writes: the new features, and their rows at unit length. -/
abbrev outG : Ref sig .tc := main_v52_0
abbrev outU : Ref sig .tc := main_v52_1

-- the arrays' contents when the call is entered
variable (V : (c : Dev nD) → (b : Ref sig .tc) → Buf (Elt Ideal) ((c : Thread nD τ).loc b))

/-- The layer's new features as one function of the six arrays the call is entered with. -/
def newArr (c : Dev nD) : Cert.Spec.Nodes :=
  Cert.Spec.gate (V c inH) (V c inA) (V c inW1) (fun q => V c inB1 (ix2 0 q)) (V c inW2) (fun q => V c inB2 (ix2 0 q))

/-! ## One row of a block, from the body's payloads -/

section Point

variable (x0 x1 : Vec Ideal S5000x64 .f32) (x2 : Vec Ideal S64x64 .f32) (x3 : Vec Ideal S1x64 .f32)
  (x4 : Vec Ideal S64x64 .f32) (x5 : Vec Ideal S1x64 .f32)
  (H A : Cert.Spec.Nodes) (W1 W2 : Cert.Spec.Mat) (b1 b2 : Cert.Spec.Row) (r : Fin 5000 → Fin 100000)

/-- When the two row blocks hold rows `r p` of the arrays `H` and `A`, and the other four blocks are the matrices and the
    bias rows themselves, the payload at row `p` of the block is the gated layer of `H` and `A` at row `r p`. -/
theorem gate_point (h0 : ∀ p k, x0 (ix2 p k) = H (ix2 (r p) k)) (h1 : ∀ p k, x1 (ix2 p k) = A (ix2 (r p) k))
    (h2 : x2 = W1) (h3 : ∀ q, x3 (ix2 0 q) = b1 q) (h4 : x4 = W2) (h5 : ∀ q, x5 (ix2 0 q) = b2 q)
    (p : Fin 5000) (q : Fin 64) :
    k0_pay2 (F := Ideal) x0 x1 x2 x3 x4 x5 (ix2 p q) = Cert.Spec.gate H A W1 b1 W2 b2 (ix2 (r p) q) := by
  have e0 : (fun k => x0 (ix2 p k)) = Cert.Spec.rowOf H (r p) := funext fun k => h0 p k
  have e1 : (fun k => x1 (ix2 p k)) = Cert.Spec.rowOf A (r p) := funext fun k => h1 p k
  have e3 : (fun j => x3 (ix2 0 j)) = b1 := funext h3
  have e5 : (fun j => x5 (ix2 0 j)) = b2 := funext h5
  rw [Cert.BodyValue.new0, e0, e1, e3, e5, h2, h4]
  rfl

/-- Under the same readings the second payload at row `p` is that row of the gated layer scaled to unit length. -/
theorem unit_point (h0 : ∀ p k, x0 (ix2 p k) = H (ix2 (r p) k)) (h1 : ∀ p k, x1 (ix2 p k) = A (ix2 (r p) k))
    (h2 : x2 = W1) (h3 : ∀ q, x3 (ix2 0 q) = b1 q) (h4 : x4 = W2) (h5 : ∀ q, x5 (ix2 0 q) = b2 q)
    (p : Fin 5000) (q : Fin 64) :
    k0_pay1 (F := Ideal) (k0_pay2 (F := Ideal) x0 x1 x2 x3 x4 x5) (k0_pay3 (F := Ideal) x0 x1 x2 x3 x4 x5) (ix2 p q)
      = Cert.Spec.unit (Cert.Spec.gate H A W1 b1 W2 b2) (ix2 (r p) q) := by
  have e : (fun k => k0_pay2 (F := Ideal) x0 x1 x2 x3 x4 x5 (ix2 p k)) = Cert.Spec.rowOf (Cert.Spec.gate H A W1 b1 W2 b2) (r p) :=
    funext fun k => gate_point x0 x1 x2 x3 x4 x5 H A W1 W2 b1 b2 r h0 h1 h2 h3 h4 h5 p k
  rw [Cert.BodyValue.unit0, e]
  rfl

end Point

/-! ## The index maps, decided once over the grid -/

/-- Windows 0, 1, 6 and 7 are at block `(t, 0)` at point `t`; windows 2 to 5 stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of the block of point `t` is row `5000 · t + p` of the array. -/
def rowAt (t : Fin cfg0.N) (p : Fin 5000) : Fin 100000 :=
  ⟨5000 * t.val + p.val, by have hN : cfg0.N = 20 := N_0; have ht := t.isLt; have hp := p.isLt; omega⟩

/-! ## The input blocks, read where the output's block says -/

/-- Row `p` of the node features' block at point `t` is row `rowAt t p` of the array. -/
theorem blockH (c : Dev nD) (t : Fin cfg0.N) (p : Fin 5000) (k : Fin 64) :
    (Layer0.blockAt (F := Ideal) V c 0 t : Vec Ideal S5000x64 .f32) (ix2 p k)
      = (V c inH : S100000x64.Idx → EReal) (ix2 (rowAt t p) k) := by
  obtain ⟨e0, e1, -⟩ := idx_facts t
  unfold Layer0.blockAt
  rw [View.read_apply]
  show V c inH _ = V c inH _
  refine congrArg _ ?_
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega

/-- The same for the aggregated features' block. -/
theorem blockA (c : Dev nD) (t : Fin cfg0.N) (p : Fin 5000) (k : Fin 64) :
    (Layer0.blockAt (F := Ideal) V c 1 t : Vec Ideal S5000x64 .f32) (ix2 p k)
      = (V c inA : S100000x64.Idx → EReal) (ix2 (rowAt t p) k) := by
  obtain ⟨-, -, e0, e1, -⟩ := idx_facts t
  unfold Layer0.blockAt
  rw [View.read_apply]
  show V c inA _ = V c inA _
  refine congrArg _ ?_
  funext a; apply Fin.ext
  match a with
  | ⟨0, _⟩ => show win0_1.index t (0 : Fin 2) * 5000 + 1 * p.val = 5000 * t.val + p.val; omega
  | ⟨1, _⟩ => show win0_1.index t (1 : Fin 2) * 64 + 1 * k.val = k.val; omega

/-- The first weight matrix's block is the matrix itself at every point. -/
theorem blockW1 (c : Dev nD) (t : Fin cfg0.N) (y : S64x64.Idx) :
    (Layer0.blockAt (F := Ideal) V c 2 t : Vec Ideal S64x64 .f32) y = (V c inW1 : S64x64.Idx → EReal) y := by
  obtain ⟨-, -, -, -, e0, e1, -⟩ := idx_facts t
  unfold Layer0.blockAt
  rw [View.read_apply]
  show V c inW1 _ = V c inW1 _
  refine congrArg _ ?_
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The first bias row's block is the row itself at every point. -/
theorem blockB1 (c : Dev nD) (t : Fin cfg0.N) (y : S1x64.Idx) :
    (Layer0.blockAt (F := Ideal) V c 3 t : Vec Ideal S1x64 .f32) y = (V c inB1 : S1x64.Idx → EReal) y := by
  obtain ⟨-, -, -, -, -, -, e0, e1, -⟩ := idx_facts t
  unfold Layer0.blockAt
  rw [View.read_apply]
  show V c inB1 _ = V c inB1 _
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The second weight matrix's block is the matrix itself at every point. -/
theorem blockW2 (c : Dev nD) (t : Fin cfg0.N) (y : S64x64.Idx) :
    (Layer0.blockAt (F := Ideal) V c 4 t : Vec Ideal S64x64 .f32) y = (V c inW2 : S64x64.Idx → EReal) y := by
  obtain ⟨-, -, -, -, -, -, -, -, e0, e1, -⟩ := idx_facts t
  unfold Layer0.blockAt
  rw [View.read_apply]
  show V c inW2 _ = V c inW2 _
  refine congrArg _ ?_
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The second bias row's block is the row itself at every point. -/
theorem blockB2 (c : Dev nD) (t : Fin cfg0.N) (y : S1x64.Idx) :
    (Layer0.blockAt (F := Ideal) V c 5 t : Vec Ideal S1x64 .f32) y = (V c inB2 : S1x64.Idx → EReal) y := by
  obtain ⟨-, -, -, -, -, -, -, -, -, -, e0, e1, -⟩ := idx_facts t
  unfold Layer0.blockAt
  rw [View.read_apply]
  show V c inB2 _ = V c inB2 _
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-! ## Where an entry of an output block sits in its array -/

/-- Entry `(p, q)` of the new features' block at point `t` is entry `(rowAt t p, q)` of the array. -/
theorem embG (t : Fin cfg0.N) (p : Fin 5000) (q : Fin 64) :
    (((cfg0.win 6).blk t).view.emb (ix2 p q : S5000x64.Idx) : S100000x64.Idx) = ix2 (rowAt t p) q := by
  obtain ⟨-, -, -, -, -, -, -, -, -, -, -, -, e0, e1, -⟩ := idx_facts t
  funext a; apply Fin.ext
  match a with
  | ⟨0, _⟩ => show win0_6.index t (0 : Fin 2) * 5000 + 1 * p.val = 5000 * t.val + p.val; omega
  | ⟨1, _⟩ => show win0_6.index t (1 : Fin 2) * 64 + 1 * q.val = q.val; omega

/-- The same for the unit-length rows' block. -/
theorem embU (t : Fin cfg0.N) (p : Fin 5000) (q : Fin 64) :
    (((cfg0.win 7).blk t).view.emb (ix2 p q : S5000x64.Idx) : S100000x64.Idx) = ix2 (rowAt t p) q := by
  obtain ⟨-, -, -, -, -, -, -, -, -, -, -, -, -, -, e0, e1⟩ := idx_facts t
  funext a; apply Fin.ext
  match a with
  | ⟨0, _⟩ => show win0_7.index t (0 : Fin 2) * 5000 + 1 * p.val = 5000 * t.val + p.val; omega
  | ⟨1, _⟩ => show win0_7.index t (1 : Fin 2) * 64 + 1 * q.val = q.val; omega

/-! ## What a point writes back is its block of the whole-array function -/

theorem hz : (![0, 0] : Fin 2 → Nat) = fun _ => 0 := funext fun a => by fin_cases a <;> rfl

/-- The first payload of the six input blocks at point `t`, entry by entry: the new array read through the point's block. -/
theorem new_read (c : Dev nD) (t : Fin cfg0.N) (j : S5000x64.Idx) :
    k0_pay2 (F := Ideal) (Layer0.blockAt V c 0 t) (Layer0.blockAt V c 1 t) (Layer0.blockAt V c 2 t) (Layer0.blockAt V c 3 t)
        (Layer0.blockAt V c 4 t) (Layer0.blockAt V c 5 t) j
      = newArr V c (((cfg0.win 6).blk t).view.emb j) := by
  obtain ⟨p, q, rfl⟩ : ∃ p q, j = ix2 p q := ⟨j 0, j 1, eq_ix2 j⟩
  refine (gate_point _ _ _ _ _ _ (V c inH) (V c inA) (V c inW1) (V c inW2) (fun q => V c inB1 (ix2 0 q)) (fun q => V c inB2 (ix2 0 q))
    (rowAt t) (blockH V c t) (blockA V c t) (funext (blockW1 V c t)) (fun q => blockB1 V c t (ix2 0 q))
    (funext (blockW2 V c t)) (fun q => blockB2 V c t (ix2 0 q)) p q).trans ?_
  exact congrArg (newArr V c) (embG t p q).symm

/-- The second payload likewise: the new array's rows at unit length, read through the point's block. -/
theorem unit_read (c : Dev nD) (t : Fin cfg0.N) (j : S5000x64.Idx) :
    k0_pay1 (F := Ideal)
        (k0_pay2 (F := Ideal) (Layer0.blockAt V c 0 t) (Layer0.blockAt V c 1 t) (Layer0.blockAt V c 2 t) (Layer0.blockAt V c 3 t)
          (Layer0.blockAt V c 4 t) (Layer0.blockAt V c 5 t))
        (k0_pay3 (F := Ideal) (Layer0.blockAt V c 0 t) (Layer0.blockAt V c 1 t) (Layer0.blockAt V c 2 t) (Layer0.blockAt V c 3 t)
          (Layer0.blockAt V c 4 t) (Layer0.blockAt V c 5 t)) j
      = Cert.Spec.unit (newArr V c) (((cfg0.win 7).blk t).view.emb j) := by
  obtain ⟨p, q, rfl⟩ : ∃ p q, j = ix2 p q := ⟨j 0, j 1, eq_ix2 j⟩
  refine (unit_point _ _ _ _ _ _ (V c inH) (V c inA) (V c inW1) (V c inW2) (fun q => V c inB1 (ix2 0 q)) (fun q => V c inB2 (ix2 0 q))
    (rowAt t) (blockH V c t) (blockA V c t) (funext (blockW1 V c t)) (fun q => blockB1 V c t (ix2 0 q))
    (funext (blockW2 V c t)) (fun q => blockB2 V c t (ix2 0 q)) p q).trans ?_
  exact congrArg (Cert.Spec.unit (newArr V c)) (embU t p q).symm

/-- What point `t` writes back to the new features' array is block `t` of `newArr`. -/
theorem flushed6 (c : Dev nD) (t : Fin cfg0.N) :
    (Layer0.data (F := Ideal) V c).flushed 6 t = ((cfg0.win 6).blk t).view.read (Elt Ideal) (newArr V c) := by
  show (cfg0.win 6).cut (grid0.coords t) ((Layer0.data (F := Ideal) V c).after 6 t) = _
  rw [Layer0.after6]
  unfold Layer0.newBlock
  rw [View.canon_unit_zero hz]
  simp only [View.ld_unit_zero (S := S5000x64) hz, View.ld_unit_zero (S := S64x64) hz, View.ld_unit_zero (S := S1x64) hz]
  funext j
  exact new_read V c t j

/-- What point `t` writes back to the unit-length rows' array is block `t` of the unit-length rows of `newArr`. -/
theorem flushed7 (c : Dev nD) (t : Fin cfg0.N) :
    (Layer0.data (F := Ideal) V c).flushed 7 t = ((cfg0.win 7).blk t).view.read (Elt Ideal) (Cert.Spec.unit (newArr V c)) := by
  show (cfg0.win 7).cut (grid0.coords t) ((Layer0.data (F := Ideal) V c).after 7 t) = _
  rw [Layer0.after7]
  unfold Layer0.unitBlock
  rw [View.canon_unit_zero hz]
  simp only [View.ld_unit_zero (S := S5000x64) hz, View.ld_unit_zero (S := S64x64) hz, View.ld_unit_zero (S := S1x64) hz]
  funext j
  exact unit_read V c t j

/-! ## The blocks tile the arrays -/

/-- An index of the new features' array is in point `t`'s block iff each coordinate is in the block's range on its axis. -/
theorem mem_blk6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole outG).slice (win0_6.rect t)).set ↔ _
  rw [View.set_slice_whole, Rect.mem_set_unit]
  exact Iff.rfl

/-- The same for the unit-length rows' array. -/
theorem mem_blk7 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole outU).slice (win0_7.rect t)).set ↔ _
  rw [View.set_slice_whole, Rect.mem_set_unit]
  exact Iff.rfl

/-- Row `r` of the new features' array is in the block of point `r / 5000`, which writes back. -/
theorem cover6 (i : S100000x64.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by omega⟩, rfl⟩
  obtain ⟨-, -, -, -, -, -, -, -, -, -, -, -, e0, e1, -⟩ := idx_facts t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The same for the unit-length rows' array. -/
theorem cover7 (i : S100000x64.Idx) : ∃ t : Fin cfg0.N, (cfg0.win 7).flush t = true ∧ i ∈ ((cfg0.win 7).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by omega⟩, rfl⟩
  obtain ⟨-, -, -, -, -, -, -, -, -, -, -, -, -, -, e0, e1⟩ := idx_facts t
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-! ## The two arrays after the call -/

/-- After the last point the new features' array is the gated layer of the arrays the call was entered with. -/
theorem new_array (c : Dev nD) : (Layer0.data (F := Ideal) V c).arrAt 6 cfg0.N = newArr V c :=
  (Layer0.data (F := Ideal) V c).arrAt_eq_of_cover 6 (newArr V c) (fun t _ => flushed6 V c t) cover6

/-- And the second output array is that layer's rows scaled to unit length. -/
theorem unit_array (c : Dev nD) : (Layer0.data (F := Ideal) V c).arrAt 7 cfg0.N = Cert.Spec.unit (newArr V c) :=
  (Layer0.data (F := Ideal) V c).arrAt_eq_of_cover 7 (Cert.Spec.unit (newArr V c)) (fun t _ => flushed7 V c t) cover7

end Cert.KernelIdeal.LayerValue0

end
-- ==== Proof.LayerValue1.lean ====
/-
  Layer 2's kernel call, from what each grid point writes back to the two whole output arrays.

  The call walks 20 grid points; point `t` works on rows `5000·t … 5000·t + 4999`. Row `r` of the gated dense layer depends on
  row `r` of the node features and of the aggregated features only (and on the whole of the two matrices and the two bias
  rows), so the block of new features a point computes from its input blocks is the same block of ONE function of the whole
  arrays, `newArr`: the layer of the arrays as the call finds them. Here: the index maps decided over the grid; each input
  block read as rows of its array (`blockH` … `blockB2`); the body's two payloads at an entry of the block as `newArr`, and
  its rows scaled to unit length, at the entry's place in the array (`new_read`, `unit_read`); hence what a point writes back
  is its block of those two functions (`flushed6`, `flushed7`); the blocks tile the arrays (row `r` is in the block of point
  `r / 5000`); so after the last point the two output arrays are those two functions (`new_array`, `unit_array`).
-/
import proofs.«170062_j90890097918586_1_alg».proof.Proof.Spec
import proofs.«170062_j90890097918586_1_alg».proof.Proof.Layer1
import proofs.«170062_j90890097918586_1_alg».proof.Proof.BodyValue
import Idealize.ShloMosaic.Lib.Pipeline.Value
import Idealize.ShloMosaic.Lib.ValueIdx

noncomputable section

namespace Cert.KernelIdeal.LayerValue1

open Cert.KernelIdeal Cert.KernelIdeal.Gen
open Idealize.ShloMosaic Idealize.ShloMosaic.TcCoe Idealize.SL.Sem
open Idealize.ShloMosaic.Pipeline (Dat)
open Idealize.ShloMosaic.ValueIdx

/-! ## The arrays of this call -/

/-- The node features and the aggregated features the call reads, -/
abbrev inH : Ref sig .tc := main_v52_0
abbrev inA : Ref sig .tc := main_v65
/-- the two weight matrices and the two bias rows, -/
abbrev inW1 : Ref sig .tc := main_v67
abbrev inB1 : Ref sig .tc := main_v74
abbrev inW2 : Ref sig .tc := main_v71
abbrev inB2 : Ref sig .tc := main_v75
/-- and the two arrays it writes: the new features, and their rows at unit length. -/
abbrev outG : Ref sig .tc := main_v76_0
abbrev outU : Ref sig .tc := main_v76_1

-- the arrays' contents when the call is entered
variable (V : (c : Dev nD) → (b : Ref sig .tc) → Buf (Elt Ideal) ((c : Thread nD τ).loc b))

/-- The layer's new features as one function of the six arrays the call is entered with. -/
def newArr (c : Dev nD) : Cert.Spec.Nodes :=
  Cert.Spec.gate (V c inH) (V c inA) (V c inW1) (fun q => V c inB1 (ix2 0 q)) (V c inW2) (fun q => V c inB2 (ix2 0 q))

/-! ## One row of a block, from the body's payloads -/

section Point

variable (x0 x1 : Vec Ideal S5000x64 .f32) (x2 : Vec Ideal S64x64 .f32) (x3 : Vec Ideal S1x64 .f32)
  (x4 : Vec Ideal S64x64 .f32) (x5 : Vec Ideal S1x64 .f32)
  (H A : Cert.Spec.Nodes) (W1 W2 : Cert.Spec.Mat) (b1 b2 : Cert.Spec.Row) (r : Fin 5000 → Fin 100000)

/-- When the two row blocks hold rows `r p` of the arrays `H` and `A`, and the other four blocks are the matrices and the
    bias rows themselves, the payload at row `p` of the block is the gated layer of `H` and `A` at row `r p`. -/
theorem gate_point (h0 : ∀ p k, x0 (ix2 p k) = H (ix2 (r p) k)) (h1 : ∀ p k, x1 (ix2 p k) = A (ix2 (r p) k))
    (h2 : x2 = W1) (h3 : ∀ q, x3 (ix2 0 q) = b1 q) (h4 : x4 = W2) (h5 : ∀ q, x5 (ix2 0 q) = b2 q)
    (p : Fin 5000) (q : Fin 64) :
    k1_pay2 (F := Ideal) x0 x1 x2 x3 x4 x5 (ix2 p q) = Cert.Spec.gate H A W1 b1 W2 b2 (ix2 (r p) q) := by
  have e0 : (fun k => x0 (ix2 p k)) = Cert.Spec.rowOf H (r p) := funext fun k => h0 p k
  have e1 : (fun k => x1 (ix2 p k)) = Cert.Spec.rowOf A (r p) := funext fun k => h1 p k
  have e3 : (fun j => x3 (ix2 0 j)) = b1 := funext h3
  have e5 : (fun j => x5 (ix2 0 j)) = b2 := funext h5
  rw [Cert.BodyValue.new1, e0, e1, e3, e5, h2, h4]
  rfl

/-- Under the same readings the second payload at row `p` is that row of the gated layer scaled to unit length. -/
theorem unit_point (h0 : ∀ p k, x0 (ix2 p k) = H (ix2 (r p) k)) (h1 : ∀ p k, x1 (ix2 p k) = A (ix2 (r p) k))
    (h2 : x2 = W1) (h3 : ∀ q, x3 (ix2 0 q) = b1 q) (h4 : x4 = W2) (h5 : ∀ q, x5 (ix2 0 q) = b2 q)
    (p : Fin 5000) (q : Fin 64) :
    k1_pay1 (F := Ideal) (k1_pay2 (F := Ideal) x0 x1 x2 x3 x4 x5) (k1_pay3 (F := Ideal) x0 x1 x2 x3 x4 x5) (ix2 p q)
      = Cert.Spec.unit (Cert.Spec.gate H A W1 b1 W2 b2) (ix2 (r p) q) := by
  have e : (fun k => k1_pay2 (F := Ideal) x0 x1 x2 x3 x4 x5 (ix2 p k)) = Cert.Spec.rowOf (Cert.Spec.gate H A W1 b1 W2 b2) (r p) :=
    funext fun k => gate_point x0 x1 x2 x3 x4 x5 H A W1 W2 b1 b2 r h0 h1 h2 h3 h4 h5 p k
  rw [Cert.BodyValue.unit1, e]
  rfl

end Point

/-! ## The index maps, decided once over the grid -/

/-- Windows 0, 1, 6 and 7 are at block `(t, 0)` at point `t`; windows 2 to 5 stay at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `p` of the block of point `t` is row `5000 · t + p` of the array. -/
def rowAt (t : Fin cfg1.N) (p : Fin 5000) : Fin 100000 :=
  ⟨5000 * t.val + p.val, by have hN : cfg1.N = 20 := N_1; have ht := t.isLt; have hp := p.isLt; omega⟩

/-! ## The input blocks, read where the output's block says -/

/-- Row `p` of the node features' block at point `t` is row `rowAt t p` of the array. -/
theorem blockH (c : Dev nD) (t : Fin cfg1.N) (p : Fin 5000) (k : Fin 64) :
    (Layer1.blockAt (F := Ideal) V c 0 t : Vec Ideal S5000x64 .f32) (ix2 p k)
      = (V c inH : S100000x64.Idx → EReal) (ix2 (rowAt t p) k) := by
  obtain ⟨e0, e1, -⟩ := idx_facts t
  unfold Layer1.blockAt
  rw [View.read_apply]
  show V c inH _ = V c inH _
  refine congrArg _ ?_
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega

/-- The same for the aggregated features' block. -/
theorem blockA (c : Dev nD) (t : Fin cfg1.N) (p : Fin 5000) (k : Fin 64) :
    (Layer1.blockAt (F := Ideal) V c 1 t : Vec Ideal S5000x64 .f32) (ix2 p k)
      = (V c inA : S100000x64.Idx → EReal) (ix2 (rowAt t p) k) := by
  obtain ⟨-, -, e0, e1, -⟩ := idx_facts t
  unfold Layer1.blockAt
  rw [View.read_apply]
  show V c inA _ = V c inA _
  refine congrArg _ ?_
  funext a; apply Fin.ext
  match a with
  | ⟨0, _⟩ => show win1_1.index t (0 : Fin 2) * 5000 + 1 * p.val = 5000 * t.val + p.val; omega
  | ⟨1, _⟩ => show win1_1.index t (1 : Fin 2) * 64 + 1 * k.val = k.val; omega

/-- The first weight matrix's block is the matrix itself at every point. -/
theorem blockW1 (c : Dev nD) (t : Fin cfg1.N) (y : S64x64.Idx) :
    (Layer1.blockAt (F := Ideal) V c 2 t : Vec Ideal S64x64 .f32) y = (V c inW1 : S64x64.Idx → EReal) y := by
  obtain ⟨-, -, -, -, e0, e1, -⟩ := idx_facts t
  unfold Layer1.blockAt
  rw [View.read_apply]
  show V c inW1 _ = V c inW1 _
  refine congrArg _ ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The first bias row's block is the row itself at every point. -/
theorem blockB1 (c : Dev nD) (t : Fin cfg1.N) (y : S1x64.Idx) :
    (Layer1.blockAt (F := Ideal) V c 3 t : Vec Ideal S1x64 .f32) y = (V c inB1 : S1x64.Idx → EReal) y := by
  obtain ⟨-, -, -, -, -, -, e0, e1, -⟩ := idx_facts t
  unfold Layer1.blockAt
  rw [View.read_apply]
  show V c inB1 _ = V c inB1 _
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The second weight matrix's block is the matrix itself at every point. -/
theorem blockW2 (c : Dev nD) (t : Fin cfg1.N) (y : S64x64.Idx) :
    (Layer1.blockAt (F := Ideal) V c 4 t : Vec Ideal S64x64 .f32) y = (V c inW2 : S64x64.Idx → EReal) y := by
  obtain ⟨-, -, -, -, -, -, -, -, e0, e1, -⟩ := idx_facts t
  unfold Layer1.blockAt
  rw [View.read_apply]
  show V c inW2 _ = V c inW2 _
  refine congrArg _ ?_
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The second bias row's block is the row itself at every point. -/
theorem blockB2 (c : Dev nD) (t : Fin cfg1.N) (y : S1x64.Idx) :
    (Layer1.blockAt (F := Ideal) V c 5 t : Vec Ideal S1x64 .f32) y = (V c inB2 : S1x64.Idx → EReal) y := by
  obtain ⟨-, -, -, -, -, -, -, -, -, -, e0, e1, -⟩ := idx_facts t
  unfold Layer1.blockAt
  rw [View.read_apply]
  show V c inB2 _ = V c inB2 _
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

/-! ## Where an entry of an output block sits in its array -/

/-- Entry `(p, q)` of the new features' block at point `t` is entry `(rowAt t p, q)` of the array. -/
theorem embG (t : Fin cfg1.N) (p : Fin 5000) (q : Fin 64) :
    (((cfg1.win 6).blk t).view.emb (ix2 p q : S5000x64.Idx) : S100000x64.Idx) = ix2 (rowAt t p) q := by
  obtain ⟨-, -, -, -, -, -, -, -, -, -, -, -, e0, e1, -⟩ := idx_facts t
  funext a; apply Fin.ext
  match a with
  | ⟨0, _⟩ => show win1_6.index t (0 : Fin 2) * 5000 + 1 * p.val = 5000 * t.val + p.val; omega
  | ⟨1, _⟩ => show win1_6.index t (1 : Fin 2) * 64 + 1 * q.val = q.val; omega

/-- The same for the unit-length rows' block. -/
theorem embU (t : Fin cfg1.N) (p : Fin 5000) (q : Fin 64) :
    (((cfg1.win 7).blk t).view.emb (ix2 p q : S5000x64.Idx) : S100000x64.Idx) = ix2 (rowAt t p) q := by
  obtain ⟨-, -, -, -, -, -, -, -, -, -, -, -, -, -, e0, e1⟩ := idx_facts t
  funext a; apply Fin.ext
  match a with
  | ⟨0, _⟩ => show win1_7.index t (0 : Fin 2) * 5000 + 1 * p.val = 5000 * t.val + p.val; omega
  | ⟨1, _⟩ => show win1_7.index t (1 : Fin 2) * 64 + 1 * q.val = q.val; omega

/-! ## What a point writes back is its block of the whole-array function -/

theorem hz : (![0, 0] : Fin 2 → Nat) = fun _ => 0 := funext fun a => by fin_cases a <;> rfl

/-- The first payload of the six input blocks at point `t`, entry by entry: the new array read through the point's block. -/
theorem new_read (c : Dev nD) (t : Fin cfg1.N) (j : S5000x64.Idx) :
    k1_pay2 (F := Ideal) (Layer1.blockAt V c 0 t) (Layer1.blockAt V c 1 t) (Layer1.blockAt V c 2 t) (Layer1.blockAt V c 3 t)
        (Layer1.blockAt V c 4 t) (Layer1.blockAt V c 5 t) j
      = newArr V c (((cfg1.win 6).blk t).view.emb j) := by
  obtain ⟨p, q, rfl⟩ : ∃ p q, j = ix2 p q := ⟨j 0, j 1, eq_ix2 j⟩
  refine (gate_point _ _ _ _ _ _ (V c inH) (V c inA) (V c inW1) (V c inW2) (fun q => V c inB1 (ix2 0 q)) (fun q => V c inB2 (ix2 0 q))
    (rowAt t) (blockH V c t) (blockA V c t) (funext (blockW1 V c t)) (fun q => blockB1 V c t (ix2 0 q))
    (funext (blockW2 V c t)) (fun q => blockB2 V c t (ix2 0 q)) p q).trans ?_
  exact congrArg (newArr V c) (embG t p q).symm

/-- The second payload likewise: the new array's rows at unit length, read through the point's block. -/
theorem unit_read (c : Dev nD) (t : Fin cfg1.N) (j : S5000x64.Idx) :
    k1_pay1 (F := Ideal)
        (k1_pay2 (F := Ideal) (Layer1.blockAt V c 0 t) (Layer1.blockAt V c 1 t) (Layer1.blockAt V c 2 t) (Layer1.blockAt V c 3 t)
          (Layer1.blockAt V c 4 t) (Layer1.blockAt V c 5 t))
        (k1_pay3 (F := Ideal) (Layer1.blockAt V c 0 t) (Layer1.blockAt V c 1 t) (Layer1.blockAt V c 2 t) (Layer1.blockAt V c 3 t)
          (Layer1.blockAt V c 4 t) (Layer1.blockAt V c 5 t)) j
      = Cert.Spec.unit (newArr V c) (((cfg1.win 7).blk t).view.emb j) := by
  obtain ⟨p, q, rfl⟩ : ∃ p q, j = ix2 p q := ⟨j 0, j 1, eq_ix2 j⟩
  refine (unit_point _ _ _ _ _ _ (V c inH) (V c inA) (V c inW1) (V c inW2) (fun q => V c inB1 (ix2 0 q)) (fun q => V c inB2 (ix2 0 q))
    (rowAt t) (blockH V c t) (blockA V c t) (funext (blockW1 V c t)) (fun q => blockB1 V c t (ix2 0 q))
    (funext (blockW2 V c t)) (fun q => blockB2 V c t (ix2 0 q)) p q).trans ?_
  exact congrArg (Cert.Spec.unit (newArr V c)) (embU t p q).symm

/-- What point `t` writes back to the new features' array is block `t` of `newArr`. -/
theorem flushed6 (c : Dev nD) (t : Fin cfg1.N) :
    (Layer1.data (F := Ideal) V c).flushed 6 t = ((cfg1.win 6).blk t).view.read (Elt Ideal) (newArr V c) := by
  show (cfg1.win 6).cut (grid1.coords t) ((Layer1.data (F := Ideal) V c).after 6 t) = _
  rw [Layer1.after6]
  unfold Layer1.newBlock
  rw [View.canon_unit_zero hz]
  simp only [View.ld_unit_zero (S := S5000x64) hz, View.ld_unit_zero (S := S64x64) hz, View.ld_unit_zero (S := S1x64) hz]
  funext j
  exact new_read V c t j

/-- What point `t` writes back to the unit-length rows' array is block `t` of the unit-length rows of `newArr`. -/
theorem flushed7 (c : Dev nD) (t : Fin cfg1.N) :
    (Layer1.data (F := Ideal) V c).flushed 7 t = ((cfg1.win 7).blk t).view.read (Elt Ideal) (Cert.Spec.unit (newArr V c)) := by
  show (cfg1.win 7).cut (grid1.coords t) ((Layer1.data (F := Ideal) V c).after 7 t) = _
  rw [Layer1.after7]
  unfold Layer1.unitBlock
  rw [View.canon_unit_zero hz]
  simp only [View.ld_unit_zero (S := S5000x64) hz, View.ld_unit_zero (S := S64x64) hz, View.ld_unit_zero (S := S1x64) hz]
  funext j
  exact unit_read V c t j

/-! ## The blocks tile the arrays -/

/-- An index of the new features' array is in point `t`'s block iff each coordinate is in the block's range on its axis. -/
theorem mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole outG).slice (win1_6.rect t)).set ↔ _
  rw [View.set_slice_whole, Rect.mem_set_unit]
  exact Iff.rfl

/-- The same for the unit-length rows' array. -/
theorem mem_blk7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole outU).slice (win1_7.rect t)).set ↔ _
  rw [View.set_slice_whole, Rect.mem_set_unit]
  exact Iff.rfl

/-- Row `r` of the new features' array is in the block of point `r / 5000`, which writes back. -/
theorem cover6 (i : S100000x64.Idx) : ∃ t : Fin cfg1.N, (cfg1.win 6).flush t = true ∧ i ∈ ((cfg1.win 6).blk t).view.set := by
  have hN : cfg1.N = 20 := N_1
  have hi0 : (i 0).val < 100000 := (i 0).isLt
  have hi1 : (i 1).val < 64 := (i 1).isLt
  obtain ⟨t, ht⟩ : ∃ t : Fin cfg1.N, t.val = (i 0).val / 5000 := ⟨⟨(i 0).val / 5000, by omega⟩, rfl⟩
  obtain ⟨-, -, -, -, -, -, -, -, -, -, -, -, e0, e1, -⟩ := idx_facts t
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The same for the unit-length rows' array. -/
theorem cover7 (i : S100000x64.Idx) : ∃ t : Fin cfg1.N, (cfg1.win 7).flush t = true ∧ i ∈ ((cfg1.win 7).blk t).view.set := by
  have hN : cfg1.N = 20 := N_1
  have hi0 : (i 0).val < 100000 := (i 0).isLt
  have hi1 : (i 1).val < 64 := (i 1).isLt
  obtain ⟨t, ht⟩ : ∃ t : Fin cfg1.N, t.val = (i 0).val / 5000 := ⟨⟨(i 0).val / 5000, by omega⟩, rfl⟩
  obtain ⟨-, -, -, -, -, -, -, -, -, -, -, -, -, -, e0, e1⟩ := idx_facts t
  refine ⟨t, flush1_7 t, ?_⟩
  rw [mem_blk7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-! ## The two arrays after the call -/

/-- After the last point the new features' array is the gated layer of the arrays the call was entered with. -/
theorem new_array (c : Dev nD) : (Layer1.data (F := Ideal) V c).arrAt 6 cfg1.N = newArr V c :=
  (Layer1.data (F := Ideal) V c).arrAt_eq_of_cover 6 (newArr V c) (fun t _ => flushed6 V c t) cover6

/-- And the second output array is that layer's rows scaled to unit length. -/
theorem unit_array (c : Dev nD) : (Layer1.data (F := Ideal) V c).arrAt 7 cfg1.N = Cert.Spec.unit (newArr V c) :=
  (Layer1.data (F := Ideal) V c).arrAt_eq_of_cover 7 (Cert.Spec.unit (newArr V c)) (fun t _ => flushed7 V c t) cover7

end Cert.KernelIdeal.LayerValue1

end
-- ==== Proof.LayerValue2.lean ====
/-
  Layer 3's kernel call, from what each grid point writes back to the two whole output arrays.

  The call walks 20 grid points; point `t` works on rows `5000·t … 5000·t + 4999`. Row `r` of the gated dense layer depends on
  row `r` of the node features and of the aggregated features only (and on the whole of the two matrices and the two bias
  rows), so the block of new features a point computes from its input blocks is the same block of ONE function of the whole
  arrays, `newArr`: the layer of the arrays as the call finds them. Here: the index maps decided over the grid; each input
  block read as rows of its array (`blockH` … `blockB2`); the body's two payloads at an entry of the block as `newArr`, and
  its rows scaled to unit length, at the entry's place in the array (`new_read`, `unit_read`); hence what a point writes back
  is its block of those two functions (`flushed6`, `flushed7`); the blocks tile the arrays (row `r` is in the block of point
  `r / 5000`); so after the last point the two output arrays are those two functions (`new_array`, `unit_array`).
-/
import proofs.«170062_j90890097918586_1_alg».proof.Proof.Spec
import proofs.«170062_j90890097918586_1_alg».proof.Proof.Layer2
import proofs.«170062_j90890097918586_1_alg».proof.Proof.BodyValue
import Idealize.ShloMosaic.Lib.Pipeline.Value
import Idealize.ShloMosaic.Lib.ValueIdx

noncomputable section

namespace Cert.KernelIdeal.LayerValue2

open Cert.KernelIdeal Cert.KernelIdeal.Gen
open Idealize.ShloMosaic Idealize.ShloMosaic.TcCoe Idealize.SL.Sem
open Idealize.ShloMosaic.Pipeline (Dat)
open Idealize.ShloMosaic.ValueIdx

/-! ## The arrays of this call -/

/-- The node features and the aggregated features the call reads, -/
abbrev inH : Ref sig .tc := main_v76_0
abbrev inA : Ref sig .tc := main_v89
/-- the two weight matrices and the two bias rows, -/
abbrev inW1 : Ref sig .tc := main_v91
abbrev inB1 : Ref sig .tc := main_v98
abbrev inW2 : Ref sig .tc := main_v95
abbrev inB2 : Ref sig .tc := main_v99
/-- and the two arrays it writes: the new features, and their rows at unit length. -/
abbrev outG : Ref sig .tc := main_v100_0
abbrev outU : Ref sig .tc := main_v100_1

-- the arrays' contents when the call is entered
variable (V : (c : Dev nD) → (b : Ref sig .tc) → Buf (Elt Ideal) ((c : Thread nD τ).loc b))

/-- The layer's new features as one function of the six arrays the call is entered with. -/
def newArr (c : Dev nD) : Cert.Spec.Nodes :=
  Cert.Spec.gate (V c inH) (V c inA) (V c inW1) (fun q => V c inB1 (ix2 0 q)) (V c inW2) (fun q => V c inB2 (ix2 0 q))

/-! ## One row of a block, from the body's payloads -/

section Point

variable (x0 x1 : Vec Ideal S5000x64 .f32) (x2 : Vec Ideal S64x64 .f32) (x3 : Vec Ideal S1x64 .f32)
  (x4 : Vec Ideal S64x64 .f32) (x5 : Vec Ideal S1x64 .f32)
  (H A : Cert.Spec.Nodes) (W1 W2 : Cert.Spec.Mat) (b1 b2 : Cert.Spec.Row) (r : Fin 5000 → Fin 100000)

/-- When the two row blocks hold rows `r p` of the arrays `H` and `A`, and the other four blocks are the matrices and the
    bias rows themselves, the payload at row `p` of the block is the gated layer of `H` and `A` at row `r p`. -/
theorem gate_point (h0 : ∀ p k, x0 (ix2 p k) = H (ix2 (r p) k)) (h1 : ∀ p k, x1 (ix2 p k) = A (ix2 (r p) k))
    (h2 : x2 = W1) (h3 : ∀ q, x3 (ix2 0 q) = b1 q) (h4 : x4 = W2) (h5 : ∀ q, x5 (ix2 0 q) = b2 q)
    (p : Fin 5000) (q : Fin 64) :
    k2_pay2 (F := Ideal) x0 x1 x2 x3 x4 x5 (ix2 p q) = Cert.Spec.gate H A W1 b1 W2 b2 (ix2 (r p) q) := by
  have e0 : (fun k => x0 (ix2 p k)) = Cert.Spec.rowOf H (r p) := funext fun k => h0 p k
  have e1 : (fun k => x1 (ix2 p k)) = Cert.Spec.rowOf A (r p) := funext fun k => h1 p k
  have e3 : (fun j => x3 (ix2 0 j)) = b1 := funext h3
  have e5 : (fun j => x5 (ix2 0 j)) = b2 := funext h5
  rw [Cert.BodyValue.new2, e0, e1, e3, e5, h2, h4]
  rfl

/-- Under the same readings the second payload at row `p` is that row of the gated layer scaled to unit length. -/
theorem unit_point (h0 : ∀ p k, x0 (ix2 p k) = H (ix2 (r p) k)) (h1 : ∀ p k, x1 (ix2 p k) = A (ix2 (r p) k))
    (h2 : x2 = W1) (h3 : ∀ q, x3 (ix2 0 q) = b1 q) (h4 : x4 = W2) (h5 : ∀ q, x5 (ix2 0 q) = b2 q)
    (p : Fin 5000) (q : Fin 64) :
    k2_pay1 (F := Ideal) (k2_pay2 (F := Ideal) x0 x1 x2 x3 x4 x5) (k2_pay3 (F := Ideal) x0 x1 x2 x3 x4 x5) (ix2 p q)
      = Cert.Spec.unit (Cert.Spec.gate H A W1 b1 W2 b2) (ix2 (r p) q) := by
  have e : (fun k => k2_pay2 (F := Ideal) x0 x1 x2 x3 x4 x5 (ix2 p k)) = Cert.Spec.rowOf (Cert.Spec.gate H A W1 b1 W2 b2) (r p) :=
    funext fun k => gate_point x0 x1 x2 x3 x4 x5 H A W1 W2 b1 b2 r h0 h1 h2 h3 h4 h5 p k
  rw [Cert.BodyValue.unit2, e]
  rfl

end Point

/-! ## The index maps, decided once over the grid -/

/-- Windows 0, 1, 6 and 7 are at block `(t, 0)` at point `t`; windows 2 to 5 stay at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row `p` of the block of point `t` is row `5000 · t + p` of the array. -/
def rowAt (t : Fin cfg2.N) (p : Fin 5000) : Fin 100000 :=
  ⟨5000 * t.val + p.val, by have hN : cfg2.N = 20 := N_2; have ht := t.isLt; have hp := p.isLt; omega⟩

/-! ## The input blocks, read where the output's block says -/

/-- Row `p` of the node features' block at point `t` is row `rowAt t p` of the array. -/
theorem blockH (c : Dev nD) (t : Fin cfg2.N) (p : Fin 5000) (k : Fin 64) :
    (Layer2.blockAt (F := Ideal) V c 0 t : Vec Ideal S5000x64 .f32) (ix2 p k)
      = (V c inH : S100000x64.Idx → EReal) (ix2 (rowAt t p) k) := by
  obtain ⟨e0, e1, -⟩ := idx_facts t
  unfold Layer2.blockAt
  rw [View.read_apply]
  show V c inH _ = V c inH _
  refine congrArg _ ?_
  funext a; apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

/-- The same for the aggregated features' block. -/
theorem blockA (c : Dev nD) (t : Fin cfg2.N) (p : Fin 5000) (k : Fin 64) :
    (Layer2.blockAt (F := Ideal) V c 1 t : Vec Ideal S5000x64 .f32) (ix2 p k)
      = (V c inA : S100000x64.Idx → EReal) (ix2 (rowAt t p) k) := by
  obtain ⟨-, -, e0, e1, -⟩ := idx_facts t
  unfold Layer2.blockAt
  rw [View.read_apply]
  show V c inA _ = V c inA _
  refine congrArg _ ?_
  funext a; apply Fin.ext
  match a with
  | ⟨0, _⟩ => show win2_1.index t (0 : Fin 2) * 5000 + 1 * p.val = 5000 * t.val + p.val; omega
  | ⟨1, _⟩ => show win2_1.index t (1 : Fin 2) * 64 + 1 * k.val = k.val; omega

/-- The first weight matrix's block is the matrix itself at every point. -/
theorem blockW1 (c : Dev nD) (t : Fin cfg2.N) (y : S64x64.Idx) :
    (Layer2.blockAt (F := Ideal) V c 2 t : Vec Ideal S64x64 .f32) y = (V c inW1 : S64x64.Idx → EReal) y := by
  obtain ⟨-, -, -, -, e0, e1, -⟩ := idx_facts t
  unfold Layer2.blockAt
  rw [View.read_apply]
  show V c inW1 _ = V c inW1 _
  refine congrArg _ ?_
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The first bias row's block is the row itself at every point. -/
theorem blockB1 (c : Dev nD) (t : Fin cfg2.N) (y : S1x64.Idx) :
    (Layer2.blockAt (F := Ideal) V c 3 t : Vec Ideal S1x64 .f32) y = (V c inB1 : S1x64.Idx → EReal) y := by
  obtain ⟨-, -, -, -, -, -, e0, e1, -⟩ := idx_facts t
  unfold Layer2.blockAt
  rw [View.read_apply]
  show V c inB1 _ = V c inB1 _
  refine congrArg _ ?_
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The second weight matrix's block is the matrix itself at every point. -/
theorem blockW2 (c : Dev nD) (t : Fin cfg2.N) (y : S64x64.Idx) :
    (Layer2.blockAt (F := Ideal) V c 4 t : Vec Ideal S64x64 .f32) y = (V c inW2 : S64x64.Idx → EReal) y := by
  obtain ⟨-, -, -, -, -, -, -, -, e0, e1, -⟩ := idx_facts t
  unfold Layer2.blockAt
  rw [View.read_apply]
  show V c inW2 _ = V c inW2 _
  refine congrArg _ ?_
  funext a; apply Fin.ext
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- The second bias row's block is the row itself at every point. -/
theorem blockB2 (c : Dev nD) (t : Fin cfg2.N) (y : S1x64.Idx) :
    (Layer2.blockAt (F := Ideal) V c 5 t : Vec Ideal S1x64 .f32) y = (V c inB2 : S1x64.Idx → EReal) y := by
  obtain ⟨-, -, -, -, -, -, -, -, -, -, e0, e1, -⟩ := idx_facts t
  unfold Layer2.blockAt
  rw [View.read_apply]
  show V c inB2 _ = V c inB2 _
  refine congrArg _ ?_
  funext a; apply Fin.ext
  match a with
  | ⟨0, _⟩ => show win2_5.index t (0 : Fin 2) * 1 + 1 * (y 0).val = (y 0).val; omega
  | ⟨1, _⟩ => show win2_5.index t (1 : Fin 2) * 64 + 1 * (y 1).val = (y 1).val; omega

/-! ## Where an entry of an output block sits in its array -/

/-- Entry `(p, q)` of the new features' block at point `t` is entry `(rowAt t p, q)` of the array. -/
theorem embG (t : Fin cfg2.N) (p : Fin 5000) (q : Fin 64) :
    (((cfg2.win 6).blk t).view.emb (ix2 p q : S5000x64.Idx) : S100000x64.Idx) = ix2 (rowAt t p) q := by
  obtain ⟨-, -, -, -, -, -, -, -, -, -, -, -, e0, e1, -⟩ := idx_facts t
  funext a; apply Fin.ext
  match a with
  | ⟨0, _⟩ => show win2_6.index t (0 : Fin 2) * 5000 + 1 * p.val = 5000 * t.val + p.val; omega
  | ⟨1, _⟩ => show win2_6.index t (1 : Fin 2) * 64 + 1 * q.val = q.val; omega

/-- The same for the unit-length rows' block. -/
theorem embU (t : Fin cfg2.N) (p : Fin 5000) (q : Fin 64) :
    (((cfg2.win 7).blk t).view.emb (ix2 p q : S5000x64.Idx) : S100000x64.Idx) = ix2 (rowAt t p) q := by
  obtain ⟨-, -, -, -, -, -, -, -, -, -, -, -, -, -, e0, e1⟩ := idx_facts t
  funext a; apply Fin.ext
  match a with
  | ⟨0, _⟩ => show win2_7.index t (0 : Fin 2) * 5000 + 1 * p.val = 5000 * t.val + p.val; omega
  | ⟨1, _⟩ => show win2_7.index t (1 : Fin 2) * 64 + 1 * q.val = q.val; omega

/-! ## What a point writes back is its block of the whole-array function -/

theorem hz : (![0, 0] : Fin 2 → Nat) = fun _ => 0 := funext fun a => by fin_cases a <;> rfl

/-- The first payload of the six input blocks at point `t`, entry by entry: the new array read through the point's block. -/
theorem new_read (c : Dev nD) (t : Fin cfg2.N) (j : S5000x64.Idx) :
    k2_pay2 (F := Ideal) (Layer2.blockAt V c 0 t) (Layer2.blockAt V c 1 t) (Layer2.blockAt V c 2 t) (Layer2.blockAt V c 3 t)
        (Layer2.blockAt V c 4 t) (Layer2.blockAt V c 5 t) j
      = newArr V c (((cfg2.win 6).blk t).view.emb j) := by
  obtain ⟨p, q, rfl⟩ : ∃ p q, j = ix2 p q := ⟨j 0, j 1, eq_ix2 j⟩
  refine (gate_point _ _ _ _ _ _ (V c inH) (V c inA) (V c inW1) (V c inW2) (fun q => V c inB1 (ix2 0 q)) (fun q => V c inB2 (ix2 0 q))
    (rowAt t) (blockH V c t) (blockA V c t) (funext (blockW1 V c t)) (fun q => blockB1 V c t (ix2 0 q))
    (funext (blockW2 V c t)) (fun q => blockB2 V c t (ix2 0 q)) p q).trans ?_
  exact congrArg (newArr V c) (embG t p q).symm

/-- The second payload likewise: the new array's rows at unit length, read through the point's block. -/
theorem unit_read (c : Dev nD) (t : Fin cfg2.N) (j : S5000x64.Idx) :
    k2_pay1 (F := Ideal)
        (k2_pay2 (F := Ideal) (Layer2.blockAt V c 0 t) (Layer2.blockAt V c 1 t) (Layer2.blockAt V c 2 t) (Layer2.blockAt V c 3 t)
          (Layer2.blockAt V c 4 t) (Layer2.blockAt V c 5 t))
        (k2_pay3 (F := Ideal) (Layer2.blockAt V c 0 t) (Layer2.blockAt V c 1 t) (Layer2.blockAt V c 2 t) (Layer2.blockAt V c 3 t)
          (Layer2.blockAt V c 4 t) (Layer2.blockAt V c 5 t)) j
      = Cert.Spec.unit (newArr V c) (((cfg2.win 7).blk t).view.emb j) := by
  obtain ⟨p, q, rfl⟩ : ∃ p q, j = ix2 p q := ⟨j 0, j 1, eq_ix2 j⟩
  refine (unit_point _ _ _ _ _ _ (V c inH) (V c inA) (V c inW1) (V c inW2) (fun q => V c inB1 (ix2 0 q)) (fun q => V c inB2 (ix2 0 q))
    (rowAt t) (blockH V c t) (blockA V c t) (funext (blockW1 V c t)) (fun q => blockB1 V c t (ix2 0 q))
    (funext (blockW2 V c t)) (fun q => blockB2 V c t (ix2 0 q)) p q).trans ?_
  exact congrArg (Cert.Spec.unit (newArr V c)) (embU t p q).symm

/-- What point `t` writes back to the new features' array is block `t` of `newArr`. -/
theorem flushed6 (c : Dev nD) (t : Fin cfg2.N) :
    (Layer2.data (F := Ideal) V c).flushed 6 t = ((cfg2.win 6).blk t).view.read (Elt Ideal) (newArr V c) := by
  show (cfg2.win 6).cut (grid2.coords t) ((Layer2.data (F := Ideal) V c).after 6 t) = _
  rw [Layer2.after6]
  unfold Layer2.newBlock
  rw [View.canon_unit_zero hz]
  simp only [View.ld_unit_zero (S := S5000x64) hz, View.ld_unit_zero (S := S64x64) hz, View.ld_unit_zero (S := S1x64) hz]
  funext j
  exact new_read V c t j

/-- What point `t` writes back to the unit-length rows' array is block `t` of the unit-length rows of `newArr`. -/
theorem flushed7 (c : Dev nD) (t : Fin cfg2.N) :
    (Layer2.data (F := Ideal) V c).flushed 7 t = ((cfg2.win 7).blk t).view.read (Elt Ideal) (Cert.Spec.unit (newArr V c)) := by
  show (cfg2.win 7).cut (grid2.coords t) ((Layer2.data (F := Ideal) V c).after 7 t) = _
  rw [Layer2.after7]
  unfold Layer2.unitBlock
  rw [View.canon_unit_zero hz]
  simp only [View.ld_unit_zero (S := S5000x64) hz, View.ld_unit_zero (S := S64x64) hz, View.ld_unit_zero (S := S1x64) hz]
  funext j
  exact unit_read V c t j

/-! ## The blocks tile the arrays -/

/-- An index of the new features' array is in point `t`'s block iff each coordinate is in the block's range on its axis. -/
theorem mem_blk6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole outG).slice (win2_6.rect t)).set ↔ _
  rw [View.set_slice_whole, Rect.mem_set_unit]
  exact Iff.rfl

/-- The same for the unit-length rows' array. -/
theorem mem_blk7 (t : Fin cfg2.N) (i : S100000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole outU).slice (win2_7.rect t)).set ↔ _
  rw [View.set_slice_whole, Rect.mem_set_unit]
  exact Iff.rfl

/-- Row `r` of the new features' array is in the block of point `r / 5000`, which writes back. -/
theorem cover6 (i : S100000x64.Idx) : ∃ t : Fin cfg2.N, (cfg2.win 6).flush t = true ∧ i ∈ ((cfg2.win 6).blk t).view.set := by
  have hN : cfg2.N = 20 := N_2
  have hi0 : (i 0).val < 100000 := (i 0).isLt
  have hi1 : (i 1).val < 64 := (i 1).isLt
  obtain ⟨t, ht⟩ : ∃ t : Fin cfg2.N, t.val = (i 0).val / 5000 := ⟨⟨(i 0).val / 5000, by omega⟩, rfl⟩
  obtain ⟨-, -, -, -, -, -, -, -, -, -, -, -, e0, e1, -⟩ := idx_facts t
  refine ⟨t, flush2_6 t, ?_⟩
  rw [mem_blk6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The same for the unit-length rows' array. -/
theorem cover7 (i : S100000x64.Idx) : ∃ t : Fin cfg2.N, (cfg2.win 7).flush t = true ∧ i ∈ ((cfg2.win 7).blk t).view.set := by
  have hN : cfg2.N = 20 := N_2
  have hi0 : (i 0).val < 100000 := (i 0).isLt
  have hi1 : (i 1).val < 64 := (i 1).isLt
  obtain ⟨t, ht⟩ : ∃ t : Fin cfg2.N, t.val = (i 0).val / 5000 := ⟨⟨(i 0).val / 5000, by omega⟩, rfl⟩
  obtain ⟨-, -, -, -, -, -, -, -, -, -, -, -, -, -, e0, e1⟩ := idx_facts t
  refine ⟨t, flush2_7 t, ?_⟩
  rw [mem_blk7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 64 ≤ (i 1).val ∧ (i 1).val < win2_7.index t (1 : Fin 2) * 64 + 64; omega

/-! ## The two arrays after the call -/

/-- After the last point the new features' array is the gated layer of the arrays the call was entered with. -/
theorem new_array (c : Dev nD) : (Layer2.data (F := Ideal) V c).arrAt 6 cfg2.N = newArr V c :=
  (Layer2.data (F := Ideal) V c).arrAt_eq_of_cover 6 (newArr V c) (fun t _ => flushed6 V c t) cover6

/-- And the second output array is that layer's rows scaled to unit length. -/
theorem unit_array (c : Dev nD) : (Layer2.data (F := Ideal) V c).arrAt 7 cfg2.N = Cert.Spec.unit (newArr V c) :=
  (Layer2.data (F := Ideal) V c).arrAt_eq_of_cover 7 (Cert.Spec.unit (newArr V c)) (fun t _ => flushed7 V c t) cover7

end Cert.KernelIdeal.LayerValue2

end
-- ==== Proof.HostChain.lean ====
/-
  The kernel's program between its three kernel calls is plain host arithmetic, and it is the same arithmetic the reference
  program does: the rows and columns of the edge list, the degree of every node and from it the scale of every edge, the
  aggregation (gather the features along the edges' columns, scale, scatter-add into the edges' rows), and the slices of
  the stacked weights and biases each layer uses. This file follows the contents of the buffers the three calls are entered
  with, and what they leave, through @main, and says each one by the NAME the reference's own stages give the same value
  (`val_main_vN` of the arguments): the two programs' operations are literally the same terms, so each such equation is
  closed by unfolding. The dense layers in between are where the programs differ; there the kernel side's array
  (the blocks the grid points wrote back) and the reference's stage are both the specification's `gate` / `unit`.
-/
import proofs.«170062_j90890097918586_1_alg».proof.Proof.MainRun
import proofs.«170062_j90890097918586_1_alg».proof.Proof.RefImports
import proofs.«170062_j90890097918586_1_alg».proof.Proof.RefLayers
import proofs.«170062_j90890097918586_1_alg».proof.Proof.LayerValue0
import proofs.«170062_j90890097918586_1_alg».proof.Proof.LayerValue1
import proofs.«170062_j90890097918586_1_alg».proof.Proof.LayerValue2
import Idealize.ShloMosaic.Lib.ValueLayout

set_option maxRecDepth 16384

noncomputable section

namespace Cert.KernelIdeal.HostChain

open Cert.KernelIdeal Cert.KernelIdeal.Gen Cert.KernelIdeal.MainRun
open Idealize.ShloMosaic Idealize.ShloMosaic.TcCoe Idealize.SL.Sem Idealize.ShloMosaic.StableHlo
open Cert.ReferenceIdeal.Read

/-! The readings of the first three stretches are definitional, so they are stated for any float instance. -/
section AnyInstance

variable {F : FTy → Type} [FloatOps F] (m : (ℓ : Loc nD τ sig) → Buf (Elt F) ℓ) (c : Dev nD)

/-! ## Before the first call: three host stretches from the launch memory -/

/-- The node features reach the first call as launched. -/
theorem entry1_features : W3 m c (Proc.devRef .tc main_arg0) = m ((c : Thread nD τ).loc main_arg0) := by
  after_results_simp <;> rfl
/-- The edges' rows, columns and scales, which every aggregation reads again. -/
theorem entry1_rows : W3 m c (Proc.devRef .tc main_v1) = val_main_v1 (F := F) (m ((c : Thread nD τ).loc main_arg1)) := by
  after_results_simp <;> rfl
theorem entry1_cols : W3 m c (Proc.devRef .tc main_v3) = val_main_v3 (F := F) (m ((c : Thread nD τ).loc main_arg1)) := by
  after_results_simp <;> rfl
/-- After the first two stretches: the edges' rows and columns, every node's scale (the reciprocal root of its degree, zero
    where the degree is zero), and the node features as launched. -/
theorem mid_rows : W2 m c (Proc.devRef .tc main_v1) = val_main_v1 (F := F) (m ((c : Thread nD τ).loc main_arg1)) := by
  after_results_simp <;> rfl
theorem mid_cols : W2 m c (Proc.devRef .tc main_v3) = val_main_v3 (F := F) (m ((c : Thread nD τ).loc main_arg1)) := by
  after_results_simp <;> rfl
theorem mid_node_scale : W2 m c (Proc.devRef .tc main_v13) = val_main_v13 (F := F) (m ((c : Thread nD τ).loc main_arg1)) := by
  after_results_simp <;> rfl
theorem mid_features : W2 m c (Proc.devRef .tc main_arg0) = m ((c : Thread nD τ).loc main_arg0) := by
  after_results_simp <;> rfl
/-- The scale of every edge: the product of its two end nodes' scales. The third stretch is read over the contents the
    first two leave, taken as given. -/
theorem entry1_scale : W3 m c (Proc.devRef .tc main_v28) = val_main_v28 (F := F) (m ((c : Thread nD τ).loc main_arg1)) := by
  have h13 := mid_node_scale m c
  have h1 := mid_rows m c
  have h3 := mid_cols m c
  show StableHlo.after hostOps0_2 (W2 m c) (Proc.devRef .tc main_v28) = _
  generalize W2 m c = Wx at h13 h1 h3 ⊢
  after_results_simp
  rw [h13, h1, h3]
  rfl
/-- The first aggregation. -/
theorem entry1_agg : W3 m c (Proc.devRef .tc main_v41)
    = val_main_v41 (F := F) (m ((c : Thread nD τ).loc main_arg0)) (m ((c : Thread nD τ).loc main_arg1)) := by
  have h13 := mid_node_scale m c
  have h1 := mid_rows m c
  have h3 := mid_cols m c
  have h0 := mid_features m c
  show StableHlo.after hostOps0_2 (W2 m c) (Proc.devRef .tc main_v41) = _
  generalize W2 m c = Wx at h13 h1 h3 h0 ⊢
  after_results_simp
  rw [h13, h1, h3, h0]
  rfl
/-- Layer 1's two weight matrices, and its two bias rows as one-row matrices. -/
theorem entry1_w1 : W3 m c (Proc.devRef .tc main_v43) = val_main_v43 (F := F) (m ((c : Thread nD τ).loc main_arg2)) := by
  after_results_simp <;> rfl
theorem entry1_w2 : W3 m c (Proc.devRef .tc main_v47) = val_main_v57 (F := F) (m ((c : Thread nD τ).loc main_arg4)) := by
  after_results_simp <;> rfl
theorem entry1_b1 : W3 m c (Proc.devRef .tc main_v50)
    = shapeCast S1x64 (val_main_v46 (F := F) (m ((c : Thread nD τ).loc main_arg3))) shapeCasts_S64_S1x64 := by
  after_results_simp <;> rfl
theorem entry1_b2 : W3 m c (Proc.devRef .tc main_v51)
    = shapeCast S1x64 (val_main_v60 (F := F) (m ((c : Thread nD τ).loc main_arg5))) shapeCasts_S64_S1x64 := by
  after_results_simp <;> rfl

/-- The stacked weights and biases are still as launched. -/
theorem entry1_arg2 : W3 m c (Proc.devRef .tc main_arg2) = (m ((c : Thread nD τ).loc main_arg2)) := by
  after_results_simp <;> rfl
theorem entry1_arg3 : W3 m c (Proc.devRef .tc main_arg3) = (m ((c : Thread nD τ).loc main_arg3)) := by
  after_results_simp <;> rfl
theorem entry1_arg4 : W3 m c (Proc.devRef .tc main_arg4) = (m ((c : Thread nD τ).loc main_arg4)) := by
  after_results_simp <;> rfl
theorem entry1_arg5 : W3 m c (Proc.devRef .tc main_arg5) = (m ((c : Thread nD τ).loc main_arg5)) := by
  after_results_simp <;> rfl

end AnyInstance

variable (m : (ℓ : Loc nD τ sig) → Buf (Elt Ideal) ℓ) (c : Dev nD)

/-! ## Layer 1's call -/

/-- The six arrays layer 1's call is entered with, put through the specification's layer, are the reference's stage of
    the layer's new features: the weight slices and bias rows are read off the stacked arguments, and the reference's
    stage is the specification's `gate` of the same arrays. -/
theorem call1_spec : LayerValue0.newArr (X3 m) c = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold LayerValue0.newArr
  show Cert.Spec.gate (W3 m c (Proc.devRef .tc main_arg0)) (W3 m c (Proc.devRef .tc main_v41)) (W3 m c (Proc.devRef .tc main_v43))
      (fun q => W3 m c (Proc.devRef .tc main_v50) (ValueIdx.ix2 0 q)) (W3 m c (Proc.devRef .tc main_v47))
      (fun q => W3 m c (Proc.devRef .tc main_v51) (ValueIdx.ix2 0 q)) = _
  rw [entry1_features, entry1_agg, entry1_w1, entry1_w2, entry1_b1, entry1_b2, Cert.RefLayers.new1,
    Cert.RefLayers.mat1a, Cert.RefLayers.mat1b]
  have hb1 : (fun q : Fin 64 => shapeCast S1x64 (val_main_v46 (F := Ideal) (m ((c : Thread nD τ).loc main_arg3))) shapeCasts_S64_S1x64 (ValueIdx.ix2 0 q))
      = Cert.Spec.biasOf (m ((c : Thread nD τ).loc main_arg3)) 0 :=
    funext fun q => (ValueIdx.shapeCast_a_1a_apply _ _ 0 q).trans (Cert.RefLayers.bias1a _ q)
  have hb2 : (fun q : Fin 64 => shapeCast S1x64 (val_main_v60 (F := Ideal) (m ((c : Thread nD τ).loc main_arg5))) shapeCasts_S64_S1x64 (ValueIdx.ix2 0 q))
      = Cert.Spec.biasOf (m ((c : Thread nD τ).loc main_arg5)) 0 :=
    funext fun q => (ValueIdx.shapeCast_a_1a_apply _ _ 0 q).trans (Cert.RefLayers.bias1b _ q)
  rw [hb1, hb2]

/-- After the call the two output arrays hold the reference's stages: the layer's new features and their unit-length rows. -/
theorem after1_new : W4 m c (Proc.devRef .tc main_v52_0) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_arr m c 6).trans ((LayerValue0.new_array (X3 m) c).trans (call1_spec m c))
theorem after1_unit : W4 m c (Proc.devRef .tc main_v52_1) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_arr m c 7).trans ((LayerValue0.unit_array (X3 m) c).trans
    ((congrArg Cert.Spec.unit (call1_spec m c)).trans (Cert.RefLayers.unit1 ..).symm))

/-! ## Before layer 2's call: the aggregation of layer 1's new features, and layer 2's slices -/

/-- Outside the arrays of the previous call nothing changed across it: the edge list's pieces and the arguments. -/
theorem carried2_rows : W4 m c (Proc.devRef .tc main_v1) = val_main_v1 (F := Ideal) (m ((c : Thread nD τ).loc main_arg1)) :=
  (W4_of_ne m c main_v1 (by decide)).trans (entry1_rows m c)
theorem carried2_cols : W4 m c (Proc.devRef .tc main_v3) = val_main_v3 (F := Ideal) (m ((c : Thread nD τ).loc main_arg1)) :=
  (W4_of_ne m c main_v3 (by decide)).trans (entry1_cols m c)
theorem carried2_scale : W4 m c (Proc.devRef .tc main_v28) = val_main_v28 (F := Ideal) (m ((c : Thread nD τ).loc main_arg1)) :=
  (W4_of_ne m c main_v28 (by decide)).trans (entry1_scale m c)
theorem carried2_arg2 : W4 m c (Proc.devRef .tc main_arg2) = (m ((c : Thread nD τ).loc main_arg2)) :=
  (W4_of_ne m c main_arg2 (by decide)).trans (entry1_arg2 m c)
theorem carried2_arg3 : W4 m c (Proc.devRef .tc main_arg3) = (m ((c : Thread nD τ).loc main_arg3)) :=
  (W4_of_ne m c main_arg3 (by decide)).trans (entry1_arg3 m c)
theorem carried2_arg4 : W4 m c (Proc.devRef .tc main_arg4) = (m ((c : Thread nD τ).loc main_arg4)) :=
  (W4_of_ne m c main_arg4 (by decide)).trans (entry1_arg4 m c)
theorem carried2_arg5 : W4 m c (Proc.devRef .tc main_arg5) = (m ((c : Thread nD τ).loc main_arg5)) :=
  (W4_of_ne m c main_arg5 (by decide)).trans (entry1_arg5 m c)

/-- The previous layer's new features reach this call untouched by the host stretch. -/
theorem entry2_features : W5 m c (Proc.devRef .tc main_v52_0) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (StableHlo.after_of_writes_sub hostOps1 _ hostOps1_writes (by decide)).trans (after1_new m c)
/-- The aggregation of those features: the same gather, scale and scatter-add as the reference's. -/
theorem entry2_agg : W5 m c (Proc.devRef .tc main_v65) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W4 m c) (Proc.devRef .tc main_v65) = _
  after_results_simp
  rw [carried2_rows, carried2_cols, carried2_scale, after1_new]
  rfl
theorem entry2_w1 : W5 m c (Proc.devRef .tc main_v67) = val_main_v92 (F := Ideal) (m ((c : Thread nD τ).loc main_arg2)) := by
  show StableHlo.after hostOps1 (W4 m c) (Proc.devRef .tc main_v67) = _
  after_results_simp; rw [carried2_arg2]; rfl
theorem entry2_w2 : W5 m c (Proc.devRef .tc main_v71) = val_main_v106 (F := Ideal) (m ((c : Thread nD τ).loc main_arg4)) := by
  show StableHlo.after hostOps1 (W4 m c) (Proc.devRef .tc main_v71) = _
  after_results_simp; rw [carried2_arg4]; rfl
theorem entry2_b1 : W5 m c (Proc.devRef .tc main_v74)
    = shapeCast S1x64 (val_main_v95 (F := Ideal) (m ((c : Thread nD τ).loc main_arg3))) shapeCasts_S64_S1x64 := by
  show StableHlo.after hostOps1 (W4 m c) (Proc.devRef .tc main_v74) = _
  after_results_simp; rw [carried2_arg3]; rfl
theorem entry2_b2 : W5 m c (Proc.devRef .tc main_v75)
    = shapeCast S1x64 (val_main_v109 (F := Ideal) (m ((c : Thread nD τ).loc main_arg5))) shapeCasts_S64_S1x64 := by
  show StableHlo.after hostOps1 (W4 m c) (Proc.devRef .tc main_v75) = _
  after_results_simp; rw [carried2_arg5]; rfl

/-! ## Layer 2's call -/

/-- The six arrays layer 2's call is entered with, put through the specification's layer, are the reference's stage of
    the layer's new features: the weight slices and bias rows are read off the stacked arguments, and the reference's
    stage is the specification's `gate` of the same arrays. -/
theorem call2_spec : LayerValue1.newArr (X5 m) c = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold LayerValue1.newArr
  show Cert.Spec.gate (W5 m c (Proc.devRef .tc main_v52_0)) (W5 m c (Proc.devRef .tc main_v65)) (W5 m c (Proc.devRef .tc main_v67))
      (fun q => W5 m c (Proc.devRef .tc main_v74) (ValueIdx.ix2 0 q)) (W5 m c (Proc.devRef .tc main_v71))
      (fun q => W5 m c (Proc.devRef .tc main_v75) (ValueIdx.ix2 0 q)) = _
  rw [entry2_features, entry2_agg, entry2_w1, entry2_w2, entry2_b1, entry2_b2, Cert.RefLayers.new2,
    Cert.RefLayers.mat2a, Cert.RefLayers.mat2b]
  have hb1 : (fun q : Fin 64 => shapeCast S1x64 (val_main_v95 (F := Ideal) (m ((c : Thread nD τ).loc main_arg3))) shapeCasts_S64_S1x64 (ValueIdx.ix2 0 q))
      = Cert.Spec.biasOf (m ((c : Thread nD τ).loc main_arg3)) 1 :=
    funext fun q => (ValueIdx.shapeCast_a_1a_apply _ _ 0 q).trans (Cert.RefLayers.bias2a _ q)
  have hb2 : (fun q : Fin 64 => shapeCast S1x64 (val_main_v109 (F := Ideal) (m ((c : Thread nD τ).loc main_arg5))) shapeCasts_S64_S1x64 (ValueIdx.ix2 0 q))
      = Cert.Spec.biasOf (m ((c : Thread nD τ).loc main_arg5)) 1 :=
    funext fun q => (ValueIdx.shapeCast_a_1a_apply _ _ 0 q).trans (Cert.RefLayers.bias2b _ q)
  rw [hb1, hb2]

/-- After the call the two output arrays hold the reference's stages: the layer's new features and their unit-length rows. -/
theorem after2_new : W6 m c (Proc.devRef .tc main_v76_0) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m c 6).trans ((LayerValue1.new_array (X5 m) c).trans (call2_spec m c))
theorem after2_unit : W6 m c (Proc.devRef .tc main_v76_1) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m c 7).trans ((LayerValue1.unit_array (X5 m) c).trans
    ((congrArg Cert.Spec.unit (call2_spec m c)).trans (Cert.RefLayers.unit2 ..).symm))

/-! ## Before layer 3's call: the aggregation of layer 2's new features, and layer 3's slices -/

/-- Outside the arrays of the previous call nothing changed across it: the edge list's pieces and the arguments. -/
theorem carried3_rows : W6 m c (Proc.devRef .tc main_v1) = val_main_v1 (F := Ideal) (m ((c : Thread nD τ).loc main_arg1)) :=
  (W6_of_ne m c main_v1 (by decide)).trans ((StableHlo.after_of_writes_sub hostOps1 _ hostOps1_writes (by decide)).trans (carried2_rows m c))
theorem carried3_cols : W6 m c (Proc.devRef .tc main_v3) = val_main_v3 (F := Ideal) (m ((c : Thread nD τ).loc main_arg1)) :=
  (W6_of_ne m c main_v3 (by decide)).trans ((StableHlo.after_of_writes_sub hostOps1 _ hostOps1_writes (by decide)).trans (carried2_cols m c))
theorem carried3_scale : W6 m c (Proc.devRef .tc main_v28) = val_main_v28 (F := Ideal) (m ((c : Thread nD τ).loc main_arg1)) :=
  (W6_of_ne m c main_v28 (by decide)).trans ((StableHlo.after_of_writes_sub hostOps1 _ hostOps1_writes (by decide)).trans (carried2_scale m c))
theorem carried3_arg2 : W6 m c (Proc.devRef .tc main_arg2) = (m ((c : Thread nD τ).loc main_arg2)) :=
  (W6_of_ne m c main_arg2 (by decide)).trans ((StableHlo.after_of_writes_sub hostOps1 _ hostOps1_writes (by decide)).trans (carried2_arg2 m c))
theorem carried3_arg3 : W6 m c (Proc.devRef .tc main_arg3) = (m ((c : Thread nD τ).loc main_arg3)) :=
  (W6_of_ne m c main_arg3 (by decide)).trans ((StableHlo.after_of_writes_sub hostOps1 _ hostOps1_writes (by decide)).trans (carried2_arg3 m c))
theorem carried3_arg4 : W6 m c (Proc.devRef .tc main_arg4) = (m ((c : Thread nD τ).loc main_arg4)) :=
  (W6_of_ne m c main_arg4 (by decide)).trans ((StableHlo.after_of_writes_sub hostOps1 _ hostOps1_writes (by decide)).trans (carried2_arg4 m c))
theorem carried3_arg5 : W6 m c (Proc.devRef .tc main_arg5) = (m ((c : Thread nD τ).loc main_arg5)) :=
  (W6_of_ne m c main_arg5 (by decide)).trans ((StableHlo.after_of_writes_sub hostOps1 _ hostOps1_writes (by decide)).trans (carried2_arg5 m c))

/-- The previous layer's new features reach this call untouched by the host stretch. -/
theorem entry3_features : W7 m c (Proc.devRef .tc main_v76_0) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (StableHlo.after_of_writes_sub hostOps2 _ hostOps2_writes (by decide)).trans (after2_new m c)
/-- The aggregation of those features: the same gather, scale and scatter-add as the reference's. -/
theorem entry3_agg : W7 m c (Proc.devRef .tc main_v89) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m c) (Proc.devRef .tc main_v89) = _
  after_results_simp
  rw [carried3_rows, carried3_cols, carried3_scale, after2_new]
  rfl
theorem entry3_w1 : W7 m c (Proc.devRef .tc main_v91) = val_main_v141 (F := Ideal) (m ((c : Thread nD τ).loc main_arg2)) := by
  show StableHlo.after hostOps2 (W6 m c) (Proc.devRef .tc main_v91) = _
  after_results_simp; rw [carried3_arg2]; rfl
theorem entry3_w2 : W7 m c (Proc.devRef .tc main_v95) = val_main_v155 (F := Ideal) (m ((c : Thread nD τ).loc main_arg4)) := by
  show StableHlo.after hostOps2 (W6 m c) (Proc.devRef .tc main_v95) = _
  after_results_simp; rw [carried3_arg4]; rfl
theorem entry3_b1 : W7 m c (Proc.devRef .tc main_v98)
    = shapeCast S1x64 (val_main_v144 (F := Ideal) (m ((c : Thread nD τ).loc main_arg3))) shapeCasts_S64_S1x64 := by
  show StableHlo.after hostOps2 (W6 m c) (Proc.devRef .tc main_v98) = _
  after_results_simp; rw [carried3_arg3]; rfl
theorem entry3_b2 : W7 m c (Proc.devRef .tc main_v99)
    = shapeCast S1x64 (val_main_v158 (F := Ideal) (m ((c : Thread nD τ).loc main_arg5))) shapeCasts_S64_S1x64 := by
  show StableHlo.after hostOps2 (W6 m c) (Proc.devRef .tc main_v99) = _
  after_results_simp; rw [carried3_arg5]; rfl

/-! ## Layer 3's call -/

/-- The six arrays layer 3's call is entered with, put through the specification's layer, are the reference's stage of
    the layer's new features: the weight slices and bias rows are read off the stacked arguments, and the reference's
    stage is the specification's `gate` of the same arrays. -/
theorem call3_spec : LayerValue2.newArr (X7 m) c = val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold LayerValue2.newArr
  show Cert.Spec.gate (W7 m c (Proc.devRef .tc main_v76_0)) (W7 m c (Proc.devRef .tc main_v89)) (W7 m c (Proc.devRef .tc main_v91))
      (fun q => W7 m c (Proc.devRef .tc main_v98) (ValueIdx.ix2 0 q)) (W7 m c (Proc.devRef .tc main_v95))
      (fun q => W7 m c (Proc.devRef .tc main_v99) (ValueIdx.ix2 0 q)) = _
  rw [entry3_features, entry3_agg, entry3_w1, entry3_w2, entry3_b1, entry3_b2, Cert.RefLayers.new3,
    Cert.RefLayers.mat3a, Cert.RefLayers.mat3b]
  have hb1 : (fun q : Fin 64 => shapeCast S1x64 (val_main_v144 (F := Ideal) (m ((c : Thread nD τ).loc main_arg3))) shapeCasts_S64_S1x64 (ValueIdx.ix2 0 q))
      = Cert.Spec.biasOf (m ((c : Thread nD τ).loc main_arg3)) 2 :=
    funext fun q => (ValueIdx.shapeCast_a_1a_apply _ _ 0 q).trans (Cert.RefLayers.bias3a _ q)
  have hb2 : (fun q : Fin 64 => shapeCast S1x64 (val_main_v158 (F := Ideal) (m ((c : Thread nD τ).loc main_arg5))) shapeCasts_S64_S1x64 (ValueIdx.ix2 0 q))
      = Cert.Spec.biasOf (m ((c : Thread nD τ).loc main_arg5)) 2 :=
    funext fun q => (ValueIdx.shapeCast_a_1a_apply _ _ 0 q).trans (Cert.RefLayers.bias3b _ q)
  rw [hb1, hb2]

/-- After the call the two output arrays hold the reference's stages: the layer's new features and their unit-length rows. -/
theorem after3_new : W8 m c (Proc.devRef .tc main_v100_0) = val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m c 6).trans ((LayerValue2.new_array (X7 m) c).trans (call3_spec m c))
theorem after3_unit : W8 m c (Proc.devRef .tc main_v100_1) = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m c 7).trans ((LayerValue2.unit_array (X7 m) c).trans
    ((congrArg Cert.Spec.unit (call3_spec m c)).trans (Cert.RefLayers.unit3 ..).symm))

/-! ## The end: the concatenation -/

/-- The input features and the first two layers' unit-length rows reach the concatenation untouched. -/
theorem last_features : W8 m c (Proc.devRef .tc main_arg0) = (m ((c : Thread nD τ).loc main_arg0)) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((Layer0.data (X3 m) c).arrAt_in 0 rfl _).trans (Layer0.arrays_eq (X3 m) c 0))
    _ = (m ((c : Thread nD τ).loc main_arg0)) := entry1_features m c
theorem last_unit1 : W8 m c (Proc.devRef .tc main_v52_1) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc W8 m c (Proc.devRef .tc main_v52_1)
    _ = W7 m c (Proc.devRef .tc main_v52_1) := W8_of_ne m c main_v52_1 (by decide)
    _ = W6 m c (Proc.devRef .tc main_v52_1) := StableHlo.after_of_writes_sub hostOps2 _ hostOps2_writes (by decide)
    _ = W5 m c (Proc.devRef .tc main_v52_1) := W6_of_ne m c main_v52_1 (by decide)
    _ = W4 m c (Proc.devRef .tc main_v52_1) := StableHlo.after_of_writes_sub hostOps1 _ hostOps1_writes (by decide)
    _ = _ := after1_unit m c
theorem last_unit2 : W8 m c (Proc.devRef .tc main_v76_1) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc W8 m c (Proc.devRef .tc main_v76_1)
    _ = W7 m c (Proc.devRef .tc main_v76_1) := W8_of_ne m c main_v76_1 (by decide)
    _ = W6 m c (Proc.devRef .tc main_v76_1) := StableHlo.after_of_writes_sub hostOps2 _ hostOps2_writes (by decide)
    _ = _ := after2_unit m c

/-- THE RESULT: after the run the kernel program's result buffer holds the reference's last stage of the arguments — the
    input features beside the three layers' unit-length rows. -/
theorem result : W9 m c (Proc.devRef .tc main_v101) = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W8 m c) (Proc.devRef .tc main_v101) = _
  after_results_simp
  show concatenate S100000x256 1 [⟨S100000x64, W8 m c (Proc.devRef .tc main_arg0)⟩, ⟨S100000x64, W8 m c (Proc.devRef .tc main_v52_1)⟩,
      ⟨S100000x64, W8 m c (Proc.devRef .tc main_v76_1)⟩, ⟨S100000x64, W8 m c (Proc.devRef .tc main_v100_1)⟩]
      concatenates_S100000x64_S100000x64_S100000x64_S100000x64_S100000x256_d1 = _
  rw [last_features, last_unit1, last_unit2, after3_unit]
  rfl

end Cert.KernelIdeal.HostChain

end
-- ==== Proof.lean ====
/-
  The certificate's five claims, assembled.

  Both idealized programs compute, from node features x, an edge list and three layers' weights and biases, the array
  [ x | unit(h₁) | unit(h₂) | unit(h₃) ] of shape [100000, 256], where h₁ = gate(x, agg x), h₂ = gate(h₁, agg h₁),
  h₃ = gate(h₂, agg h₂): `gate` is the two-branch dense layer with the leaky rectifier, `unit` scales every row to unit
  length over a floored squared norm, and `agg` gathers along the edges, scales by the degree normalisation and scatter-adds
  (Proof/Spec.lean). The reference does all of it with host operations on whole arrays; the kernel does `agg` with the
  same host operations and `gate` / `unit` in a kernel call per layer, 5000 rows at a time, rounding the matrix products'
  operands to bf16 — which at the ideal instance is the identity. Since a row of `gate` and of `unit` depends only on the
  same row of its inputs, the blocks the calls write back tile the same arrays the reference computes, and the two results
  are one array.

  * the frames of the two kernel programs come from one run theorem each (Proof/MainRun.lean for the idealized program,
    Proof/Bits/MainRun.lean for the word-level one): @main's nine items chained, every buffer's contents followed;
  * the reference's run is proved in stages (Proof/RefStagedRun.lean), its frame is that run with the result dropped;
  * the ideal pass rewrote nothing, so the idealized kernel is the kernel's own text read at the ideal instance;
  * for the equality of results, the kernel's result buffer after the run is the reference's last stage of the arguments
    (Proof/HostChain.lean), and so is the reference's.
-/
import proofs.«170062_j90890097918586_1_alg».proof.Defs
import proofs.«170062_j90890097918586_1_alg».proof.Proof.Gen.Kernel
import proofs.«170062_j90890097918586_1_alg».proof.Proof.Gen.KernelIdeal
import proofs.«170062_j90890097918586_1_alg».proof.Proof.Gen.ReferenceIdeal
import proofs.«170062_j90890097918586_1_alg».proof.Proof.Gen.Pre_finite_inputs
import proofs.«170062_j90890097918586_1_alg».proof.Proof.MainRun
import proofs.«170062_j90890097918586_1_alg».proof.Proof.Bits.MainRun
import proofs.«170062_j90890097918586_1_alg».proof.Proof.RefImports
import proofs.«170062_j90890097918586_1_alg».proof.Proof.RefStagedRun
import proofs.«170062_j90890097918586_1_alg».proof.Proof.HostChain

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.MainRun.frame (F := Bits) m ρ

theorem frame_kernel_ideal [Cert.KernelIdeal.Facts] [Cert.Pre_finite_inputs.Facts] : Cert.frame_KernelIdeal :=
  fun m ρ _ => Cert.KernelIdeal.MainRun.frame (F := Ideal) m ρ

theorem frame_reference [Cert.ReferenceIdeal.Facts] [Cert.Pre_finite_inputs.Facts] : Cert.frame_ReferenceIdeal :=
  fun m ρ _ => (θ_run Cert.ReferenceIdeal.defs _ _).mono (fun _ h c => (h c).2) (Cert.RefStagedRun.run (F := Ideal) m ρ)

theorem preserves : Cert.preserves_Kernel_KernelIdeal := trivial

/-- From memories that agree on the six arguments both programs end with the result array at the reference's last stage
    of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v176 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.MainRun.run_all (F := Ideal) m ρ)
    exact ⟨(h c _ (Cert.KernelIdeal.MainRun.mem_uc Cert.KernelIdeal.main_v101 (by decide))).trans (Cert.KernelIdeal.HostChain.result m c),
      (h c _ (Cert.KernelIdeal.MainRun.mem_uc Cert.KernelIdeal.main_arg0 (by decide))).trans (Cert.KernelIdeal.MainRun.W9_main_arg0 m c),
      (h c _ (Cert.KernelIdeal.MainRun.mem_uc Cert.KernelIdeal.main_arg1 (by decide))).trans (Cert.KernelIdeal.MainRun.W9_main_arg1 m c),
      (h c _ (Cert.KernelIdeal.MainRun.mem_uc Cert.KernelIdeal.main_arg2 (by decide))).trans (Cert.KernelIdeal.MainRun.W9_main_arg2 m c),
      (h c _ (Cert.KernelIdeal.MainRun.mem_uc Cert.KernelIdeal.main_arg3 (by decide))).trans (Cert.KernelIdeal.MainRun.W9_main_arg3 m c),
      (h c _ (Cert.KernelIdeal.MainRun.mem_uc Cert.KernelIdeal.main_arg4 (by decide))).trans (Cert.KernelIdeal.MainRun.W9_main_arg4 m c),
      (h c _ (Cert.KernelIdeal.MainRun.mem_uc Cert.KernelIdeal.main_arg5 (by decide))).trans (Cert.KernelIdeal.MainRun.W9_main_arg5 m c)⟩
  · refine (θ_run Cert.ReferenceIdeal.defs _ _).mono (fun r h c => ⟨(h c).1.trans ?_, (h c).2⟩)
      (Cert.RefStagedRun.run (F := Ideal) m' ρ')
    rw [(hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
